-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part5 {F : FTy → Type} [FloatOps F] (main_arg1 : FVec F S10000x10000 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_cst_34 : FVec F S_ .f32 := constant S_ .f32 0x00000000#32
  let main_v89 : FVec F S10000 .f32 := (fun x v => Host.reduceAdd x v reducesTo_S10000x10000_S10000_d1 h_S_) main_arg1 main_cst_34
  let main_cst_35 : FVec F S_ .f32 := constant S_ .f32 0x00000000#32
  let main_v90 : FVec F S10000 .f32 := broadcastInDim S10000 ![] bcast_S_S10000 main_cst_35
  let main_v91 : IVec S10000 1 := cmpf .oge main_v89 main_v90
  let main_c_36 : IVec S_ 1 := constantI S_ 1 1#1
  let main_v92 : IVec S_ 1 := (fun x v => Host.reduce IntOp.andi x v reducesTo_S10000_S_d0 h_S_) main_v91 main_c_36
  let main_v93 : IVec S_ 1 := andi main_v88 main_v92
  main_v93

def fn_part4 {F : FTy → Type} [FloatOps F] (main_arg1 : FVec F S10000x10000 .f32) (main_arg14 : FVec F S128 .f32) (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg1 main_v83 main_v84 main_cst_32

def fn_part3 {F : FTy → Type} [FloatOps F] (main_arg1 : FVec F S10000x10000 .f32) (main_arg11 : FVec F S128 .f32) (main_arg12 : FVec F S128x128 .f32) (main_arg13 : FVec F S128 .f32) (main_arg14 : FVec F S128 .f32) (main_arg15 : FVec F S128 .f32) (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg14 main_arg15 main_arg16 main_arg17 main_v63 main_v67

def fn_part2 {F : FTy → Type} [FloatOps F] (main_arg1 : FVec F S10000x10000 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128x128 .f32) (main_arg17 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg1 main_arg11 main_arg12 main_arg13 main_arg14 main_arg15 main_arg16 main_arg17 main_v48 main_v49 main_v50

def fn_part1 {F : FTy → Type} [FloatOps F] (main_arg1 : FVec F S10000x10000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128x128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg7 main_arg8 main_arg9 main_arg10 main_arg11 main_arg12 main_arg13 main_arg14 main_arg15 main_arg16 main_arg17 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128x128 .f32) (main_arg17 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10000x1 : Shape := ⟨2, ![10000, 1]⟩
abbrev S400x10000 : Shape := ⟨2, ![400, 10000]⟩
abbrev S400x1 : Shape := ⟨2, ![400, 1]⟩
abbrev S400 : Shape := ⟨1, ![400]⟩
abbrev S1x128 : Shape := ⟨2, ![1, 128]⟩
abbrev S400x128 : Shape := ⟨2, ![400, 128]⟩

abbrev nBuf : Space → Nat
  | .hbm => 34
  | .vmem => 43
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S10000x1, .f32⟩
  | .hbm, ⟨19, _⟩ => ⟨S1x128, .f32⟩
  | .hbm, ⟨20, _⟩ => ⟨S10000x128, .f32⟩
  | .hbm, ⟨21, _⟩ => ⟨S10000x128, .bf16⟩
  | .hbm, ⟨22, _⟩ => ⟨S10000x1, .f32⟩
  | .hbm, ⟨23, _⟩ => ⟨S1x128, .f32⟩
  | .hbm, ⟨24, _⟩ => ⟨S10000x128, .bf16⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S400x1, .f32⟩
  | .local _ .vmem, ⟨3, _⟩ => ⟨S400x1, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S10000x1, .f32⟩
  | .local _ .vmem, ⟨8, _⟩ => ⟨S10000x128, .f32⟩
  | .local _ .vmem, ⟨9, _⟩ => ⟨S10000x128, .bf16⟩
  | .local _ .vmem, ⟨10, _⟩ => ⟨S10000x1, .f32⟩
  | .local _ .vmem, ⟨11, _⟩ => ⟨S400x10000, .f32⟩
  | .local _ .vmem, ⟨12, _⟩ => ⟨S400x10000, .f32⟩
  | .local _ .vmem, ⟨13, _⟩ => ⟨S10000x128, .bf16⟩
  | .local _ .vmem, ⟨14, _⟩ => ⟨S400x128, .f32⟩
  | .local _ .vmem, ⟨15, _⟩ => ⟨S400x128, .f32⟩
  | .local _ .vmem, ⟨16, _⟩ => ⟨S400x1, .f32⟩
  | .local _ .vmem, ⟨17, _⟩ => ⟨S400x1, .f32⟩
  | .local _ .vmem, ⟨18, _⟩ => ⟨S128x128, .f32⟩
  | .local _ .vmem, ⟨19, _⟩ => ⟨S1x128, .f32⟩
  | .local _ .vmem, ⟨20, _⟩ => ⟨S400x128, .bf16⟩
  | .local _ .vmem, ⟨21, _⟩ => ⟨S400x128, .bf16⟩
  | .local _ .vmem, ⟨22, _⟩ => ⟨S400x10000, .f32⟩
  | .local _ .vmem, ⟨23, _⟩ => ⟨S400x10000, .f32⟩
  | .local _ .vmem, ⟨24, _⟩ => ⟨S10000x128, .bf16⟩
  | .local _ .vmem, ⟨25, _⟩ => ⟨S400x128, .f32⟩
  | .local _ .vmem, ⟨26, _⟩ => ⟨S400x128, .f32⟩
  | .local _ .vmem, ⟨27, _⟩ => ⟨S400x1, .f32⟩
  | .local _ .vmem, ⟨28, _⟩ => ⟨S400x1, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S128x128, .f32⟩
  | .local _ .vmem, ⟨40, _⟩ => ⟨S1x128, .f32⟩
  | .local _ .vmem, ⟨41, _⟩ => ⟨S400x128, .f32⟩
  | .local _ .vmem, ⟨42, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg9_0 : Ref sig .tc := ⟨.vmem, 34, rfl⟩
abbrev cc3_stg10_0 : Ref sig .tc := ⟨.vmem, 35, rfl⟩
abbrev cc3_stg11_0 : Ref sig .tc := ⟨.vmem, 36, rfl⟩
abbrev cc3_stg12_0 : Ref sig .tc := ⟨.vmem, 37, rfl⟩
abbrev cc3_stg13_0 : Ref sig .tc := ⟨.vmem, 38, rfl⟩
abbrev cc3_stg14_0 : Ref sig .tc := ⟨.vmem, 39, rfl⟩
abbrev cc3_stg15_0 : Ref sig .tc := ⟨.vmem, 40, rfl⟩
abbrev cc3_stg16_0 : Ref sig .tc := ⟨.vmem, 41, rfl⟩
abbrev cc3_stg16_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem10_0 : DmaSem sig := 35
abbrev cc3_sem11_0 : DmaSem sig := 36
abbrev cc3_sem12_0 : DmaSem sig := 37
abbrev cc3_sem13_0 : DmaSem sig := 38
abbrev cc3_sem14_0 : DmaSem sig := 39
abbrev cc3_sem15_0 : DmaSem sig := 40
abbrev cc3_sem16_0 : DmaSem sig := 41
abbrev cc3_sem16_1 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S10000x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S10000x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S10000x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S10000x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S128x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x128 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 2 → Memref sig .tc .vmem S400x128 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

class Facts₀ : Prop where
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  inb_S400x1_S400x1_0_0 : ∀ a, (![0, 0] : Fin 2 → Nat) a + S400x1.size a ≤ S400x1.size a
  h_S400x1 : 0 < S400x1.numel
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  shapeCasts_S10000x128_S10000x128 : S10000x128.ShapeCasts S10000x128
  shapeCasts_S400x1_S400x1 : S400x1.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  broadcasts_S1x128_S400x128 : S1x128.Broadcasts S400x128
  packedbf16_S400x128_S400x128_0_0 : (Rect.unit (s := S400x128) ![0, 0] S400x128.size inb_S400x128_S400x128_0_0).PackedRows (EltTy.packing .bf16)
  reduces_S400x128_S400 : S400x128.Reduces [1] S400
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1.size a ≤ S10000x1.size a
  hwx0_1 : ∀ i : grid0.Coords, EltTy.bits .f32 = 32 ∨ (Rect.block (s := S10000x1) S400x1.size (cc0_transform_1 i) (hinb0_1 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x1.size a ≤ S10000x1.size a
  hwx2_3 : ∀ i : grid2.Coords, EltTy.bits .f32 = 32 ∨ (Rect.block (s := S10000x1) S400x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x128.size a ≤ S10000x128.size a
  hwx2_6 : ∀ i : grid2.Coords, EltTy.bits .bf16 = 32 ∨ (Rect.block (s := S10000x128) S400x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .f32 = 32 ∨ (Rect.block (s := S10000x128) S400x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x1.size a ≤ S10000x1.size a
  hwx3_3 : ∀ i : grid3.Coords, EltTy.bits .f32 = 32 ∨ (Rect.block (s := S10000x1) S400x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x128.size a ≤ S128x128.size a
  hwx3_10 : ∀ i : grid3.Coords, EltTy.bits .f32 = 32 ∨ (Rect.block (s := S128x128) S128x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x128.size a ≤ S1x128.size a
  hwx3_13 : ∀ i : grid3.Coords, EltTy.bits .f32 = 32 ∨ (Rect.block (s := S1x128) S1x128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S128x128.size a ≤ S128x128.size a
  hwx3_14 : ∀ i : grid3.Coords, EltTy.bits .f32 = 32 ∨ (Rect.block (s := S128x128) S128x128.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S1x128.size a ≤ S1x128.size a
  hwx3_15 : ∀ i : grid3.Coords, EltTy.bits .f32 = 32 ∨ (Rect.block (s := S1x128) S1x128.size (cc3_transform_15 i) (hinb3_15 i)).WholeWords (EltTy.packing .f32)
  hstage3_16 : ∀ j, (stage3_16 j).IsWhole
  nbuf3_16 : grid3.bufCount reads3_16 false = 2
  hreads3_16 : ∀ i i' : grid3.Coords, (∀ a, reads3_16 a = true → i a = i' a) → cc3_transform_16 i = cc3_transform_16 i'
  hinb3_16 : ∀ (i : grid3.Coords) a, (cc3_transform_16 i a + 1) * S400x128.size a ≤ S10000x128.size a
  hwx3_16 : ∀ i : grid3.Coords, EltTy.bits .f32 = 32 ∨ (Rect.block (s := S10000x128) S400x128.size (cc3_transform_16 i) (hinb3_16 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S400x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.whole (Memref.whole main_arg0) false false (stage1_0 0) (sem1_0 0) (Memref.isWhole_whole _) (hstage1_0 0)

abbrev win1_1 : Pipeline.Window sig grid1 :=
  Pipeline.Window.whole (Memref.whole main_arg2) false false (stage1_1 0) (sem1_1 0) (Memref.isWhole_whole _) (hstage1_1 0)

abbrev win1_2 : Pipeline.Window sig grid1 :=
  Pipeline.Window.whole (Memref.whole main_v1) false false (stage1_2 0) (sem1_2 0) (Memref.isWhole_whole _) (hstage1_2 0)

abbrev win1_3 : Pipeline.Window sig grid1 :=
  Pipeline.Window.whole (Memref.whole main_v0) false false (stage1_3 0) (sem1_3 0) (Memref.isWhole_whole _) (hstage1_3 0)

abbrev win1_4 : Pipeline.Window sig grid1 :=
  Pipeline.Window.whole (Memref.whole main_v2_0) true false (stage1_4 0) (sem1_4 0) (Memref.isWhole_whole _) (hstage1_4 0)

abbrev win1_5 : Pipeline.Window sig grid1 :=
  Pipeline.Window.whole (Memref.whole main_v2_1) true false (stage1_5 0) (sem1_5 0) (Memref.isWhole_whole _) (hstage1_5 0)

abbrev win1_6 : Pipeline.Window sig grid1 :=
  Pipeline.Window.whole (Memref.whole main_v2_2) true false (stage1_6 0) (sem1_6 0) (Memref.isWhole_whole _) (hstage1_6 0)

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2_0) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_2) S400x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S400x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2_0) S400x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v2_2) S400x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg8) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v6) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v7) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v8) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg12) S128x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v9) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v10) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v11) S1x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_arg16) S128x128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v12) S1x128.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v13) S400x128.size cc3_transform_16 reads3_16 true false 2 stage3_16 sem3_16
    hrank3 hreads3_16 hinb3_16 nbuf3_16 (Memref.isWhole_whole _) hwx3_16 hstage3_16

abbrev win3 : Fin 17 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | ⟨_ + 17, h⟩ => absurd h (Nat.not_lt.2 (Nat.le_add_left _ _))
abbrev spec3 : Fin 17 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S1x128 : Shape := ⟨2, ![1, 128]⟩

abbrev nBuf : Space → Nat
  | .hbm => 184
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128, .f32⟩
  | 15 => ⟨S128, .f32⟩
  | 16 => ⟨S128x128, .f32⟩
  | 17 => ⟨S128, .f32⟩
  | 18 => ⟨S_, .f32⟩
  | 19 => ⟨S10000, .f32⟩
  | 20 => ⟨S_, .f32⟩
  | 21 => ⟨S10000, .f32⟩
  | 22 => ⟨S10000, .f32⟩
  | 23 => ⟨S10000, .f32⟩
  | 24 => ⟨S10000x1, .f32⟩
  | 25 => ⟨S10000x10000, .f32⟩
  | 26 => ⟨S10000x10000, .f32⟩
  | 27 => ⟨S1x10000, .f32⟩
  | 28 => ⟨S10000x10000, .f32⟩
  | 29 => ⟨S10000x10000, .f32⟩
  | 30 => ⟨S10000x128, .f32⟩
  | 31 => ⟨S1x128, .f32⟩
  | 32 => ⟨S10000x128, .f32⟩
  | 33 => ⟨S10000x128, .f32⟩
  | 34 => ⟨S10000x128, .f32⟩
  | 35 => ⟨S_, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S10000x128, .f32⟩
  | 42 => ⟨S10000x128, .f32⟩
  | 43 => ⟨S_, .f32⟩
  | 44 => ⟨S10000x128, .f32⟩
  | 45 => ⟨S10000x128, .f32⟩
  | 46 => ⟨S_, .f32⟩
  | 47 => ⟨S10000x128, .f32⟩
  | 48 => ⟨S10000x128, .f32⟩
  | 49 => ⟨S10000x128, .f32⟩
  | 50 => ⟨S1x128, .f32⟩
  | 51 => ⟨S10000x128, .f32⟩
  | 52 => ⟨S10000x128, .f32⟩
  | 53 => ⟨S_, .f32⟩
  | 54 => ⟨S10000x128, .f32⟩
  | 55 => ⟨S10000x128, .f32⟩
  | 56 => ⟨S10000x128, .f32⟩
  | 57 => ⟨S_, .f32⟩
  | 58 => ⟨S10000x128, .f32⟩
  | 59 => ⟨S10000x128, .f32⟩
  | 60 => ⟨S_, .f32⟩
  | 61 => ⟨S10000x128, .f32⟩
  | 62 => ⟨S10000x128, .f32⟩
  | 63 => ⟨S10000x128, .f32⟩
  | 64 => ⟨S10000x128, .f32⟩
  | 65 => ⟨S_, .f32⟩
  | 66 => ⟨S10000x128, .f32⟩
  | 67 => ⟨S10000x128, .f32⟩
  | 68 => ⟨S_, .f32⟩
  | 69 => ⟨S10000x128, .f32⟩
  | 70 => ⟨S10000x128, .f32⟩
  | 71 => ⟨S10000x128, .f32⟩
  | 72 => ⟨S1x128, .f32⟩
  | 73 => ⟨S10000x128, .f32⟩
  | 74 => ⟨S10000x128, .f32⟩
  | 75 => ⟨S_, .f32⟩
  | 76 => ⟨S10000x128, .f32⟩
  | 77 => ⟨S10000x128, .f32⟩
  | 78 => ⟨S10000x128, .f32⟩
  | 79 => ⟨S1x128, .f32⟩
  | 80 => ⟨S10000x128, .f32⟩
  | 81 => ⟨S10000x128, .f32⟩
  | 82 => ⟨S_, .f32⟩
  | 83 => ⟨S10000, .f32⟩
  | 84 => ⟨S10000x1, .f32⟩
  | 85 => ⟨S_, .f32⟩
  | 86 => ⟨S10000x1, .f32⟩
  | 87 => ⟨S10000x1, .f32⟩
  | 88 => ⟨S_, .i32⟩
  | 89 => ⟨S_, .f32⟩
  | 90 => ⟨S10000, .f32⟩
  | 91 => ⟨S10000x1, .f32⟩
  | 92 => ⟨S_, .f32⟩
  | 93 => ⟨S10000x1, .f32⟩
  | 94 => ⟨S10000x1, .f32⟩
  | 95 => ⟨S10000x128, .f32⟩
  | 96 => ⟨S10000x128, .f32⟩
  | 97 => ⟨S10000x128, .f32⟩
  | 98 => ⟨S_, .f32⟩
  | 99 => ⟨S_, .f32⟩
  | 100 => ⟨S_, .f32⟩
  | 101 => ⟨S_, .f32⟩
  | 102 => ⟨S10000, .f32⟩
  | 103 => ⟨S10000x1, .f32⟩
  | 104 => ⟨S10000x1, .f32⟩
  | 105 => ⟨S10000x1, .f32⟩
  | 106 => ⟨S_, .f32⟩
  | 107 => ⟨S_, .i1⟩
  | 108 => ⟨S_, .f32⟩
  | 109 => ⟨S_, .f32⟩
  | 110 => ⟨S10000x1, .f32⟩
  | 111 => ⟨S10000x1, .f32⟩
  | 112 => ⟨S10000x128, .f32⟩
  | 113 => ⟨S10000x128, .f32⟩
  | 114 => ⟨S_, .f32⟩
  | 115 => ⟨S10000x1, .f32⟩
  | 116 => ⟨S10000x1, .f32⟩
  | 117 => ⟨S10000x1, .f32⟩
  | 118 => ⟨S10000x128, .f32⟩
  | 119 => ⟨S10000x128, .f32⟩
  | 120 => ⟨S1x128, .f32⟩
  | 121 => ⟨S10000x128, .f32⟩
  | 122 => ⟨S10000x128, .f32⟩
  | 123 => ⟨S1x128, .f32⟩
  | 124 => ⟨S10000x128, .f32⟩
  | 125 => ⟨S10000x128, .f32⟩
  | 126 => ⟨S_, .f32⟩
  | 127 => ⟨S10000x128, .f32⟩
  | _ => ⟨S10000x128, .f32⟩

abbrev hbmTy0_1 (i : Nat) : BufTy := match i % 128 with
  | 0 => ⟨S10000x128, .f32⟩
  | 1 => ⟨S10000x128, .f32⟩
  | 2 => ⟨S1x128, .f32⟩
  | 3 => ⟨S10000x128, .f32⟩
  | 4 => ⟨S10000x128, .f32⟩
  | 5 => ⟨S_, .f32⟩
  | 6 => ⟨S10000, .f32⟩
  | 7 => ⟨S10000x1, .f32⟩
  | 8 => ⟨S_, .f32⟩
  | 9 => ⟨S10000x1, .f32⟩
  | 10 => ⟨S10000x1, .f32⟩
  | 11 => ⟨S_, .i32⟩
  | 12 => ⟨S_, .f32⟩
  | 13 => ⟨S10000, .f32⟩
  | 14 => ⟨S10000x1, .f32⟩
  | 15 => ⟨S_, .f32⟩
  | 16 => ⟨S10000x1, .f32⟩
  | 17 => ⟨S10000x1, .f32⟩
  | 18 => ⟨S10000x128, .f32⟩
  | 19 => ⟨S10000x128, .f32⟩
  | 20 => ⟨S10000x128, .f32⟩
  | 21 => ⟨S_, .f32⟩
  | 22 => ⟨S_, .f32⟩
  | 23 => ⟨S_, .f32⟩
  | 24 => ⟨S_, .f32⟩
  | 25 => ⟨S10000, .f32⟩
  | 26 => ⟨S10000x1, .f32⟩
  | 27 => ⟨S10000x1, .f32⟩
  | 28 => ⟨S10000x1, .f32⟩
  | 29 => ⟨S_, .f32⟩
  | 30 => ⟨S_, .i1⟩
  | 31 => ⟨S_, .f32⟩
  | 32 => ⟨S_, .f32⟩
  | 33 => ⟨S10000x1, .f32⟩
  | 34 => ⟨S10000x1, .f32⟩
  | 35 => ⟨S10000x128, .f32⟩
  | 36 => ⟨S10000x128, .f32⟩
  | 37 => ⟨S_, .f32⟩
  | 38 => ⟨S10000x1, .f32⟩
  | 39 => ⟨S10000x1, .f32⟩
  | 40 => ⟨S10000x1, .f32⟩
  | 41 => ⟨S10000x128, .f32⟩
  | 42 => ⟨S10000x128, .f32⟩
  | 43 => ⟨S1x128, .f32⟩
  | 44 => ⟨S10000x128, .f32⟩
  | 45 => ⟨S10000x128, .f32⟩
  | 46 => ⟨S1x128, .f32⟩
  | 47 => ⟨S10000x128, .f32⟩
  | 48 => ⟨S10000x128, .f32⟩
  | 49 => ⟨S_, .f32⟩
  | 50 => ⟨S10000x128, .f32⟩
  | 51 => ⟨S10000x128, .f32⟩
  | 52 => ⟨S10000x128, .f32⟩
  | 53 => ⟨S1x128, .f32⟩
  | 54 => ⟨S10000x128, .f32⟩
  | 55 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_cst : Ref sig .tc := ⟨.hbm, 53, rfl⟩
abbrev main_call0_v0 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call1_cst : Ref sig .tc := ⟨.hbm, 75, rfl⟩
abbrev main_call1_v0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_c : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_cst_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_cst_1 : Ref sig .tc := ⟨.hbm, 99, rfl⟩
abbrev main_call2_v8 : Ref sig .tc := ⟨.hbm, 100, rfl⟩
abbrev main_call2_cst_2 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_v12 : Ref sig .tc := ⟨.hbm, 105, rfl⟩
abbrev main_call2_cst_3 : Ref sig .tc := ⟨.hbm, 106, rfl⟩
abbrev main_call2_v13 : Ref sig .tc := ⟨.hbm, 107, rfl⟩
abbrev main_call2_cst_4 : Ref sig .tc := ⟨.hbm, 108, rfl⟩
abbrev main_call2_call0_v0 : Ref sig .tc := ⟨.hbm, 109, rfl⟩
abbrev main_call2_call0_v1 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_cst_11 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_call3_cst : Ref sig .tc := ⟨.hbm, 126, rfl⟩
abbrev main_call3_v0 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_12 : Ref sig .tc := ⟨.hbm, 133, rfl⟩
abbrev main_v73 : Ref sig .tc := ⟨.hbm, 134, rfl⟩
abbrev main_v74 : Ref sig .tc := ⟨.hbm, 135, rfl⟩
abbrev main_cst_13 : Ref sig .tc := ⟨.hbm, 136, rfl⟩
abbrev main_v75 : Ref sig .tc := ⟨.hbm, 137, rfl⟩
abbrev main_v76 : Ref sig .tc := ⟨.hbm, 138, rfl⟩
abbrev main_c_14 : Ref sig .tc := ⟨.hbm, 139, rfl⟩
abbrev main_call4_cst : Ref sig .tc := ⟨.hbm, 140, rfl⟩
abbrev main_call4_v0 : Ref sig .tc := ⟨.hbm, 141, rfl⟩
abbrev main_call4_v1 : Ref sig .tc := ⟨.hbm, 142, rfl⟩
abbrev main_call4_cst_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_cst_1 : Ref sig .tc := ⟨.hbm, 150, rfl⟩
abbrev main_call4_v8 : Ref sig .tc := ⟨.hbm, 151, rfl⟩
abbrev main_call4_cst_2 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_v12 : Ref sig .tc := ⟨.hbm, 156, rfl⟩
abbrev main_call4_cst_3 : Ref sig .tc := ⟨.hbm, 157, rfl⟩
abbrev main_call4_v13 : Ref sig .tc := ⟨.hbm, 158, rfl⟩
abbrev main_call4_cst_4 : Ref sig .tc := ⟨.hbm, 159, rfl⟩
abbrev main_call4_call0_v0 : Ref sig .tc := ⟨.hbm, 160, rfl⟩
abbrev main_call4_call0_v1 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_cst_15 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_call5_cst : Ref sig .tc := ⟨.hbm, 177, rfl⟩
abbrev main_call5_v0 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The mathematics of the two programs, stated once over plain functions into the extended reals, with no
  program imported: a two-layer graph convolution with initial residual over a dense 10000 x 10000 adjacency,
  followed by a three-layer perceptron with layer normalisation.

  Rows are indexed by `Fin 10000`, features by `Fin 128`. Every float literal is kept as the extended real its
  f32 word denotes (`Ideal.ofBits .f32 w`); the two programs carry the same words, so none is ever evaluated
  except where a sign is needed.

  Two arrangements of the same computation are defined:
  * the FUSED one (suffix `K`): the feature table is scaled by `dinv` once (`h * dinv`), the aggregate
    `∑ j, adj i j * hs j c` is scaled by `dinv i` afterwards, and the normalisation multiplies by an
    inverse square root;
  * the TEXTBOOK one (suffix `R`): the adjacency is normalised entry by entry, `(adj i j * dinv i) * dinv j`,
    before the aggregate, and the normalisation divides by a square root.
-/
import Idealize.ShloMosaic.PureOps.Ideal
import Idealize.ShloMosaic.PureOps.Ideal.Laws

noncomputable section

namespace Cert.Gcn

open Idealize.ShloMosaic

/-! ## Literals (the f32 words both programs spell) -/

/-- The degree guard, about 1e-12. -/
abbrev epsDeg : EReal := Ideal.ofBits .f32 0x2B8CBCCC#32
/-- The normalisation guard, about 1e-5. -/
abbrev epsLn : EReal := Ideal.ofBits .f32 0x3727C5AC#32
/-- The width 128 of a feature row. -/
abbrev c128 : EReal := Ideal.ofBits .f32 0x43000000#32
/-- The weight of the aggregate in the support, about 0.9. -/
abbrev cKeep : EReal := Ideal.ofBits .f32 0x3F666666#32
/-- The weight of the initial features in the support, about 0.1. -/
abbrev cInit : EReal := Ideal.ofBits .f32 0x3DCCCCCD#32
/-- Layer 1's mixing weight (about log 2) and its complement. -/
abbrev th1 : EReal := Ideal.ofBits .f32 0x3F317218#32
abbrev th1c : EReal := Ideal.ofBits .f32 0x3E9D1BD0#32
/-- Layer 2's mixing weight (about log 1.5) and its complement. -/
abbrev th2 : EReal := Ideal.ofBits .f32 0x3ECF991F#32
abbrev th2c : EReal := Ideal.ofBits .f32 0x3F183370#32

/-! ## Row-local pieces (one feature row `Fin 128 → EReal` in, one out) -/

/-- A dense layer on one row: `(∑ k, v k * w k c) + b c`. -/
def linRow (v : Fin 128 → EReal) (w : Fin 128 → Fin 128 → EReal) (b : Fin 128 → EReal) (c : Fin 128) : EReal :=
  (∑ k : Fin 128, v k * w k c) + b c

/-- The support of a layer: the aggregate mixed with the initial features. -/
def supRow (hi h0 : Fin 128 → EReal) (c : Fin 128) : EReal := cKeep * hi c + cInit * h0 c

/-- One convolution's update of a support row, with its rectifier:
    `max ((θ * (s · w) c + θ' * s c) + b c) 0`. -/
def gcnRow (θ θ' : EReal) (w : Fin 128 → Fin 128 → EReal) (b : Fin 128 → EReal) (s : Fin 128 → EReal)
    (c : Fin 128) : EReal :=
  max ((θ * (∑ k : Fin 128, s k * w k c) + θ' * s c) + b c) 0

/-- The mean of a row. -/
def meanRow (v : Fin 128 → EReal) : EReal := Ideal.div (∑ k : Fin 128, v k) c128

/-- The (biased) variance of a row. -/
def varRow (v : Fin 128 → EReal) : EReal :=
  Ideal.div (∑ k : Fin 128, (v k - meanRow v) * (v k - meanRow v)) c128

/-- Layer normalisation, fused arrangement: the centred row TIMES the inverse square root. -/
def lnK (v g b : Fin 128 → EReal) (c : Fin 128) : EReal :=
  ((v c - meanRow v) * Ideal.rsqrt (varRow v + epsLn)) * g c + b c

/-- Layer normalisation, textbook arrangement: the centred row DIVIDED by the square root. -/
def lnR (v g b : Fin 128 → EReal) (c : Fin 128) : EReal :=
  (Ideal.div (v c - meanRow v) (Ideal.sqrt (varRow v + epsLn))) * g c + b c

/-- The rectifier on a row. -/
def reluRow (v : Fin 128 → EReal) (c : Fin 128) : EReal := max (v c) 0

/-- The three-layer head on one row, fused arrangement. -/
def headK (mw1 : Fin 128 → Fin 128 → EReal) (mb1 g1 bb1 : Fin 128 → EReal)
    (mw2 : Fin 128 → Fin 128 → EReal) (mb2 g2 bb2 : Fin 128 → EReal)
    (mw3 : Fin 128 → Fin 128 → EReal) (mb3 : Fin 128 → EReal) (v : Fin 128 → EReal) (c : Fin 128) : EReal :=
  linRow (reluRow (lnK (linRow (reluRow (lnK (linRow v mw1 mb1) g1 bb1)) mw2 mb2) g2 bb2)) mw3 mb3 c

/-- The three-layer head on one row, textbook arrangement. -/
def headR (mw1 : Fin 128 → Fin 128 → EReal) (mb1 g1 bb1 : Fin 128 → EReal)
    (mw2 : Fin 128 → Fin 128 → EReal) (mb2 g2 bb2 : Fin 128 → EReal)
    (mw3 : Fin 128 → Fin 128 → EReal) (mb3 : Fin 128 → EReal) (v : Fin 128 → EReal) (c : Fin 128) : EReal :=
  linRow (reluRow (lnR (linRow (reluRow (lnR (linRow v mw1 mb1) g1 bb1)) mw2 mb2) g2 bb2)) mw3 mb3 c

/-! ## The graph side -/

/-- A node's degree: its adjacency row summed. -/
def deg (adj : Fin 10000 → Fin 10000 → EReal) (i : Fin 10000) : EReal := ∑ j : Fin 10000, adj i j

/-- The inverse square root of a guarded degree (`d` a table of degrees). -/
def dinvOf (d : Fin 10000 → EReal) (i : Fin 10000) : EReal := Ideal.rsqrt (d i + epsDeg)

/-- The symmetric normaliser of the adjacency itself. -/
def dinv (adj : Fin 10000 → Fin 10000 → EReal) (i : Fin 10000) : EReal := dinvOf (deg adj) i

/-- The aggregate, fused: a pre-scaled table `hs` summed against the raw adjacency row, then scaled by `dv i`. -/
def aggK (adj : Fin 10000 → Fin 10000 → EReal) (hs : Fin 10000 → Fin 128 → EReal) (dv : Fin 10000 → EReal)
    (i : Fin 10000) (c : Fin 128) : EReal :=
  (∑ j : Fin 10000, adj i j * hs j c) * dv i

/-- The aggregate, textbook: the table `h` summed against the normalised adjacency row. -/
def aggR (adj : Fin 10000 → Fin 10000 → EReal) (dv : Fin 10000 → EReal) (h : Fin 10000 → Fin 128 → EReal)
    (i : Fin 10000) (c : Fin 128) : EReal :=
  ∑ j : Fin 10000, ((adj i j * dv i) * dv j) * h j c

/-- One convolution layer at node `i`, fused: from the pre-scaled table `hs`. -/
def layerK (θ θ' : EReal) (w : Fin 128 → Fin 128 → EReal) (b : Fin 128 → EReal)
    (adj : Fin 10000 → Fin 10000 → EReal) (hs h0 : Fin 10000 → Fin 128 → EReal) (dv : Fin 10000 → EReal)
    (i : Fin 10000) (c : Fin 128) : EReal :=
  gcnRow θ θ' w b (supRow (aggK adj hs dv i) (h0 i)) c

/-- One convolution layer at node `i`, textbook: from the table `h`. -/
def layerR (θ θ' : EReal) (w : Fin 128 → Fin 128 → EReal) (b : Fin 128 → EReal)
    (adj : Fin 10000 → Fin 10000 → EReal) (h h0 : Fin 10000 → Fin 128 → EReal) (dv : Fin 10000 → EReal)
    (i : Fin 10000) (c : Fin 128) : EReal :=
  gcnRow θ θ' w b (supRow (aggR adj dv h i) (h0 i)) c

/-! ## The four stages of the fused program, each as a function of the ARRAYS it reads

    (the fused program is four launches; each launch reads arrays the earlier ones wrote) -/

/-- Stage 1: the embedded features `x · we + be`. -/
def embed (x : Fin 10000 → Fin 128 → EReal) (we : Fin 128 → Fin 128 → EReal) (be : Fin 128 → EReal)
    (i : Fin 10000) (c : Fin 128) : EReal := linRow (x i) we be c

/-- Stage 1: the embedded features scaled row by row, `h0 i c * dinv i`, from a table `d` of degrees. -/
def embedScaled (x : Fin 10000 → Fin 128 → EReal) (we : Fin 128 → Fin 128 → EReal) (be : Fin 128 → EReal)
    (d : Fin 10000 → EReal) (i : Fin 10000) (c : Fin 128) : EReal := embed x we be i c * dinvOf d i

/-- Stage 2: the first layer's output scaled row by row. -/
def stage2 (adj : Fin 10000 → Fin 10000 → EReal) (hs h0 : Fin 10000 → Fin 128 → EReal) (dv : Fin 10000 → EReal)
    (w1 : Fin 128 → Fin 128 → EReal) (b1 : Fin 128 → EReal) (i : Fin 10000) (c : Fin 128) : EReal :=
  layerK th1 th1c w1 b1 adj hs h0 dv i c * dv i

/-- Stage 3: the second layer and the head. -/
def stage3 (adj : Fin 10000 → Fin 10000 → EReal) (hs h0 : Fin 10000 → Fin 128 → EReal) (dv : Fin 10000 → EReal)
    (w2 : Fin 128 → Fin 128 → EReal) (b2 : Fin 128 → EReal)
    (mw1 : Fin 128 → Fin 128 → EReal) (mb1 g1 bb1 : Fin 128 → EReal)
    (mw2 : Fin 128 → Fin 128 → EReal) (mb2 g2 bb2 : Fin 128 → EReal)
    (mw3 : Fin 128 → Fin 128 → EReal) (mb3 : Fin 128 → EReal) (i : Fin 10000) (c : Fin 128) : EReal :=
  headK mw1 mb1 g1 bb1 mw2 mb2 g2 bb2 mw3 mb3 (layerK th2 th2c w2 b2 adj hs h0 dv i) c

/-! ## The two whole programs as functions of the eighteen arguments -/

/-- The fused program's result. -/
def outK (x : Fin 10000 → Fin 128 → EReal) (adj : Fin 10000 → Fin 10000 → EReal)
    (we : Fin 128 → Fin 128 → EReal) (be : Fin 128 → EReal)
    (w1 : Fin 128 → Fin 128 → EReal) (b1 : Fin 128 → EReal) (w2 : Fin 128 → Fin 128 → EReal) (b2 : Fin 128 → EReal)
    (mw1 : Fin 128 → Fin 128 → EReal) (mb1 g1 bb1 : Fin 128 → EReal)
    (mw2 : Fin 128 → Fin 128 → EReal) (mb2 g2 bb2 : Fin 128 → EReal)
    (mw3 : Fin 128 → Fin 128 → EReal) (mb3 : Fin 128 → EReal) (i : Fin 10000) (c : Fin 128) : EReal :=
  stage3 adj
    (stage2 adj (embedScaled x we be (deg adj)) (embed x we be) (dinvOf (deg adj)) w1 b1)
    (embed x we be) (dinvOf (deg adj)) w2 b2 mw1 mb1 g1 bb1 mw2 mb2 g2 bb2 mw3 mb3 i c

/-- The textbook program's result. -/
def outR (x : Fin 10000 → Fin 128 → EReal) (adj : Fin 10000 → Fin 10000 → EReal)
    (we : Fin 128 → Fin 128 → EReal) (be : Fin 128 → EReal)
    (w1 : Fin 128 → Fin 128 → EReal) (b1 : Fin 128 → EReal) (w2 : Fin 128 → Fin 128 → EReal) (b2 : Fin 128 → EReal)
    (mw1 : Fin 128 → Fin 128 → EReal) (mb1 g1 bb1 : Fin 128 → EReal)
    (mw2 : Fin 128 → Fin 128 → EReal) (mb2 g2 bb2 : Fin 128 → EReal)
    (mw3 : Fin 128 → Fin 128 → EReal) (mb3 : Fin 128 → EReal) (i : Fin 10000) (c : Fin 128) : EReal :=
  headR mw1 mb1 g1 bb1 mw2 mb2 g2 bb2 mw3 mb3
    (layerR th2 th2c w2 b2 adj
      (layerR th1 th1c w1 b1 adj (embed x we be) (embed x we be) (dinv adj))
      (embed x we be) (dinv adj) i) c

end Cert.Gcn

end
-- ==== Proof.Bridge.lean ====
/-
  The two arrangements of Spec.lean compute the same extended reals as soon as every guarded degree is
  positive, that is, as soon as every degree is nonnegative.

  * The normaliser `dinv i = rsqrt (deg i + ε)` is then a nonnegative FINITE number, and multiplication by such
    a number distributes over every sum of extended reals (also over sums holding infinities): scaling the
    aggregate `∑ j, adj i j * (h j c * dinv j)` by `dinv i` afterwards is scaling every term, and each term is the
    textbook `((adj i j * dinv i) * dinv j) * h j c` by commutativity and associativity alone. No finiteness of
    the features is used.
  * A variance is a quotient by 128 of a sum of squares, so it is nonnegative whatever the row holds, and the
    guarded variance `s` is positive; for positive `s` (finite or not) `x * rsqrt s = x / sqrt s`.
-/
import proofs.«110087_g67448166416678_cont_sun_m_1095_9_alg».proof.Proof.Spec

noncomputable section

namespace Cert.Gcn

open Idealize.ShloMosaic

/-! ## The three literals whose sign or value matters -/

theorem c128_eq : c128 = ((128 : ℝ) : EReal) := by
  simp [c128, Ideal.ofBits, Ideal.ieee, -EReal.coe_mul]; norm_num

theorem epsDeg_pos : 0 < epsDeg := by
  have h : epsDeg = (((8388608 + 834764 : ℕ) : ℝ) * (2 : ℝ) ^ ((87 : ℤ) - 127 - 23) : ℝ) := by
    simp [epsDeg, Ideal.ofBits, Ideal.ieee, -EReal.coe_mul]
  rw [h]; exact_mod_cast (by positivity : (0 : ℝ) < ((8388608 + 834764 : ℕ) : ℝ) * (2 : ℝ) ^ ((87 : ℤ) - 127 - 23))

theorem epsLn_pos : 0 < epsLn := by
  have h : epsLn = (((8388608 + 2606508 : ℕ) : ℝ) * (2 : ℝ) ^ ((110 : ℤ) - 127 - 23) : ℝ) := by
    simp [epsLn, Ideal.ofBits, Ideal.ieee, -EReal.coe_mul]
  rw [h]; exact_mod_cast (by positivity : (0 : ℝ) < ((8388608 + 2606508 : ℕ) : ℝ) * (2 : ℝ) ^ ((110 : ℤ) - 127 - 23))

/-! ## Scaling a sum by a nonnegative finite number -/

/-- Multiplication by a nonnegative finite extended real distributes over any finite sum of extended reals. -/
theorem sum_mul_of_nonneg_of_ne_top {ι : Type*} (s : Finset ι) (t : ι → EReal) {x : EReal} (h0 : 0 ≤ x) (ht : x ≠ ⊤) :
    (∑ j ∈ s, t j) * x = ∑ j ∈ s, t j * x := by
  classical
  induction s using Finset.induction_on with
  | empty => simp
  | insert a s ha ih =>
    rw [Finset.sum_insert ha, Finset.sum_insert ha, EReal.right_distrib_of_nonneg_of_ne_top h0 ht, ih]

/-- The fused aggregate of a pre-scaled table is the textbook aggregate of the table. -/
theorem aggK_eq_aggR (adj : Fin 10000 → Fin 10000 → EReal) (dv : Fin 10000 → EReal) (h : Fin 10000 → Fin 128 → EReal)
    (h0 : ∀ i, 0 ≤ dv i) (ht : ∀ i, dv i ≠ ⊤) (i : Fin 10000) :
    aggK adj (fun j c => h j c * dv j) dv i = aggR adj dv h i := by
  funext c
  unfold aggK aggR
  rw [sum_mul_of_nonneg_of_ne_top _ _ (h0 i) (ht i)]
  refine Finset.sum_congr rfl fun j _ => ?_
  dsimp only
  ac_rfl

theorem layerK_eq_layerR (θ θ' : EReal) (w : Fin 128 → Fin 128 → EReal) (b : Fin 128 → EReal)
    (adj : Fin 10000 → Fin 10000 → EReal) (h hinit : Fin 10000 → Fin 128 → EReal) (dv : Fin 10000 → EReal)
    (h0 : ∀ i, 0 ≤ dv i) (ht : ∀ i, dv i ≠ ⊤) :
    layerK θ θ' w b adj (fun j c => h j c * dv j) hinit dv = layerR θ θ' w b adj h hinit dv := by
  funext i c
  unfold layerK layerR
  rw [aggK_eq_aggR adj dv h h0 ht i]

/-! ## The inverse square root of a positive extended real -/

theorem rsqrt_top : Ideal.rsqrt ⊤ = 0 := rfl
theorem sqrt_top : Ideal.sqrt ⊤ = ⊤ := rfl
theorem rsqrt_coe (r : ℝ) :
    Ideal.rsqrt (r : EReal) = if r < 0 then ⊥ else if r = 0 then ⊤ else (((Real.sqrt r)⁻¹ : ℝ) : EReal) := rfl
theorem sqrt_coe (r : ℝ) : Ideal.sqrt (r : EReal) = if r < 0 then ⊥ else ((Real.sqrt r : ℝ) : EReal) := rfl

theorem rsqrt_nonneg_ne_top {s : EReal} (hs : 0 < s) : 0 ≤ Ideal.rsqrt s ∧ Ideal.rsqrt s ≠ ⊤ := by
  induction s using EReal.rec with
  | bot => exact absurd hs (by simp)
  | top => rw [rsqrt_top]; exact ⟨le_refl _, EReal.zero_ne_top⟩
  | coe r =>
    have hr : 0 < r := by exact_mod_cast hs
    have h1 : ¬ r < 0 := not_lt.mpr hr.le
    have h2 : r ≠ 0 := hr.ne'
    rw [rsqrt_coe, if_neg h1, if_neg h2]
    refine ⟨?_, EReal.coe_ne_top _⟩
    exact_mod_cast inv_nonneg.mpr (Real.sqrt_nonneg r)

/-- For a positive `s`, finite or not, multiplying by the inverse square root is dividing by the square root. -/
theorem mul_rsqrt_eq_div_sqrt (x : EReal) {s : EReal} (hs : 0 < s) :
    x * Ideal.rsqrt s = Ideal.div x (Ideal.sqrt s) := by
  induction s using EReal.rec with
  | bot => exact absurd hs (by simp)
  | top =>
    rw [rsqrt_top, sqrt_top]
    unfold Ideal.div
    rw [if_neg EReal.top_ne_zero, EReal.inv_top]
  | coe r =>
    have hr : 0 < r := by exact_mod_cast hs
    have h1 : ¬ r < 0 := not_lt.mpr hr.le
    have h2 : r ≠ 0 := hr.ne'
    have h3 : ((Real.sqrt r : ℝ) : EReal) ≠ 0 := by
      exact_mod_cast (Real.sqrt_pos.mpr hr).ne'
    rw [rsqrt_coe, sqrt_coe, if_neg h1, if_neg h2, if_neg h1]
    unfold Ideal.div
    rw [if_neg h3, EReal.coe_inv]

/-! ## The guarded variance is positive -/

theorem mul_self_nonneg' (d : EReal) : 0 ≤ d * d := by
  induction d using EReal.rec with
  | bot => simp [EReal.bot_mul_bot]
  | top => simp [EReal.top_mul_top]
  | coe r => exact_mod_cast mul_self_nonneg r

theorem varRow_nonneg (v : Fin 128 → EReal) : 0 ≤ varRow v := by
  unfold varRow
  rw [c128_eq, Ideal.div_coe (by norm_num : (128 : ℝ) ≠ 0)]
  refine mul_nonneg (Finset.sum_nonneg fun k _ => mul_self_nonneg' _) ?_
  exact_mod_cast (by norm_num : (0 : ℝ) ≤ 1 / 128)

theorem guardedVar_pos (v : Fin 128 → EReal) : 0 < varRow v + epsLn :=
  lt_of_lt_of_le epsLn_pos (le_add_of_nonneg_left (varRow_nonneg v))

theorem lnK_eq_lnR (v g b : Fin 128 → EReal) : lnK v g b = lnR v g b := by
  funext c
  unfold lnK lnR
  rw [mul_rsqrt_eq_div_sqrt _ (guardedVar_pos v)]

theorem headK_eq_headR (mw1 : Fin 128 → Fin 128 → EReal) (mb1 g1 bb1 : Fin 128 → EReal)
    (mw2 : Fin 128 → Fin 128 → EReal) (mb2 g2 bb2 : Fin 128 → EReal)
    (mw3 : Fin 128 → Fin 128 → EReal) (mb3 : Fin 128 → EReal) (v : Fin 128 → EReal) :
    headK mw1 mb1 g1 bb1 mw2 mb2 g2 bb2 mw3 mb3 v = headR mw1 mb1 g1 bb1 mw2 mb2 g2 bb2 mw3 mb3 v := by
  funext c
  unfold headK headR
  rw [lnK_eq_lnR, lnK_eq_lnR]

/-! ## The two programs -/

/-- With nonnegative degrees the normaliser is a nonnegative finite number. -/
theorem dinvOf_nonneg_ne_top (d : Fin 10000 → EReal) (hd : ∀ i, 0 ≤ d i) (i : Fin 10000) :
    0 ≤ dinvOf d i ∧ dinvOf d i ≠ ⊤ :=
  rsqrt_nonneg_ne_top (lt_of_lt_of_le epsDeg_pos (le_add_of_nonneg_left (hd i)))

/-- The fused program and the textbook program agree wherever every degree is nonnegative. -/
theorem outK_eq_outR (x : Fin 10000 → Fin 128 → EReal) (adj : Fin 10000 → Fin 10000 → EReal)
    (we : Fin 128 → Fin 128 → EReal) (be : Fin 128 → EReal)
    (w1 : Fin 128 → Fin 128 → EReal) (b1 : Fin 128 → EReal) (w2 : Fin 128 → Fin 128 → EReal) (b2 : Fin 128 → EReal)
    (mw1 : Fin 128 → Fin 128 → EReal) (mb1 g1 bb1 : Fin 128 → EReal)
    (mw2 : Fin 128 → Fin 128 → EReal) (mb2 g2 bb2 : Fin 128 → EReal)
    (mw3 : Fin 128 → Fin 128 → EReal) (mb3 : Fin 128 → EReal) (hdeg : ∀ i, 0 ≤ deg adj i) :
    outK x adj we be w1 b1 w2 b2 mw1 mb1 g1 bb1 mw2 mb2 g2 bb2 mw3 mb3
      = outR x adj we be w1 b1 w2 b2 mw1 mb1 g1 bb1 mw2 mb2 g2 bb2 mw3 mb3 := by
  have h0 : ∀ i, 0 ≤ dinvOf (deg adj) i := fun i => (dinvOf_nonneg_ne_top _ hdeg i).1
  have ht : ∀ i, dinvOf (deg adj) i ≠ ⊤ := fun i => (dinvOf_nonneg_ne_top _ hdeg i).2
  funext i c
  unfold outK outR stage3
  rw [headK_eq_headR]
  have e1 : stage2 adj (embedScaled x we be (deg adj)) (embed x we be) (dinvOf (deg adj)) w1 b1
      = fun j c => layerR th1 th1c w1 b1 adj (embed x we be) (embed x we be) (dinvOf (deg adj)) j c * dinvOf (deg adj) j := by
    funext j c
    unfold stage2
    have : embedScaled x we be (deg adj) = fun j c => embed x we be j c * dinvOf (deg adj) j := rfl
    rw [this, layerK_eq_layerR _ _ _ _ adj (embed x we be) (embed x we be) _ h0 ht]
  rw [e1, layerK_eq_layerR _ _ _ _ adj _ (embed x we be) _ h0 ht]
  rfl

end Cert.Gcn

end
-- ==== Proof.PreDeg.lean ====
/-
  What the precondition says about the adjacency: every node's degree (its adjacency row summed, over the
  extended reals) is nonnegative. The precondition is a conjunction of nineteen facts folded with `and`; the
  last one is `all (sum adj axis=1 >= 0)`, and only that one is opened here.
-/
import proofs.«110087_g67448166416678_cont_sun_m_1095_9_alg».proof.Pre_finite_inputs
import proofs.«110087_g67448166416678_cont_sun_m_1095_9_alg».proof.Proof.Spec
import Idealize.ShloMosaic.Lib.ReduceAll
import Idealize.ShloMosaic.Lib.ValueIdx
import Idealize.ShloMosaic.Lib.IdealHost
import Idealize.ShloMosaic.PureOps.Ideal.Laws

noncomputable section

namespace Cert.Pre_finite_inputs.Deg

open Idealize.ShloMosaic Idealize.ShloMosaic.ValueIdx Cert.Pre_finite_inputs Cert.Pre_finite_inputs.Facts

variable [Cert.Pre_finite_inputs.Facts]

instance : Subsingleton S_.Idx := ⟨fun a b => funext fun d => d.elim0⟩

set_option maxRecDepth 200000 in
theorem deg_nonneg (a0 : FVec Ideal S10000x128 .f32) (a1 : FVec Ideal S10000x10000 .f32) (a2 : FVec Ideal S128x128 .f32)
    (a3 : FVec Ideal S128 .f32) (a4 : FVec Ideal S128x128 .f32) (a5 : FVec Ideal S128 .f32) (a6 : FVec Ideal S128x128 .f32)
    (a7 : FVec Ideal S128 .f32) (a8 : FVec Ideal S128x128 .f32) (a9 a10 a11 : FVec Ideal S128 .f32)
    (a12 : FVec Ideal S128x128 .f32) (a13 a14 a15 : FVec Ideal S128 .f32) (a16 : FVec Ideal S128x128 .f32)
    (a17 : FVec Ideal S128 .f32)
    (h : fn (F := Ideal) a0 a1 a2 a3 a4 a5 a6 a7 a8 a9 a10 a11 a12 a13 a14 a15 a16 a17 = fun _ => 1#1) (i : Fin 10000) :
    0 ≤ Gcn.deg (fun p q => a1 (ix2 p q)) i := by
  have h0 := congrFun h ValueIdx.ix0
  dsimp only [fn, fn_part1, fn_part2, fn_part3, fn_part4, fn_part5] at h0
  have h1 := (IntOp.andi_eq_one.mp h0).2
  have h2 := Host.reduce_andi_all _ _ _ _ _ h1 (ix1 i)
  clear h1 h0 h
  have hX : Host.reduceAdd a1 (constant S_ .f32 0x00000000#32) reducesTo_S10000x10000_S10000_d1 h_S_ (ix1 i)
      = ∑ k : Fin 10000, a1 (ix2 i k) := by
    rw [hostReduceAdd_apply,
      Ideal.hostReduceAdd_single reducesTo_S10000x10000_S10000_d1 (by decide : S10000x10000.Reduces [1] S10000)]
    show Ideal.ofBits .f32 0x00000000#32 + _ = _
    rw [Ideal.ofBits_zero_f32, zero_add]
    exact Finset.sum_congr rfl fun k _ => congrArg a1 (funext fun a => Fin.ext (by
      match a with
      | ⟨0, _⟩ => rfl
      | ⟨1, _⟩ => rfl))
  have hY : broadcastInDim S10000 ![] bcast_S_S10000 (constant S_ .f32 0x00000000#32 : FVec Ideal S_ .f32) (ix1 i) = 0 := by
    rw [broadcastInDim_scalar_apply]
    exact Ideal.ofBits_zero_f32
  have h3 : Ideal.cmp .oge (Host.reduceAdd a1 (constant S_ .f32 0x00000000#32) reducesTo_S10000x10000_S10000_d1 h_S_ (ix1 i))
      (broadcastInDim S10000 ![] bcast_S_S10000 (constant S_ .f32 0x00000000#32 : FVec Ideal S_ .f32) (ix1 i)) = 1#1 := h2
  rw [hX, hY] at h3
  unfold Gcn.deg
  have h4 : BitVec.ofBool (decide (0 ≤ ∑ k : Fin 10000, a1 (ix2 i k))) = 1#1 := by simpa [Ideal.cmp] using h3
  by_contra hn
  rw [decide_eq_false hn] at h4
  exact absurd h4 (by decide)

end Cert.Pre_finite_inputs.Deg

end
-- ==== Proof.KRunNamed.lean ====
/-
  The fused program's run with its result named: every weakly fair execution of the four launches and the
  reshapes between them terminates, nothing faults, the eighteen argument arrays end as launched, and the result
  array ends at what the LAST launch's write-backs leave in it (the fold of the 25 flushed blocks of its output
  window), read off the last boundary's contents.
-/
import proofs.«110087_g67448166416678_cont_sun_m_1095_9_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the launch over the seven segments, the last thread state read against the
    final state; the result buffer is unscoped, so it is read like the arguments, and stays at the last
    boundary's contents. -/
theorem run_named : θ_run defs (onTc (τ := τ) (main (F := F))) ⟨m, fun _ => 0, ρ⟩ (fun r => ∀ c : Dev nD,
      r.2.mem ((c.tc : Thread nD τ).loc main_v13) = W7 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v13 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c)⟩)

end Cert.KernelIdeal.KVal

end
-- ==== Proof.KWalk.lean ====
/-
  Where each buffer's contents come from along the fused program's run. The run crosses seven boundaries: after
  launch 0, after the reshape of the embedding bias, after launch 1, after the reshape of the first layer's bias,
  after launch 2, after the eight reshapes of the second layer's and the head's vectors, after launch 3. A reshape
  stretch changes only the rows it writes; a launch changes only its output arrays (each ends at the fold of its
  flushed blocks) and leaves its input arrays and every other buffer as it found them. So an argument array is
  read back to the launch memory, a reshaped row to the argument vector it lays out, and an intermediate array to
  the launch that produced it.
-/
import proofs.«110087_g67448166416678_cont_sun_m_1095_9_alg».proof.Proof.Gen.KernelIdeal.Frame
import Idealize.ShloMosaic.Lib.ValueIdx
import Idealize.ShloMosaic.Lib.ValueLayout
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.ShloMosaic.Tactic Idealize.ShloMosaic.ValueIdx
open Idealize.SL.Sem

/-! ## The reshape stretches, over any contents `W` -/

section Host
variable (W : Valuation τ sig (Elt Ideal))

theorem keep1 (b : Ref sig .tc) (h : b ≠ main_v1) :
    StableHlo.after (hostOps1 (F := Ideal)) W (Proc.devRef .tc b) = W (Proc.devRef .tc b) := by
  refine StableHlo.after_of_forall_not_mem _ _ (List.forall_iff_forall_mem.mp ?_)
  simp only [hostOps1, List.Forall, StableHlo.reshape_writes, Finset.mem_singleton]
  exact StableHlo.devRef_ne_of_ne h

theorem keep2 (b : Ref sig .tc) (h : b ≠ main_v3) :
    StableHlo.after (hostOps2 (F := Ideal)) W (Proc.devRef .tc b) = W (Proc.devRef .tc b) := by
  refine StableHlo.after_of_forall_not_mem _ _ (List.forall_iff_forall_mem.mp ?_)
  simp only [hostOps2, List.Forall, StableHlo.reshape_writes, Finset.mem_singleton]
  exact StableHlo.devRef_ne_of_ne h

theorem keep3 (b : Ref sig .tc) (h : b ≠ main_v5 ∧ b ≠ main_v6 ∧ b ≠ main_v7 ∧ b ≠ main_v8 ∧ b ≠ main_v9 ∧ b ≠ main_v10 ∧ b ≠ main_v11 ∧ b ≠ main_v12) :
    StableHlo.after (hostOps3 (F := Ideal)) W (Proc.devRef .tc b) = W (Proc.devRef .tc b) := by
  obtain ⟨h5, h6, h7, h8, h9, h10, h11, h12⟩ := h
  refine StableHlo.after_of_forall_not_mem _ _ (List.forall_iff_forall_mem.mp ?_)
  simp only [hostOps3, List.Forall, StableHlo.reshape_writes, Finset.mem_singleton]
  exact ⟨StableHlo.devRef_ne_of_ne h5, StableHlo.devRef_ne_of_ne h6, StableHlo.devRef_ne_of_ne h7, StableHlo.devRef_ne_of_ne h8,
    StableHlo.devRef_ne_of_ne h9, StableHlo.devRef_ne_of_ne h10, StableHlo.devRef_ne_of_ne h11, StableHlo.devRef_ne_of_ne h12⟩

/-- A vector of 128 laid out as one row reads, at column `q`, the vector's entry `q`. -/
theorem rowH1_v1 (q : Fin 128) :
    (StableHlo.after (hostOps1 (F := Ideal)) W (Proc.devRef .tc main_v1) : S1x128.Idx → EReal) (ix2 0 q)
      = (W (Proc.devRef .tc main_arg3) : S128.Idx → EReal) (ix1 q) := by
  have e : (StableHlo.after (hostOps1 (F := Ideal)) W (Proc.devRef .tc main_v1) : S1x128.Idx → EReal)
      = shapeCast S1x128 (W (Proc.devRef .tc main_arg3) : S128.Idx → EReal) shapeCasts_S128_S1x128 := by
    after_results
    rfl
  rw [e, shapeCast_a_1a_apply]

theorem rowH2_v3 (q : Fin 128) :
    (StableHlo.after (hostOps2 (F := Ideal)) W (Proc.devRef .tc main_v3) : S1x128.Idx → EReal) (ix2 0 q)
      = (W (Proc.devRef .tc main_arg5) : S128.Idx → EReal) (ix1 q) := by
  have e : (StableHlo.after (hostOps2 (F := Ideal)) W (Proc.devRef .tc main_v3) : S1x128.Idx → EReal)
      = shapeCast S1x128 (W (Proc.devRef .tc main_arg5) : S128.Idx → EReal) shapeCasts_S128_S1x128 := by
    after_results
    rfl
  rw [e, shapeCast_a_1a_apply]

theorem rowH3_v5 (q : Fin 128) :
    (StableHlo.after (hostOps3 (F := Ideal)) W (Proc.devRef .tc main_v5) : S1x128.Idx → EReal) (ix2 0 q)
      = (W (Proc.devRef .tc main_arg7) : S128.Idx → EReal) (ix1 q) := by
  have e : (StableHlo.after (hostOps3 (F := Ideal)) W (Proc.devRef .tc main_v5) : S1x128.Idx → EReal)
      = shapeCast S1x128 (W (Proc.devRef .tc main_arg7) : S128.Idx → EReal) shapeCasts_S128_S1x128 := by
    after_results
    rfl
  rw [e, shapeCast_a_1a_apply]

theorem rowH3_v6 (q : Fin 128) :
    (StableHlo.after (hostOps3 (F := Ideal)) W (Proc.devRef .tc main_v6) : S1x128.Idx → EReal) (ix2 0 q)
      = (W (Proc.devRef .tc main_arg9) : S128.Idx → EReal) (ix1 q) := by
  have e : (StableHlo.after (hostOps3 (F := Ideal)) W (Proc.devRef .tc main_v6) : S1x128.Idx → EReal)
      = shapeCast S1x128 (W (Proc.devRef .tc main_arg9) : S128.Idx → EReal) shapeCasts_S128_S1x128 := by
    after_results
    rfl
  rw [e, shapeCast_a_1a_apply]

theorem rowH3_v7 (q : Fin 128) :
    (StableHlo.after (hostOps3 (F := Ideal)) W (Proc.devRef .tc main_v7) : S1x128.Idx → EReal) (ix2 0 q)
      = (W (Proc.devRef .tc main_arg10) : S128.Idx → EReal) (ix1 q) := by
  have e : (StableHlo.after (hostOps3 (F := Ideal)) W (Proc.devRef .tc main_v7) : S1x128.Idx → EReal)
      = shapeCast S1x128 (W (Proc.devRef .tc main_arg10) : S128.Idx → EReal) shapeCasts_S128_S1x128 := by
    after_results
    rfl
  rw [e, shapeCast_a_1a_apply]

theorem rowH3_v8 (q : Fin 128) :
    (StableHlo.after (hostOps3 (F := Ideal)) W (Proc.devRef .tc main_v8) : S1x128.Idx → EReal) (ix2 0 q)
      = (W (Proc.devRef .tc main_arg11) : S128.Idx → EReal) (ix1 q) := by
  have e : (StableHlo.after (hostOps3 (F := Ideal)) W (Proc.devRef .tc main_v8) : S1x128.Idx → EReal)
      = shapeCast S1x128 (W (Proc.devRef .tc main_arg11) : S128.Idx → EReal) shapeCasts_S128_S1x128 := by
    after_results
    rfl
  rw [e, shapeCast_a_1a_apply]

theorem rowH3_v9 (q : Fin 128) :
    (StableHlo.after (hostOps3 (F := Ideal)) W (Proc.devRef .tc main_v9) : S1x128.Idx → EReal) (ix2 0 q)
      = (W (Proc.devRef .tc main_arg13) : S128.Idx → EReal) (ix1 q) := by
  have e : (StableHlo.after (hostOps3 (F := Ideal)) W (Proc.devRef .tc main_v9) : S1x128.Idx → EReal)
      = shapeCast S1x128 (W (Proc.devRef .tc main_arg13) : S128.Idx → EReal) shapeCasts_S128_S1x128 := by
    after_results
    rfl
  rw [e, shapeCast_a_1a_apply]

theorem rowH3_v10 (q : Fin 128) :
    (StableHlo.after (hostOps3 (F := Ideal)) W (Proc.devRef .tc main_v10) : S1x128.Idx → EReal) (ix2 0 q)
      = (W (Proc.devRef .tc main_arg14) : S128.Idx → EReal) (ix1 q) := by
  have e : (StableHlo.after (hostOps3 (F := Ideal)) W (Proc.devRef .tc main_v10) : S1x128.Idx → EReal)
      = shapeCast S1x128 (W (Proc.devRef .tc main_arg14) : S128.Idx → EReal) shapeCasts_S128_S1x128 := by
    after_results
    rfl
  rw [e, shapeCast_a_1a_apply]

theorem rowH3_v11 (q : Fin 128) :
    (StableHlo.after (hostOps3 (F := Ideal)) W (Proc.devRef .tc main_v11) : S1x128.Idx → EReal) (ix2 0 q)
      = (W (Proc.devRef .tc main_arg15) : S128.Idx → EReal) (ix1 q) := by
  have e : (StableHlo.after (hostOps3 (F := Ideal)) W (Proc.devRef .tc main_v11) : S1x128.Idx → EReal)
      = shapeCast S1x128 (W (Proc.devRef .tc main_arg15) : S128.Idx → EReal) shapeCasts_S128_S1x128 := by
    after_results
    rfl
  rw [e, shapeCast_a_1a_apply]

theorem rowH3_v12 (q : Fin 128) :
    (StableHlo.after (hostOps3 (F := Ideal)) W (Proc.devRef .tc main_v12) : S1x128.Idx → EReal) (ix2 0 q)
      = (W (Proc.devRef .tc main_arg17) : S128.Idx → EReal) (ix1 q) := by
  have e : (StableHlo.after (hostOps3 (F := Ideal)) W (Proc.devRef .tc main_v12) : S1x128.Idx → EReal)
      = shapeCast S1x128 (W (Proc.devRef .tc main_arg17) : S128.Idx → EReal) shapeCasts_S128_S1x128 := by
    after_results
    rfl
  rw [e, shapeCast_a_1a_apply]

end Host

/-! ## The boundaries, from the launch memory `m` -/

section Walk
variable (m : (ℓ : Loc nD τ sig) → Buf (Elt Ideal) ℓ) (ρ : Dev nD → PrngReg) (c : Dev nD)

/-! ### A buffer that no launch so far has among its arrays and no reshape so far writes is as launched -/

theorem L1_plain (b : Ref sig .tc) (h0 : ∀ w, Pipeline.arrRef spec0 w ≠ b) :
    W1 m ρ c (Proc.devRef .tc b) = m ((c : Thread nD τ).loc b) := W1_of_ne m ρ c b h0

theorem L2_plain (b : Ref sig .tc) (h0 : ∀ w, Pipeline.arrRef spec0 w ≠ b) (k1 : b ≠ main_v1) :
    W2 m ρ c (Proc.devRef .tc b) = m ((c : Thread nD τ).loc b) :=
  (keep1 (W1 m ρ c) b k1).trans (L1_plain m ρ c b h0)

theorem L3_plain (b : Ref sig .tc) (h0 : ∀ w, Pipeline.arrRef spec0 w ≠ b) (k1 : b ≠ main_v1)
    (h1 : ∀ w, Pipeline.arrRef spec1 w ≠ b) :
    W3 m ρ c (Proc.devRef .tc b) = m ((c : Thread nD τ).loc b) :=
  (W3_of_ne m ρ c b h1).trans (L2_plain m ρ c b h0 k1)

theorem L4_plain (b : Ref sig .tc) (h0 : ∀ w, Pipeline.arrRef spec0 w ≠ b) (k1 : b ≠ main_v1)
    (h1 : ∀ w, Pipeline.arrRef spec1 w ≠ b) (k2 : b ≠ main_v3) :
    W4 m ρ c (Proc.devRef .tc b) = m ((c : Thread nD τ).loc b) :=
  (keep2 (W3 m ρ c) b k2).trans (L3_plain m ρ c b h0 k1 h1)

theorem L5_plain (b : Ref sig .tc) (h0 : ∀ w, Pipeline.arrRef spec0 w ≠ b) (k1 : b ≠ main_v1)
    (h1 : ∀ w, Pipeline.arrRef spec1 w ≠ b) (k2 : b ≠ main_v3) (h2 : ∀ w, Pipeline.arrRef spec2 w ≠ b) :
    W5 m ρ c (Proc.devRef .tc b) = m ((c : Thread nD τ).loc b) :=
  (W5_of_ne m ρ c b h2).trans (L4_plain m ρ c b h0 k1 h1 k2)

theorem L6_plain (b : Ref sig .tc) (h0 : ∀ w, Pipeline.arrRef spec0 w ≠ b) (k1 : b ≠ main_v1)
    (h1 : ∀ w, Pipeline.arrRef spec1 w ≠ b) (k2 : b ≠ main_v3) (h2 : ∀ w, Pipeline.arrRef spec2 w ≠ b)
    (k3 : b ≠ main_v5 ∧ b ≠ main_v6 ∧ b ≠ main_v7 ∧ b ≠ main_v8 ∧ b ≠ main_v9 ∧ b ≠ main_v10 ∧ b ≠ main_v11 ∧ b ≠ main_v12) :
    W6 m ρ c (Proc.devRef .tc b) = m ((c : Thread nD τ).loc b) :=
  (keep3 (W5 m ρ c) b k3).trans (L5_plain m ρ c b h0 k1 h1 k2 h2)

/-! ### The adjacency: an input array of launches 0, 2 and 3 -/

theorem L1_adj : W1 m ρ c (Proc.devRef .tc main_arg1) = m ((c : Thread nD τ).loc main_arg1) :=
  (W1_arr m ρ c 0).trans (((dat0 (V0 m ρ) c).arrAt_in 0 rfl _).trans (A_eq0 (V0 m ρ) c 0))

theorem L4_adj : W4 m ρ c (Proc.devRef .tc main_arg1) = m ((c : Thread nD τ).loc main_arg1) :=
  (keep2 (W3 m ρ c) main_arg1 (by decide)).trans ((W3_of_ne m ρ c main_arg1 (by decide)).trans
    ((keep1 (W1 m ρ c) main_arg1 (by decide)).trans (L1_adj m ρ c)))

theorem L6_adj : W6 m ρ c (Proc.devRef .tc main_arg1) = m ((c : Thread nD τ).loc main_arg1) :=
  (keep3 (W5 m ρ c) main_arg1 ⟨by decide, by decide, by decide, by decide, by decide, by decide, by decide, by decide⟩).trans
    ((W5_arr m ρ c 0).trans ((((dat2 (V4 m ρ) c).arrAt_in 0 rfl _).trans (A_eq2 (V4 m ρ) c 0)).trans (L4_adj m ρ c)))

/-! ### The arrays the launches write -/

/-- The degrees, as launch 1 finds them: what launch 0 left. -/
theorem L2_deg : W2 m ρ c (Proc.devRef .tc main_v0) = (dat0 (V0 m ρ) c).arrAt 1 cfg0.N :=
  (keep1 (W1 m ρ c) main_v0 (by decide)).trans (W1_arr m ρ c 1)

/-- Launch 1's three outputs, as launch 2 finds them. -/
theorem L4_h0 : W4 m ρ c (Proc.devRef .tc main_v2_0) = (dat1 (V2 m ρ) c).arrAt 4 cfg1.N :=
  (keep2 (W3 m ρ c) main_v2_0 (by decide)).trans (W3_arr m ρ c 4)
theorem L4_hs0 : W4 m ρ c (Proc.devRef .tc main_v2_1) = (dat1 (V2 m ρ) c).arrAt 5 cfg1.N :=
  (keep2 (W3 m ρ c) main_v2_1 (by decide)).trans (W3_arr m ρ c 5)
theorem L4_dinv : W4 m ρ c (Proc.devRef .tc main_v2_2) = (dat1 (V2 m ρ) c).arrAt 6 cfg1.N :=
  (keep2 (W3 m ρ c) main_v2_2 (by decide)).trans (W3_arr m ρ c 6)

/-- The same two of them, and launch 2's output, as launch 3 finds them (launch 2 only read the first two). -/
theorem L6_h0 : W6 m ρ c (Proc.devRef .tc main_v2_0) = (dat1 (V2 m ρ) c).arrAt 4 cfg1.N :=
  (keep3 (W5 m ρ c) main_v2_0 ⟨by decide, by decide, by decide, by decide, by decide, by decide, by decide, by decide⟩).trans
    ((W5_arr m ρ c 2).trans ((((dat2 (V4 m ρ) c).arrAt_in 2 rfl _).trans (A_eq2 (V4 m ρ) c 2)).trans (L4_h0 m ρ c)))
theorem L6_dinv : W6 m ρ c (Proc.devRef .tc main_v2_2) = (dat1 (V2 m ρ) c).arrAt 6 cfg1.N :=
  (keep3 (W5 m ρ c) main_v2_2 ⟨by decide, by decide, by decide, by decide, by decide, by decide, by decide, by decide⟩).trans
    ((W5_arr m ρ c 3).trans ((((dat2 (V4 m ρ) c).arrAt_in 3 rfl _).trans (A_eq2 (V4 m ρ) c 3)).trans (L4_dinv m ρ c)))
theorem L6_hs1 : W6 m ρ c (Proc.devRef .tc main_v4) = (dat2 (V4 m ρ) c).arrAt 6 cfg2.N :=
  (keep3 (W5 m ρ c) main_v4 ⟨by decide, by decide, by decide, by decide, by decide, by decide, by decide, by decide⟩).trans (W5_arr m ρ c 6)

end Walk

end Cert.KernelIdeal.KVal

end
-- ==== Proof.KReg0.lean ====
/-
  Launch 0: the degree table. Each of the 25 grid points stages a block of 400 adjacency rows, sums every row over
  its 10000 columns, and writes the 400 sums back as a column; after the last point row i of the output column holds
  the sum of adjacency row i.
-/
import proofs.«110087_g67448166416678_cont_sun_m_1095_9_alg».proof.Proof.Gen.KernelIdeal.Frame
import proofs.«110087_g67448166416678_cont_sun_m_1095_9_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KReg0

open Cert.KernelIdeal Cert.KernelIdeal.Gen Idealize.ShloMosaic Idealize.ShloMosaic.TcCoe Idealize.SL.Sem
open Idealize.ShloMosaic.ValueIdx
open Idealize.ShloMosaic.Pipeline (Dat)

/-- A one-axis sum over the columns of a 400 x 10000 block, laid as a column: entry (r, 0) is the sum of row r. -/
theorem rowSum_apply (x0 : Vec Ideal S400x10000 .f32) (h : S400x10000.Reduces [1] S400)
    (hφ : FKind.Formats .f32) (hacc : (0x00000000#32 : BitVec 32) = FKind.add.neutral .f32 hφ)
    (hc : S400.ShapeCasts S400x1) (r : Fin 400) (u : Fin 1) :
    (shapeCast S400x1 (multiReduction (F := Ideal) .add [1] S400 x0 0x00000000#32 h hφ hacc) hc : S400x1.Idx → EReal) (ix2 r u)
      = ∑ k : Fin 10000, (x0 : S400x10000.Idx → EReal) (ix2 r k) := by
  refine (shapeCast_apply _ hc (ix2 r u) (ix1 r) ?_).trans ?_
  · rw [Shape.rowMajor_val_two, Shape.rowMajor_val_one]
    show r.val = r.val * 1 + u.val
    omega
  · refine (Ideal.multiReduction_add_single x0 0x00000000#32 h hφ hacc (ix1 r)).trans ?_
    refine Finset.sum_congr rfl fun k _ => congrArg x0 ?_
    funext a
    match a with
    | ⟨0, _⟩ => rfl
    | ⟨1, _⟩ => rfl

/-- The body's stored value at (r, 0): the sum of row r of the loaded block. -/
theorem pay_apply (x0 : Vec Ideal S400x10000 .f32) (r : Fin 400) (u : Fin 1) :
    (k0_pay1 x0 : S400x1.Idx → EReal) (ix2 r u) = ∑ k : Fin 10000, (x0 : S400x10000.Idx → EReal) (ix2 r k) := by
  unfold k0_pay1
  exact rowSum_apply x0 _ _ _ _ r u

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- Both windows walk down the rows with the grid point: block t starts at row block t, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The adjacency as the launch finds it, as a plain matrix. -/
abbrev adjOf (c : Dev nD) : Fin 10000 → Fin 10000 → EReal :=
  fun a b => (V c main_arg1 : S10000x10000.Idx → EReal) (ix2 a b)

/-- The degree column: what the output array holds in the end. -/
abbrev G (c : Dev nD) : Buf (Elt Ideal) ((c : Thread nD τ).loc main_v0) :=
  fun i : S10000x1.Idx => Gcn.deg (adjOf V c) (i 0)

/-- Row r of the block staged at point t is row 400 t + r of the adjacency. -/
theorem iblk_apply (c : Dev nD) (t : Fin cfg0.N) (r : Fin 400) (k : Fin 10000) (i : Fin 10000)
    (hi : i.val = 400 * t.val + r.val) :
    (iblk0 V c 0 t : S400x10000.Idx → EReal) (ix2 r k) = adjOf V c i k := by
  obtain ⟨e0, e1, -, -⟩ := idx_facts t
  unfold iblk0
  rw [View.read_apply]
  show (V c main_arg1 : S10000x10000.Idx → EReal) _ = (V c main_arg1 : S10000x10000.Idx → EReal) (ix2 i k)
  refine congrArg _ ?_
  funext a
  apply Fin.ext
  match a with
  | ⟨0, _⟩ => show win0_0.index t (0 : Fin 2) * 400 + 1 * r.val = i.val; rw [e0, hi]; omega
  | ⟨1, _⟩ => show win0_0.index t (1 : Fin 2) * 10000 + 1 * k.val = k.val; rw [e1]; omega

/-- What point t writes back is block t of the degree column. -/
theorem flushed_eq (c : Dev nD) (t : Fin cfg0.N) :
    (dat0 V c).flushed 1 t = ((cfg0.win 1).blk t).view.read (Elt Ideal) (G V c) := by
  show (cfg0.win 1).cut (grid0.coords t) ((dat0 V c).after 1 t) = _
  rw [after0_1]
  unfold out0_1
  rw [View.canon_unit_zero hz]
  simp only [View.ld_unit_zero (S := S400x10000) hz]
  have ht : t.val < 25 := t.isLt
  obtain ⟨-, -, e2, e3⟩ := idx_facts t
  suffices h : ∀ j : S400x1.Idx, (k0_pay1 (iblk0 V c 0 t) : S400x1.Idx → EReal) j
      = G V c (((cfg0.win 1).blk t).view.emb j) from funext fun j => h j
  intro j
  obtain ⟨r, u, rfl⟩ : ∃ (r : Fin 400) (u : Fin 1), j = ix2 r u := ⟨j 0, j 1, eq_ix2 j⟩
  refine (pay_apply (iblk0 V c 0 t) r u).trans ?_
  have hemb : (((cfg0.win 1).blk t).view.emb (ix2 r u) : S10000x1.Idx) 0 = (⟨400 * t.val + r.val, by omega⟩ : Fin 10000) :=
    Fin.ext (by show win0_1.index t (0 : Fin 2) * 400 + 1 * r.val = 400 * t.val + r.val; rw [e2]; omega)
  show _ = Gcn.deg (adjOf V c) ((((cfg0.win 1).blk t).view.emb (ix2 r u) : S10000x1.Idx) 0)
  rw [hemb]
  unfold Gcn.deg
  exact Finset.sum_congr rfl fun k _ => iblk_apply V c t r k _ rfl

/-- An index of the column is in point t's block iff each coordinate is in the block's range on its axis. -/
theorem mem_blk (t : Fin cfg0.N) (i : S10000x1.Idx) :
    i ∈ ((cfg0.win 1).blk t).view.set ↔ ∀ a : Fin 2, win0_1.index t a * S400x1.size a ≤ (i a).val
      ∧ (i a).val < win0_1.index t a * S400x1.size a + S400x1.size a := by
  show i ∈ ((View.whole main_v0).slice (win0_1.rect t)).set ↔ _
  rw [View.set_slice_whole, Rect.mem_set_unit]
  exact Iff.rfl

/-- Row i lies in the block of point i / 400. -/
theorem cover (i : S10000x1.Idx) :
    ∃ t : Fin cfg0.N, (cfg0.win 1).flush t = true ∧ i ∈ ((cfg0.win 1).blk t).view.set := by
  have hi0 : (i 0).val < 10000 := (i 0).isLt
  have hi1 : (i 1).val < 1 := (i 1).isLt
  have hlt : (i 0).val / 400 < cfg0.N := by show _ < grid0.N; rw [N_0]; omega
  obtain ⟨-, -, e2, e3⟩ := idx_facts ⟨(i 0).val / 400, hlt⟩
  refine ⟨⟨(i 0).val / 400, hlt⟩, flush0_1 _, ?_⟩
  rw [mem_blk]
  intro a
  match a with
  | ⟨0, _⟩ =>
    show win0_1.index ⟨(i 0).val / 400, hlt⟩ (0 : Fin 2) * 400 ≤ (i 0).val
      ∧ (i 0).val < win0_1.index ⟨(i 0).val / 400, hlt⟩ (0 : Fin 2) * 400 + 400
    rw [e2]; show (i 0).val / 400 * 400 ≤ (i 0).val ∧ (i 0).val < (i 0).val / 400 * 400 + 400; omega
  | ⟨1, _⟩ =>
    show win0_1.index ⟨(i 0).val / 400, hlt⟩ (1 : Fin 2) * 1 ≤ (i 1).val
      ∧ (i 1).val < win0_1.index ⟨(i 0).val / 400, hlt⟩ (1 : Fin 2) * 1 + 1
    rw [e3]; omega

/-- The output column after all 25 points is the degree column. -/
theorem arr_eq (c : Dev nD) : (dat0 V c).arrAt 1 cfg0.N = G V c :=
  (dat0 V c).arrAt_eq_of_cover 1 (G V c) (fun t _ => flushed_eq V c t) cover

/-- Entry i of the output column after the launch is the degree of node i: the sum of adjacency row i. -/
theorem final (c : Dev nD) (i : Fin 10000) :
    ((dat0 V c).arrAt 1 cfg0.N : S10000x1.Idx → EReal) (ix2 i 0)
      = Gcn.deg (fun a b => (V c main_arg1 : S10000x10000.Idx → EReal) (ix2 a b)) i := by
  rw [arr_eq V c]

end Blocks

end Cert.KernelIdeal.KReg0

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.KReg1.lean ====
/-
  Launch 1: the embedding and the normaliser. A single grid point stages every array whole: the features x (10000 x 128),
  the embedding weights (128 x 128), the embedding bias as a one-row table, and the degree column. It stores three
  arrays: h0 = x · we + be; h0 scaled row by row by dinv; and dinv itself, the inverse square root of the guarded
  degree, as a column.
-/
import proofs.«110087_g67448166416678_cont_sun_m_1095_9_alg».proof.Proof.Gen.KernelIdeal.Frame
import proofs.«110087_g67448166416678_cont_sun_m_1095_9_alg».proof.Proof.Spec
import proofs.«110087_g67448166416678_cont_sun_m_1095_9_alg».proof.Proof.LibTileMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KReg1

open Cert.KernelIdeal Cert.KernelIdeal.Gen Idealize.ShloMosaic Idealize.ShloMosaic.TcCoe Idealize.SL.Sem
open Idealize.ShloMosaic.ValueIdx
open Idealize.ShloMosaic.Pipeline (Dat)

/-! ## The three stored values at an index, over any loaded blocks -/

/-- The embedded features at (r, k): row r of x against column k of the weights, plus the bias row's entry k. -/
theorem pay1_apply (x0 : Vec Ideal S10000x128 .f32) (x1 : Vec Ideal S128x128 .f32) (x2 : Vec Ideal S1x128 .f32)
    (r : Fin 10000) (k : Fin 128) :
    (k1_pay1 x0 x1 x2 : S10000x128.Idx → EReal) (ix2 r k)
      = Gcn.linRow (fun q => (x0 : S10000x128.Idx → EReal) (ix2 r q))
          (fun a b => (x1 : S128x128.Idx → EReal) (ix2 a b)) (fun b => (x2 : S1x128.Idx → EReal) (ix2 0 b)) k := by
  unfold k1_pay1 Gcn.linRow
  refine (addf_apply _ _ _).trans ?_
  refine congrArg₂ (· + ·) ?_ ?_
  · exact TileMatmul.matmul_zero_apply _ none x0 x1 r k
  · refine (broadcastTo_1b_ab_apply _ _ r k).trans ?_
    rw [shapeCast_self]

/-- The normaliser at (r, u): the inverse square root of the guarded degree of row r. -/
theorem pay2_apply (x3 : Vec Ideal S10000x1 .f32) (j : S10000x1.Idx) :
    (k1_pay2 x3 : S10000x1.Idx → EReal) j = Ideal.rsqrt ((x3 : S10000x1.Idx → EReal) j + Gcn.epsDeg) := by
  unfold k1_pay2
  show Ideal.rsqrt ((shapeCast S10000x1 x3 _ : S10000x1.Idx → EReal) j + Ideal.ofBits .f32 0x2B8CBCCC#32) = _
  rw [shapeCast_self]

/-- The scaled features at (r, k): the embedded features there times row r's normaliser. -/
theorem pay3_apply (x0 : Vec Ideal S10000x128 .f32) (x1 : Vec Ideal S128x128 .f32) (x2 : Vec Ideal S1x128 .f32)
    (x3 : Vec Ideal S10000x1 .f32) (r : Fin 10000) (k : Fin 128) :
    (k1_pay3 x0 x1 x2 x3 : S10000x128.Idx → EReal) (ix2 r k)
      = (k1_pay1 x0 x1 x2 : S10000x128.Idx → EReal) (ix2 r k) * (k1_pay2 x3 : S10000x1.Idx → EReal) (ix2 r 0) := by
  unfold k1_pay3
  show (k1_pay1 x0 x1 x2 : S10000x128.Idx → EReal) (ix2 r k)
      * (broadcastTo S10000x128 (k1_pay2 x3) _ : S10000x128.Idx → EReal) (ix2 r k) = _
  refine congrArg₂ (· * ·) rfl ?_
  refine broadcastTo_apply _ _ (ix2 r k) (ix2 r 0) fun ax => ?_
  match ax with
  | ⟨0, _⟩ => rfl
  | ⟨1, _⟩ => rfl

/-! ## From the one point's blocks to the arrays -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The features as the launch finds them. -/
abbrev X (c : Dev nD) : Fin 10000 → Fin 128 → EReal :=
  fun a b => (V c main_arg0 : S10000x128.Idx → EReal) (ix2 a b)
/-- The embedding weights. -/
abbrev We (c : Dev nD) : Fin 128 → Fin 128 → EReal :=
  fun a b => (V c main_arg2 : S128x128.Idx → EReal) (ix2 a b)
/-- The embedding bias: the one row of its table. -/
abbrev Be (c : Dev nD) : Fin 128 → EReal :=
  fun b => (V c main_v1 : S1x128.Idx → EReal) (ix2 0 b)
/-- The degree table: the one column of its array. -/
abbrev D (c : Dev nD) : Fin 10000 → EReal :=
  fun a => (V c main_v0 : S10000x1.Idx → EReal) (ix2 a 0)

/-- What the three output arrays hold in the end. -/
abbrev G4 (c : Dev nD) : Buf (Elt Ideal) ((c : Thread nD τ).loc main_v2_0) :=
  fun i : S10000x128.Idx => Gcn.embed (X V c) (We V c) (Be V c) (i 0) (i 1)
abbrev G5 (c : Dev nD) : Buf (Elt Ideal) ((c : Thread nD τ).loc main_v2_1) :=
  fun i : S10000x128.Idx => Gcn.embedScaled (X V c) (We V c) (Be V c) (D V c) (i 0) (i 1)
abbrev G6 (c : Dev nD) : Buf (Elt Ideal) ((c : Thread nD τ).loc main_v2_2) :=
  fun i : S10000x1.Idx => Gcn.dinvOf (D V c) (i 0)

/-! Every window's block at the one point is its whole array, read at the same index. -/

theorem iblk0_apply (c : Dev nD) (t : Fin cfg1.N) (y : S10000x128.Idx) :
    (iblk1 V c 0 t : S10000x128.Idx → EReal) y = (V c main_arg0 : S10000x128.Idx → EReal) y := by
  unfold iblk1
  rw [View.read_apply]
  show (V c main_arg0 : S10000x128.Idx → EReal) _ = (V c main_arg0 : S10000x128.Idx → EReal) y
  refine congrArg _ ?_
  funext a
  apply Fin.ext
  match a with
  | ⟨0, _⟩ => show 0 * 10000 + 1 * (y 0).val = (y 0).val; omega
  | ⟨1, _⟩ => show 0 * 128 + 1 * (y 1).val = (y 1).val; omega

theorem iblk1_apply (c : Dev nD) (t : Fin cfg1.N) (y : S128x128.Idx) :
    (iblk1 V c 1 t : S128x128.Idx → EReal) y = (V c main_arg2 : S128x128.Idx → EReal) y := by
  unfold iblk1
  rw [View.read_apply]
  show (V c main_arg2 : S128x128.Idx → EReal) _ = (V c main_arg2 : S128x128.Idx → EReal) y
  refine congrArg _ ?_
  funext a
  apply Fin.ext
  match a with
  | ⟨0, _⟩ => show 0 * 128 + 1 * (y 0).val = (y 0).val; omega
  | ⟨1, _⟩ => show 0 * 128 + 1 * (y 1).val = (y 1).val; omega

theorem iblk2_apply (c : Dev nD) (t : Fin cfg1.N) (y : S1x128.Idx) :
    (iblk1 V c 2 t : S1x128.Idx → EReal) y = (V c main_v1 : S1x128.Idx → EReal) y := by
  unfold iblk1
  rw [View.read_apply]
  show (V c main_v1 : S1x128.Idx → EReal) _ = (V c main_v1 : S1x128.Idx → EReal) y
  refine congrArg _ ?_
  funext a
  apply Fin.ext
  match a with
  | ⟨0, _⟩ => show 0 * 1 + 1 * (y 0).val = (y 0).val; omega
  | ⟨1, _⟩ => show 0 * 128 + 1 * (y 1).val = (y 1).val; omega

theorem iblk3_apply (c : Dev nD) (t : Fin cfg1.N) (y : S10000x1.Idx) :
    (iblk1 V c 3 t : S10000x1.Idx → EReal) y = (V c main_v0 : S10000x1.Idx → EReal) y := by
  unfold iblk1
  rw [View.read_apply]
  show (V c main_v0 : S10000x1.Idx → EReal) _ = (V c main_v0 : S10000x1.Idx → EReal) y
  refine congrArg _ ?_
  funext a
  apply Fin.ext
  match a with
  | ⟨0, _⟩ => show 0 * 10000 + 1 * (y 0).val = (y 0).val; omega
  | ⟨1, _⟩ => show 0 * 1 + 1 * (y 1).val = (y 1).val; omega

/-- The embedded features of the staged blocks are those of the arrays. -/
theorem embed_blocks (c : Dev nD) (t : Fin cfg1.N) (r : Fin 10000) (k : Fin 128) :
    (k1_pay1 (iblk1 V c 0 t) (iblk1 V c 1 t) (iblk1 V c 2 t) : S10000x128.Idx → EReal) (ix2 r k)
      = Gcn.embed (X V c) (We V c) (Be V c) r k := by
  refine (pay1_apply (iblk1 V c 0 t) (iblk1 V c 1 t) (iblk1 V c 2 t) r k).trans ?_
  unfold Gcn.embed Gcn.linRow
  exact congrArg₂ (· + ·)
    (Finset.sum_congr rfl fun q _ => congrArg₂ (· * ·) (iblk0_apply V c t (ix2 r q)) (iblk1_apply V c t (ix2 q k)))
    (iblk2_apply V c t (ix2 0 k))

/-- The normaliser of the staged degree column is that of the array. -/
theorem dinv_blocks (c : Dev nD) (t : Fin cfg1.N) (r : Fin 10000) :
    (k1_pay2 (iblk1 V c 3 t) : S10000x1.Idx → EReal) (ix2 r 0) = Gcn.dinvOf (D V c) r := by
  refine (pay2_apply (iblk1 V c 3 t) (ix2 r 0)).trans ?_
  unfold Gcn.dinvOf
  exact congrArg (fun z => Ideal.rsqrt (z + Gcn.epsDeg)) (iblk3_apply V c t (ix2 r 0))

/-! ## What the one point writes back, and the arrays in the end -/

/-- The one grid point. -/
theorem t_lt : 0 < cfg1.N := by show 0 < grid1.N; rw [N_1]; omega

/-- The point writes back the embedded features. -/
theorem flushed4_eq (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4]
  unfold out1_4
  rw [View.canon_unit_zero hz]
  simp only [View.ld_unit_zero (S := S10000x128) hz, View.ld_unit_zero (S := S128x128) hz,
    View.ld_unit_zero (S := S1x128) hz]
  suffices h : ∀ j : S10000x128.Idx,
      (k1_pay1 (iblk1 V c 0 t) (iblk1 V c 1 t) (iblk1 V c 2 t) : S10000x128.Idx → EReal) j
        = G4 V c (((cfg1.win 4).blk t).view.emb j) from funext fun j => h j
  intro j
  obtain ⟨r, k, rfl⟩ : ∃ (r : Fin 10000) (k : Fin 128), j = ix2 r k := ⟨j 0, j 1, eq_ix2 j⟩
  refine (embed_blocks V c t r k).trans ?_
  have hemb : (((cfg1.win 4).blk t).view.emb (ix2 r k) : S10000x128.Idx) = ix2 r k := by
    funext a
    apply Fin.ext
    match a with
    | ⟨0, _⟩ => show 0 * 10000 + 1 * r.val = r.val; omega
    | ⟨1, _⟩ => show 0 * 128 + 1 * k.val = k.val; omega
  show _ = G4 V c (((cfg1.win 4).blk t).view.emb (ix2 r k) : S10000x128.Idx)
  rw [hemb]

/-- The point writes back the scaled features. -/
theorem flushed5_eq (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x128) hz,
    View.ld_unit_zero (S := S1x128) hz, View.ld_unit_zero (S := S10000x1) hz]
  suffices h : ∀ j : S10000x128.Idx,
      (k1_pay3 (iblk1 V c 0 t) (iblk1 V c 1 t) (iblk1 V c 2 t) (iblk1 V c 3 t) : S10000x128.Idx → EReal) j
        = G5 V c (((cfg1.win 5).blk t).view.emb j) from funext fun j => h j
  intro j
  obtain ⟨r, k, rfl⟩ : ∃ (r : Fin 10000) (k : Fin 128), j = ix2 r k := ⟨j 0, j 1, eq_ix2 j⟩
  refine (pay3_apply (iblk1 V c 0 t) (iblk1 V c 1 t) (iblk1 V c 2 t) (iblk1 V c 3 t) r k).trans ?_
  refine (congrArg₂ (· * ·) (embed_blocks V c t r k) (dinv_blocks V c t r)).trans ?_
  have hemb : (((cfg1.win 5).blk t).view.emb (ix2 r k) : S10000x128.Idx) = ix2 r k := by
    funext a
    apply Fin.ext
    match a with
    | ⟨0, _⟩ => show 0 * 10000 + 1 * r.val = r.val; omega
    | ⟨1, _⟩ => show 0 * 128 + 1 * k.val = k.val; omega
  show _ = G5 V c (((cfg1.win 5).blk t).view.emb (ix2 r k) : S10000x128.Idx)
  rw [hemb]
  rfl

/-- The point writes back the normaliser column. -/
theorem flushed6_eq (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6]
  unfold out1_6
  rw [View.canon_unit_zero hz]
  simp only [View.ld_unit_zero (S := S10000x1) hz]
  suffices h : ∀ j : S10000x1.Idx,
      (k1_pay2 (iblk1 V c 3 t) : S10000x1.Idx → EReal) j
        = G6 V c (((cfg1.win 6).blk t).view.emb j) from funext fun j => h j
  intro j
  obtain ⟨r, u, rfl⟩ : ∃ (r : Fin 10000) (u : Fin 1), j = ix2 r u := ⟨j 0, j 1, eq_ix2 j⟩
  obtain rfl : u = 0 := Subsingleton.elim _ _
  refine (dinv_blocks V c t r).trans ?_
  have hemb : (((cfg1.win 6).blk t).view.emb (ix2 r (0 : Fin 1)) : S10000x1.Idx) = ix2 r 0 := by
    funext a
    apply Fin.ext
    match a with
    | ⟨0, _⟩ => show 0 * 10000 + 1 * r.val = r.val; omega
    | ⟨1, _⟩ => show 0 * 1 + 1 * 0 = 0; omega
  show _ = G6 V c (((cfg1.win 6).blk t).view.emb (ix2 r (0 : Fin 1)) : S10000x1.Idx)
  rw [hemb]

/-- The one point's block is the whole array, for each output window. -/
theorem cover4 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  refine ⟨⟨0, t_lt⟩, flush1_4 _, ?_⟩
  show i ∈ ((View.whole main_v2_0).slice (win1_4.rect ⟨0, t_lt⟩)).set
  rw [View.set_slice_whole, Rect.mem_set_unit]
  intro a
  match a with
  | ⟨0, _⟩ => show 0 * 10000 ≤ (i 0).val ∧ (i 0).val < 0 * 10000 + 10000; omega
  | ⟨1, _⟩ => show 0 * 128 ≤ (i 1).val ∧ (i 1).val < 0 * 128 + 128; omega

theorem cover5 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  refine ⟨⟨0, t_lt⟩, flush1_5 _, ?_⟩
  show i ∈ ((View.whole main_v2_1).slice (win1_5.rect ⟨0, t_lt⟩)).set
  rw [View.set_slice_whole, Rect.mem_set_unit]
  intro a
  match a with
  | ⟨0, _⟩ => show 0 * 10000 ≤ (i 0).val ∧ (i 0).val < 0 * 10000 + 10000; omega
  | ⟨1, _⟩ => show 0 * 128 ≤ (i 1).val ∧ (i 1).val < 0 * 128 + 128; omega

theorem cover6 (i : S10000x1.Idx) :
    ∃ t : Fin cfg1.N, (cfg1.win 6).flush t = true ∧ i ∈ ((cfg1.win 6).blk t).view.set := by
  have hi0 : (i 0).val < 10000 := (i 0).isLt
  have hi1 : (i 1).val < 1 := (i 1).isLt
  refine ⟨⟨0, t_lt⟩, flush1_6 _, ?_⟩
  show i ∈ ((View.whole main_v2_2).slice (win1_6.rect ⟨0, t_lt⟩)).set
  rw [View.set_slice_whole, Rect.mem_set_unit]
  intro a
  match a with
  | ⟨0, _⟩ => show 0 * 10000 ≤ (i 0).val ∧ (i 0).val < 0 * 10000 + 10000; omega
  | ⟨1, _⟩ => show 0 * 1 ≤ (i 1).val ∧ (i 1).val < 0 * 1 + 1; omega

/-- The three output arrays after the launch. -/
theorem arr4_eq (c : Dev nD) : (dat1 V c).arrAt 4 cfg1.N = G4 V c :=
  (dat1 V c).arrAt_eq_of_cover 4 (G4 V c) (fun t _ => flushed4_eq V c t) cover4

theorem arr5_eq (c : Dev nD) : (dat1 V c).arrAt 5 cfg1.N = G5 V c :=
  (dat1 V c).arrAt_eq_of_cover 5 (G5 V c) (fun t _ => flushed5_eq V c t) cover5

theorem arr6_eq (c : Dev nD) : (dat1 V c).arrAt 6 cfg1.N = G6 V c :=
  (dat1 V c).arrAt_eq_of_cover 6 (G6 V c) (fun t _ => flushed6_eq V c t) cover6

/-- The first output holds the embedded features x · we + be. -/
theorem final4 (c : Dev nD) (i : Fin 10000) (k : Fin 128) :
    ((dat1 V c).arrAt 4 cfg1.N : S10000x128.Idx → EReal) (ix2 i k)
      = Gcn.embed (fun a b => (V c main_arg0 : S10000x128.Idx → EReal) (ix2 a b))
          (fun a b => (V c main_arg2 : S128x128.Idx → EReal) (ix2 a b))
          (fun b => (V c main_v1 : S1x128.Idx → EReal) (ix2 0 b)) i k := by
  rw [arr4_eq V c]

/-- The second output holds the embedded features scaled row by row by the normaliser. -/
theorem final5 (c : Dev nD) (i : Fin 10000) (k : Fin 128) :
    ((dat1 V c).arrAt 5 cfg1.N : S10000x128.Idx → EReal) (ix2 i k)
      = Gcn.embedScaled (fun a b => (V c main_arg0 : S10000x128.Idx → EReal) (ix2 a b))
          (fun a b => (V c main_arg2 : S128x128.Idx → EReal) (ix2 a b))
          (fun b => (V c main_v1 : S1x128.Idx → EReal) (ix2 0 b))
          (fun a => (V c main_v0 : S10000x1.Idx → EReal) (ix2 a 0)) i k := by
  rw [arr5_eq V c]

/-- The third output holds the normaliser: the inverse square root of the guarded degree. -/
theorem final6 (c : Dev nD) (i : Fin 10000) :
    ((dat1 V c).arrAt 6 cfg1.N : S10000x1.Idx → EReal) (ix2 i 0)
      = Gcn.dinvOf (fun a => (V c main_v0 : S10000x1.Idx → EReal) (ix2 a 0)) i := by
  rw [arr6_eq V c]

end Blocks

end Cert.KernelIdeal.KReg1

end
-- ==== Proof.KReg2Pay.lean ====
/-
  Launch 2 (the first graph-convolution layer) at one grid point: the value the body stores, read at an entry.

  The body holds a block of 400 adjacency rows, the whole pre-scaled feature table, the matching 400 rows of
  the initial features and of the normaliser column, the layer's weight matrix and its bias row. At row `r`
  of the block and feature `k` it stores

      max ((θ * (s · w) k + θ' * s k) + b k) 0 * d r,   s c = cKeep * ((∑ j, a r j * hs j c) * d r) + cInit * h0 r c,

  that is `Gcn.gcnRow` of the support row `Gcn.supRow`, scaled by the row's normaliser. Two facts about
  layout operations are needed on the way: a plain matrix product into a zero accumulator read at an entry is
  the finite sum over the contracted coordinate, and a one-column array broadcast along its rows reads its
  column entry.
-/
import proofs.«110087_g67448166416678_cont_sun_m_1095_9_alg».proof.Proof.Gen.KernelIdeal.Skeleton
import proofs.«110087_g67448166416678_cont_sun_m_1095_9_alg».proof.Proof.Spec
import Idealize.ShloMosaic.Lib.ValueIdx
import Idealize.ShloMosaic.Lib.ValueLayout
import Idealize.ShloMosaic.Lib.Pipeline.Value

noncomputable section

namespace Cert.KernelIdeal.KReg2

open Idealize.ShloMosaic Idealize.ShloMosaic.ValueIdx Cert.KernelIdeal

/-- A plain `M × K` by `K × N` product into the zero accumulator, read at `(r, c)`: the sum over the
    contracted coordinate of the two operands' entries. -/
theorem plain_matmul_zero_apply {M K N : Nat} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := 1) rfl _ _).trans
        (contrEquiv1_symm_val (DotDims.plain M K N) K hr hs k)
  have hr' : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := 0) rfl _ _).trans
        (contrEquiv1_symm_val (DotDims.plain M K N) K hr hs k)
    | ⟨1, _⟩ => rfl
  rw [hl, hr']

/-- A one-column array `[a, 1]` broadcast along its rows to `[a, b]` reads, at `(p, c)`, its column entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two products of the body are plain matrix products. -/
theorem dot1_eq : dot_S400x10000_S10000x128_S400x128_1_0_0_1_n_n = DotDims.plain 400 10000 128 := rfl
theorem dot2_eq : dot_S400x128_S128x128_S400x128_1_0_0_1_n_n = DotDims.plain 400 128 128 := rfl

/-- THE STORED VALUE AT AN ENTRY, over any seven loaded blocks (`x0` the adjacency rows, `x1` the pre-scaled
    table, `xd` and `xd'` the normaliser column, `xh` the initial features' rows, `xw` the weights, `xb` the bias
    row): the layer's update of the support row of block row `r`, at feature `k`, times the row's normaliser. -/
theorem pay_apply (x0 : Vec Ideal S400x10000 .f32) (x1 : Vec Ideal S10000x128 .bf16) (xd : Vec Ideal S400x1 .f32)
    (xh : Vec Ideal S400x128 .f32) (xw : Vec Ideal S128x128 .f32) (xb : Vec Ideal S1x128 .f32) (xd' : Vec Ideal S400x1 .f32)
    (r : Fin 400) (k : Fin 128) :
    (Gen.k2_pay1 x0 x1 xd xh xw xb xd' : S400x128.Idx → EReal) (ix2 r k)
      = Gcn.gcnRow Gcn.th1 Gcn.th1c (fun a b => (xw : S128x128.Idx → EReal) (ix2 a b))
          (fun b => (xb : S1x128.Idx → EReal) (ix2 (0 : Fin 1) b))
          (Gcn.supRow
            (fun c => (∑ j : Fin 10000, (x0 : S400x10000.Idx → EReal) (ix2 r j) * (x1 : S10000x128.Idx → EReal) (ix2 j c))
              * (xd : S400x1.Idx → EReal) (ix2 r (0 : Fin 1)))
            (fun c => (xh : S400x128.Idx → EReal) (ix2 r c))) k
        * (xd' : S400x1.Idx → EReal) (ix2 r (0 : Fin 1)) := by
  unfold Gen.k2_pay1
  simp only [truncf_apply, mulf_apply, addf_apply, maximumf_apply, broadcast_apply, dot1_eq, dot2_eq,
    shapeCast_self, plain_matmul_zero_apply, broadcastTo_a1_ab_apply, broadcastTo_1b_ab_apply]
  rw [show (FloatOps.ofBits FTy.f32 0x00000000#32 : Ideal .f32) = (0 : EReal) from Ideal.ofBits_zero_f32]
  rfl

/-- The same with every block entry NAMED as an entry of a whole array (`adj`, `hs`, `h0`, `dv`, `w`, `b`) at an
    array row `i`: the stored value is stage 2 of those arrays at `(i, k)`. -/
theorem pay_eq_stage2 (x0 : Vec Ideal S400x10000 .f32) (x1 : Vec Ideal S10000x128 .bf16) (xd : Vec Ideal S400x1 .f32)
    (xh : Vec Ideal S400x128 .f32) (xw : Vec Ideal S128x128 .f32) (xb : Vec Ideal S1x128 .f32) (xd' : Vec Ideal S400x1 .f32)
    (adj : Fin 10000 → Fin 10000 → EReal) (hs h0 : Fin 10000 → Fin 128 → EReal) (dv : Fin 10000 → EReal)
    (w : Fin 128 → Fin 128 → EReal) (b : Fin 128 → EReal) (r : Fin 400) (k : Fin 128) (i : Fin 10000)
    (e0 : ∀ j : Fin 10000, (x0 : S400x10000.Idx → EReal) (ix2 r j) = adj i j)
    (e1 : ∀ (j : Fin 10000) (c : Fin 128), (x1 : S10000x128.Idx → EReal) (ix2 j c) = hs j c)
    (ed : (xd : S400x1.Idx → EReal) (ix2 r (0 : Fin 1)) = dv i)
    (eh : ∀ c : Fin 128, (xh : S400x128.Idx → EReal) (ix2 r c) = h0 i c)
    (ew : ∀ a c : Fin 128, (xw : S128x128.Idx → EReal) (ix2 a c) = w a c)
    (eb : ∀ c : Fin 128, (xb : S1x128.Idx → EReal) (ix2 (0 : Fin 1) c) = b c)
    (ed' : (xd' : S400x1.Idx → EReal) (ix2 r (0 : Fin 1)) = dv i) :
    (Gen.k2_pay1 x0 x1 xd xh xw xb xd' : S400x128.Idx → EReal) (ix2 r k) = Gcn.stage2 adj hs h0 dv w b i k := by
  rw [pay_apply]
  simp only [e0, e1, ed, eh, ew, eb, ed']
  rfl

end Cert.KernelIdeal.KReg2

end
-- ==== Proof.KReg2.lean ====
/-
  Launch 2 (the first graph-convolution layer), from blocks to the array.

  The launch runs over 25 grid points. Point `t` holds rows `400 t … 400 t + 399` of the adjacency, of the
  initial features and of the normaliser column, and the whole pre-scaled feature table, weight matrix and bias
  row; it writes rows `400 t … 400 t + 399` of the output. Since the value stored at block row `r` depends on
  the blocks only through array row `400 t + r`, every point writes its block of ONE whole-array function
  (stage 2 of the arrays the launch finds), the 25 blocks tile the output, and so the output array ends holding
  that function.
-/
import proofs.«110087_g67448166416678_cont_sun_m_1095_9_alg».proof.Proof.Gen.KernelIdeal.Frame
import proofs.«110087_g67448166416678_cont_sun_m_1095_9_alg».proof.Proof.KReg2Pay
import Idealize.ShloMosaic.Lib.Pipeline.Value

noncomputable section

namespace Cert.KernelIdeal.KReg2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store fills the output block with the stored value of the loaded blocks (the normaliser
    column is loaded twice). -/
theorem out_eq (x0 : Vec Ideal S400x10000 .f32) (x1 : Vec Ideal S10000x128 .bf16) (x2 : Vec Ideal S400x128 .f32)
    (x3 : Vec Ideal S400x1 .f32) (x4 : Vec Ideal S128x128 .f32) (x5 : Vec Ideal S1x128 .f32) :
    out2_6 x0 x1 x2 x3 x4 x5 = k2_pay1 x0 x1 x3 x2 x4 x5 x3 := by
  unfold out2_6
  rw [View.canon_unit_zero hz]
  simp only [View.ld_unit_zero (S := S400x10000) hz, View.ld_unit_zero (S := S10000x128) hz,
    View.ld_unit_zero (S := S400x128) hz, View.ld_unit_zero (S := S400x1) hz,
    View.ld_unit_zero (S := S128x128) hz, View.ld_unit_zero (S := S1x128) hz]

/-- Stage 2 of the arrays the launch finds, at node `i` and feature `k`. -/
def arr2 (c : Dev nD) : Fin 10000 → Fin 128 → EReal :=
  Gcn.stage2 (fun a b => (V c main_arg1 : S10000x10000.Idx → EReal) (ix2 a b))
    (fun a b => (V c main_v2_1 : S10000x128.Idx → EReal) (ix2 a b))
    (fun a b => (V c main_v2_0 : S10000x128.Idx → EReal) (ix2 a b))
    (fun a => (V c main_v2_2 : S10000x1.Idx → EReal) (ix2 a (0 : Fin 1)))
    (fun a b => (V c main_arg4 : S128x128.Idx → EReal) (ix2 a b))
    (fun b => (V c main_v3 : S1x128.Idx → EReal) (ix2 (0 : Fin 1) b))

/-- The same as one function of the output array's index. -/
def G6 (c : Dev nD) : S10000x128.Idx → EReal := fun i => arr2 V c (i 0) (i 1)

/-- The printed index maps over the 25 points: the row-blocked windows (adjacency, initial features, normaliser,
    output) sit at block row `t`, the whole-array windows at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## The input blocks read at an entry -/

/-- Point `t`'s adjacency block holds rows `400 t …` of the adjacency. -/
theorem blk0_apply (c : Dev nD) (t : Fin cfg2.N) (p : Fin 400) (j : Fin 10000) (i : Fin 10000)
    (hi : i.val = 400 * t.val + p.val) :
    (iblk2 V c 0 t : Vec Ideal S400x10000 .f32) (ix2 p j) = (V c main_arg1 : S10000x10000.Idx → EReal) (ix2 i j) := by
  obtain ⟨e0, e1, -⟩ := idx_facts t
  unfold iblk2
  rw [View.read_apply]
  show (V c main_arg1 : S10000x10000.Idx → EReal) _ = _
  refine congrArg _ (funext fun a => Fin.ext ?_)
  match a with
  | ⟨0, _⟩ => show win2_0.index t (0 : Fin 2) * 400 + 1 * p.val = i.val; rw [e0, hi]; omega
  | ⟨1, _⟩ => show win2_0.index t (1 : Fin 2) * 10000 + 1 * j.val = j.val; rw [e1]; omega

/-- Every point holds the whole pre-scaled table. -/
theorem blk1_apply (c : Dev nD) (t : Fin cfg2.N) (j : Fin 10000) (q : Fin 128) :
    (iblk2 V c 1 t : Vec Ideal S10000x128 .bf16) (ix2 j q) = (V c main_v2_1 : S10000x128.Idx → EReal) (ix2 j q) := by
  obtain ⟨-, -, e0, e1, -⟩ := idx_facts t
  unfold iblk2
  rw [View.read_apply]
  show (V c main_v2_1 : S10000x128.Idx → EReal) _ = _
  refine congrArg _ (funext fun a => Fin.ext ?_)
  match a with
  | ⟨0, _⟩ => show win2_1.index t (0 : Fin 2) * 10000 + 1 * j.val = j.val; rw [e0]; omega
  | ⟨1, _⟩ => show win2_1.index t (1 : Fin 2) * 128 + 1 * q.val = q.val; rw [e1]; omega

/-- Point `t`'s block of the initial features holds their rows `400 t …`. -/
theorem blk2_apply (c : Dev nD) (t : Fin cfg2.N) (p : Fin 400) (q : Fin 128) (i : Fin 10000)
    (hi : i.val = 400 * t.val + p.val) :
    (iblk2 V c 2 t : Vec Ideal S400x128 .f32) (ix2 p q) = (V c main_v2_0 : S10000x128.Idx → EReal) (ix2 i q) := by
  obtain ⟨-, -, -, -, e0, e1, -⟩ := idx_facts t
  unfold iblk2
  rw [View.read_apply]
  show (V c main_v2_0 : S10000x128.Idx → EReal) _ = _
  refine congrArg _ (funext fun a => Fin.ext ?_)
  match a with
  | ⟨0, _⟩ => show win2_2.index t (0 : Fin 2) * 400 + 1 * p.val = i.val; rw [e0, hi]; omega
  | ⟨1, _⟩ => show win2_2.index t (1 : Fin 2) * 128 + 1 * q.val = q.val; rw [e1]; omega

/-- Point `t`'s block of the normaliser column holds its rows `400 t …`. -/
theorem blk3_apply (c : Dev nD) (t : Fin cfg2.N) (p : Fin 400) (i : Fin 10000)
    (hi : i.val = 400 * t.val + p.val) :
    (iblk2 V c 3 t : Vec Ideal S400x1 .f32) (ix2 p (0 : Fin 1)) = (V c main_v2_2 : S10000x1.Idx → EReal) (ix2 i (0 : Fin 1)) := by
  obtain ⟨-, -, -, -, -, -, e0, e1, -⟩ := idx_facts t
  unfold iblk2
  rw [View.read_apply]
  show (V c main_v2_2 : S10000x1.Idx → EReal) _ = _
  refine congrArg _ (funext fun a => Fin.ext ?_)
  match a with
  | ⟨0, _⟩ => show win2_3.index t (0 : Fin 2) * 400 + 1 * p.val = i.val; rw [e0, hi]; omega
  | ⟨1, _⟩ => show win2_3.index t (1 : Fin 2) * 1 + 1 * 0 = 0; rw [e1]

/-- Every point holds the whole weight matrix. -/
theorem blk4_apply (c : Dev nD) (t : Fin cfg2.N) (a' : Fin 128) (q : Fin 128) :
    (iblk2 V c 4 t : Vec Ideal S128x128 .f32) (ix2 a' q) = (V c main_arg4 : S128x128.Idx → EReal) (ix2 a' q) := by
  obtain ⟨-, -, -, -, -, -, -, -, e0, e1, -⟩ := idx_facts t
  unfold iblk2
  rw [View.read_apply]
  show (V c main_arg4 : S128x128.Idx → EReal) _ = _
  refine congrArg _ (funext fun a => Fin.ext ?_)
  match a with
  | ⟨0, _⟩ => show win2_4.index t (0 : Fin 2) * 128 + 1 * a'.val = a'.val; rw [e0]; omega
  | ⟨1, _⟩ => show win2_4.index t (1 : Fin 2) * 128 + 1 * q.val = q.val; rw [e1]; omega

/-- Every point holds the whole bias row. -/
theorem blk5_apply (c : Dev nD) (t : Fin cfg2.N) (q : Fin 128) :
    (iblk2 V c 5 t : Vec Ideal S1x128 .f32) (ix2 (0 : Fin 1) q) = (V c main_v3 : S1x128.Idx → EReal) (ix2 (0 : Fin 1) q) := by
  obtain ⟨-, -, -, -, -, -, -, -, -, -, e0, e1, -⟩ := idx_facts t
  unfold iblk2
  rw [View.read_apply]
  show (V c main_v3 : S1x128.Idx → EReal) _ = _
  refine congrArg _ (funext fun a => Fin.ext ?_)
  match a with
  | ⟨0, _⟩ => show win2_5.index t (0 : Fin 2) * 1 + 1 * 0 = 0; rw [e0]
  | ⟨1, _⟩ => show win2_5.index t (1 : Fin 2) * 128 + 1 * q.val = q.val; rw [e1]; omega

/-! ## What a point writes back, and the array after the 25 points -/

/-- WHAT POINT `t` WRITES BACK is block `t` of stage 2 of the arrays the launch finds. -/
theorem flushed_eq (c : Dev nD) (t : Fin cfg2.N) :
    (dat2 V c).flushed 6 t = ((cfg2.win 6).blk t).view.read (Elt Ideal) (G6 V c) := by
  show (cfg2.win 6).cut (grid2.coords t) ((dat2 V c).after 6 t) = _
  rw [after2_6, out_eq]
  obtain ⟨-, -, -, -, -, -, -, -, -, -, -, -, e0, e1⟩ := idx_facts t
  have hN : t.val < 25 := lt_of_lt_of_eq t.isLt N_2
  funext y
  obtain ⟨p, q, rfl⟩ : ∃ (p : Fin 400) (q : Fin 128), y = ix2 p q := ⟨y 0, y 1, eq_ix2 y⟩
  rw [View.read_apply]
  have hemb : ((cfg2.win 6).blk t).view.emb (ix2 p q)
      = (ix2 (⟨400 * t.val + p.val, by have := p.isLt; omega⟩ : Fin 10000) q : S10000x128.Idx) := by
    funext a
    apply Fin.ext
    match a with
    | ⟨0, _⟩ => show win2_6.index t (0 : Fin 2) * 400 + 1 * p.val = 400 * t.val + p.val; rw [e0]; omega
    | ⟨1, _⟩ => show win2_6.index t (1 : Fin 2) * 128 + 1 * q.val = q.val; rw [e1]; omega
  rw [hemb]
  show (k2_pay1 (iblk2 V c 0 t) (iblk2 V c 1 t) (iblk2 V c 3 t) (iblk2 V c 2 t) (iblk2 V c 4 t) (iblk2 V c 5 t)
      (iblk2 V c 3 t) : S400x128.Idx → EReal) (ix2 p q)
    = arr2 V c (⟨400 * t.val + p.val, by have := p.isLt; omega⟩ : Fin 10000) q
  exact pay_eq_stage2 (iblk2 V c 0 t) (iblk2 V c 1 t) (iblk2 V c 3 t) (iblk2 V c 2 t) (iblk2 V c 4 t) (iblk2 V c 5 t)
    (iblk2 V c 3 t)
    (fun a b => (V c main_arg1 : S10000x10000.Idx → EReal) (ix2 a b))
    (fun a b => (V c main_v2_1 : S10000x128.Idx → EReal) (ix2 a b))
    (fun a b => (V c main_v2_0 : S10000x128.Idx → EReal) (ix2 a b))
    (fun a => (V c main_v2_2 : S10000x1.Idx → EReal) (ix2 a (0 : Fin 1)))
    (fun a b => (V c main_arg4 : S128x128.Idx → EReal) (ix2 a b))
    (fun b => (V c main_v3 : S1x128.Idx → EReal) (ix2 (0 : Fin 1) b))
    p q ⟨400 * t.val + p.val, by have := p.isLt; omega⟩
    (fun j => blk0_apply V c t p j _ rfl)
    (fun j c' => blk1_apply V c t j c')
    (blk3_apply V c t p _ rfl)
    (fun c' => blk2_apply V c t p c' _ rfl)
    (fun a c' => blk4_apply V c t a c')
    (fun c' => blk5_apply V c t c')
    (blk3_apply V c t p _ rfl)

/-- An index of the output array is in point `t`'s block iff each coordinate is in the block's range. -/
theorem mem_blk (t : Fin cfg2.N) (i : S10000x128.Idx) :
    i ∈ ((cfg2.win 6).blk t).view.set ↔ ∀ a : Fin 2, win2_6.index t a * S400x128.size a ≤ (i a).val
      ∧ (i a).val < win2_6.index t a * S400x128.size a + S400x128.size a := by
  show i ∈ ((View.whole main_v4).slice (win2_6.rect t)).set ↔ _
  rw [View.set_slice_whole, Rect.mem_set_unit]
  exact Iff.rfl

/-- The 25 blocks tile the output: row `r` is in the block of point `r / 400`. -/
theorem cover (i : S10000x128.Idx) :
    ∃ t : Fin cfg2.N, (cfg2.win 6).flush t = true ∧ i ∈ ((cfg2.win 6).blk t).view.set := by
  have hi0 : (i 0).val < 10000 := (i 0).isLt
  have hi1 : (i 1).val < 128 := (i 1).isLt
  have hN : cfg2.N = 25 := N_2
  have ht : (i 0).val / 400 < cfg2.N := by rw [hN]; omega
  refine ⟨⟨(i 0).val / 400, ht⟩, flush2_6 _, ?_⟩
  obtain ⟨-, -, -, -, -, -, -, -, -, -, -, -, e0, e1⟩ := idx_facts ⟨(i 0).val / 400, ht⟩
  rw [mem_blk]
  intro a
  match a with
  | ⟨0, _⟩ =>
    show win2_6.index ⟨(i 0).val / 400, ht⟩ (0 : Fin 2) * 400 ≤ (i 0).val
      ∧ (i 0).val < win2_6.index ⟨(i 0).val / 400, ht⟩ (0 : Fin 2) * 400 + 400
    rw [e0]
    show (i 0).val / 400 * 400 ≤ (i 0).val ∧ (i 0).val < (i 0).val / 400 * 400 + 400
    omega
  | ⟨1, _⟩ =>
    show win2_6.index ⟨(i 0).val / 400, ht⟩ (1 : Fin 2) * 128 ≤ (i 1).val
      ∧ (i 1).val < win2_6.index ⟨(i 0).val / 400, ht⟩ (1 : Fin 2) * 128 + 128
    rw [e1]
    omega

/-- THE OUTPUT ARRAY after the 25 points is stage 2 of the arrays the launch finds. -/
theorem final6_fun (c : Dev nD) : (dat2 V c).arrAt 6 cfg2.N = G6 V c :=
  (dat2 V c).arrAt_eq_of_cover 6 (G6 V c) (fun t _ => flushed_eq V c t) cover

/-- The same, read at node `i` and feature `k`. -/
theorem final6 (c : Dev nD) (i : Fin 10000) (k : Fin 128) :
    ((dat2 V c).arrAt 6 cfg2.N : S10000x128.Idx → EReal) (ix2 i k)
      = Gcn.stage2 (fun a b => (V c main_arg1 : S10000x10000.Idx → EReal) (ix2 a b))
          (fun a b => (V c main_v2_1 : S10000x128.Idx → EReal) (ix2 a b))
          (fun a b => (V c main_v2_0 : S10000x128.Idx → EReal) (ix2 a b))
          (fun a => (V c main_v2_2 : S10000x1.Idx → EReal) (ix2 a (0 : Fin 1)))
          (fun a b => (V c main_arg4 : S128x128.Idx → EReal) (ix2 a b))
          (fun b => (V c main_v3 : S1x128.Idx → EReal) (ix2 (0 : Fin 1) b)) i k := by
  rw [final6_fun]
  rfl

end Cert.KernelIdeal.KReg2

end
-- ==== Proof.KReg3Ops.lean ====
/-
  The block-level operations of the second graph-convolution layer and of the perceptron head, each read at an
  index of a 400-row block.

  A block is a table of 400 rows and 128 features.  Every operation below acts row by row: a dense layer is a
  product of the row with a 128 x 128 weight table plus a bias row; the layer normalisation centres a row by its
  mean, scales it by the inverse square root of its guarded variance, then by a gain row, and adds an offset row;
  the rectifier is the maximum with zero.  So row r of the result is the corresponding row function of
  `Cert.Gcn` applied to row r of the operand, which is what each lemma states.
-/
import proofs.«110087_g67448166416678_cont_sun_m_1095_9_alg».proof.KernelIdeal
import proofs.«110087_g67448166416678_cont_sun_m_1095_9_alg».proof.Proof.Spec
import proofs.«110087_g67448166416678_cont_sun_m_1095_9_alg».proof.Proof.LibTileMatmul
import Idealize.ShloMosaic.Lib.ValueIdx
import Idealize.ShloMosaic.Lib.ValueLayout
import Idealize.ShloMosaic.Lib.Pipeline.Value

noncomputable section

namespace Cert.KernelIdeal.KReg3

open Cert.KernelIdeal Idealize.ShloMosaic Idealize.ShloMosaic.ValueIdx

variable [Facts₀]
open Facts₀

/-! ## Rows, tables and bias rows as plain functions -/

/-- Row `r` of a 400 x 128 block. -/
def rowOf (X : FVec Ideal S400x128 .f32) (r : Fin 400) : Fin 128 → EReal := fun c => X (ix2 r c)
/-- A 128 x 128 table. -/
def matOf (W : FVec Ideal S128x128 .f32) : Fin 128 → Fin 128 → EReal := fun a b => W (ix2 a b)
/-- The one row of a 1 x 128 table. -/
def vecOf (B : FVec Ideal S1x128 .f32) : Fin 128 → EReal := fun b => B (ix2 0 b)

/-! ## The layout operations at an index -/

/-- A 1 x 128 row (re-cast to its own shape) broadcast over 400 rows reads the row's entry. -/
theorem rowBcast_apply (B : FVec Ideal S1x128 .f32) (h1 : S1x128.ShapeCasts S1x128) (h2 : S1x128.Broadcasts S400x128)
    (r : Fin 400) (k : Fin 128) :
    broadcastTo S400x128 (shapeCast S1x128 B h1) h2 (ix2 r k) = B (ix2 0 k) :=
  (broadcastTo_1b_ab_apply _ h2 r k).trans (congrFun (shapeCast_self B h1) _)

/-- A 1 x 128 row broadcast over 400 rows reads the row's entry. -/
theorem rowBcast'_apply (B : FVec Ideal S1x128 .f32) (h2 : S1x128.Broadcasts S400x128)
    (r : Fin 400) (k : Fin 128) :
    broadcastTo S400x128 B h2 (ix2 r k) = B (ix2 0 k) :=
  broadcastTo_1b_ab_apply _ h2 r k

/-- A 400 x 1 column broadcast over 128 features reads the column's entry of the row. -/
theorem colBcast_apply (C : FVec Ideal S400x1 .f32) (h : S400x1.Broadcasts S400x128) (r : Fin 400) (k : Fin 128) :
    broadcastTo S400x128 C h (ix2 r k) = C (ix2 r 0) := by
  refine broadcastTo_apply C h (ix2 r k) (ix2 r 0) fun ax => ?_
  match ax with
  | ⟨0, _⟩ => rfl
  | ⟨1, _⟩ => rfl

/-- The sum of a block along its features, laid out as a 400 x 1 column, reads the sum of the row. -/
theorem sumCol_apply (X : FVec Ideal S400x128 .f32) (h : S400x128.Reduces [1] S400) (hφ : FKind.Formats .f32)
    (hacc : (0x00000000#32 : BitVec 32) = FKind.add.neutral .f32 hφ) (h' : S400.ShapeCasts S400x1)
    (r : Fin 400) (u : Fin 1) :
    shapeCast S400x1 (multiReduction (F := Ideal) .add [1] S400 X 0x00000000#32 h hφ hacc) h' (ix2 r u)
      = ∑ k : Fin 128, X (ix2 r k) := by
  refine (shapeCast_apply _ h' (ix2 r u) (ix1 r) ?_).trans ?_
  · rw [Shape.rowMajor_val_two, Shape.rowMajor_val_one]
    show r.val = r.val * 1 + u.val
    omega
  · refine (Ideal.multiReduction_add_single X 0x00000000#32 h hφ hacc (ix1 r)).trans ?_
    refine Finset.sum_congr rfl fun k _ => congrArg X ?_
    funext ax; apply Fin.ext
    match ax with
    | ⟨0, _⟩ => rfl
    | ⟨1, _⟩ => rfl

/-! ## The products -/

/-- A block times a 128 x 128 table, into zero: the row's product with the table. -/
theorem mm128_apply (X : FVec Ideal S400x128 .f32) (W : FVec Ideal S128x128 .f32) (r : Fin 400) (k : Fin 128) :
    matmul (F := Ideal) dot_S400x128_S128x128_S400x128_1_0_0_1_n_n none X W
        (constant (F := Ideal) S400x128 .f32 0x00000000#32) (ix2 r k)
      = ∑ c : Fin 128, X (ix2 r c) * W (ix2 c k) :=
  TileMatmul.matmul_zero_apply dot_S400x128_S128x128_S400x128_1_0_0_1_n_n_wf none X W r k

/-- A 400 x 10000 block of adjacency rows times the whole 10000 x 128 feature table, into zero. -/
theorem mmAdj_apply (A : FVec Ideal S400x10000 .bf16) (H : FVec Ideal S10000x128 .bf16) (r : Fin 400) (k : Fin 128) :
    matmul (F := Ideal) dot_S400x10000_S10000x128_S400x128_1_0_0_1_n_n none A H
        (constant (F := Ideal) S400x128 .f32 0x00000000#32) (ix2 r k)
      = ∑ j : Fin 10000, A (ix2 r j) * H (ix2 j k) :=
  TileMatmul.matmul_zero_apply dot_S400x10000_S10000x128_S400x128_1_0_0_1_n_n_wf none A H r k

end Cert.KernelIdeal.KReg3

end
-- ==== Proof.KReg3Blk.lean ====
/-
  The second graph-convolution layer and the perceptron head on a 400-row block, as compositions of a few block
  operations, each read row by row.

  `aggB` is the aggregate (adjacency rows times the pre-scaled feature table, then scaled by the rows' inverse
  square-root degrees), `supB` mixes it with the initial features, `gcnB` is the layer's update with its rectifier,
  `denseB` a dense layer, `meanB` the column of row means, `lnB` the layer normalisation from a given column of
  means, `reluB` the rectifier.  Row r of each result is the matching row function of `Cert.Gcn` of row r of the
  operand.
-/
import proofs.«110087_g67448166416678_cont_sun_m_1095_9_alg».proof.Proof.KReg3Ops

noncomputable section

namespace Cert.KernelIdeal.KReg3

open Cert.KernelIdeal Idealize.ShloMosaic Idealize.ShloMosaic.ValueIdx

variable [Facts₀]
open Facts₀

/-- The word of a scalar literal is the extended real it denotes. -/
theorem scalar_ofBits (w : BitVec 32) : (Scalar.ofBits (F := Ideal) .f32 w : EReal) = Ideal.ofBits .f32 w := rfl

/-- An inverse square root of a vector, at an index. -/
theorem rsqrt_apply {s : Shape} (v : FVec Ideal s .f32) (i : s.Idx) : rsqrt v i = Ideal.rsqrt (v i) := rfl

/-! ## The aggregate -/

/-- Adjacency rows times the feature table, scaled row by row by a column. -/
def aggB (A : FVec Ideal S400x10000 .f32) (H : FVec Ideal S10000x128 .bf16) (D : FVec Ideal S400x1 .f32) :
    FVec Ideal S400x128 .f32 :=
  mulf (matmul dot_S400x10000_S10000x128_S400x128_1_0_0_1_n_n none (truncf .bf16 A bitsLt_bf16_f32)
      (shapeCast S10000x128 H shapeCasts_S10000x128_S10000x128) (constant S400x128 .f32 0x00000000#32))
    (broadcastTo S400x128 (shapeCast S400x1 D shapeCasts_S400x1_S400x1) broadcasts_S400x1_S400x128)

theorem aggB_row (A : FVec Ideal S400x10000 .f32) (H : FVec Ideal S10000x128 .bf16) (D : FVec Ideal S400x1 .f32)
    (r : Fin 400) :
    rowOf (aggB A H D) r = fun c => (∑ j : Fin 10000, A (ix2 r j) * H (ix2 j c)) * D (ix2 r 0) := by
  funext c
  unfold rowOf aggB
  rw [mulf_apply, mmAdj_apply, colBcast_apply, shapeCast_self, shapeCast_self]
  rfl

/-! ## The support and the layer's update -/

/-- The aggregate mixed with the initial features. -/
def supB (A H0 : FVec Ideal S400x128 .f32) : FVec Ideal S400x128 .f32 :=
  addf (mulf (broadcast S400x128 (Scalar.ofBits (F := Ideal) .f32 0x3F666666#32)) A)
    (mulf (broadcast S400x128 (Scalar.ofBits (F := Ideal) .f32 0x3DCCCCCD#32))
      (shapeCast S400x128 H0 shapeCasts_S400x128_S400x128))

theorem supB_row (A H0 : FVec Ideal S400x128 .f32) (r : Fin 400) :
    rowOf (supB A H0) r = Gcn.supRow (rowOf A r) (rowOf H0 r) := by
  funext c
  unfold rowOf supB Gcn.supRow
  rw [shapeCast_self]
  rfl

/-- The second layer's update of a support block, with its rectifier. -/
def gcnB (S : FVec Ideal S400x128 .f32) (W : FVec Ideal S128x128 .f32) (B : FVec Ideal S1x128 .f32) :
    FVec Ideal S400x128 .f32 :=
  maximumf
    (addf
      (addf
        (mulf (broadcast S400x128 (Scalar.ofBits (F := Ideal) .f32 0x3ECF991F#32))
          (matmul dot_S400x128_S128x128_S400x128_1_0_0_1_n_n none S W (constant S400x128 .f32 0x00000000#32)))
        (mulf (broadcast S400x128 (Scalar.ofBits (F := Ideal) .f32 0x3F183370#32)) S))
      (broadcastTo S400x128 (shapeCast S1x128 B shapeCasts_S1x128_S1x128) broadcasts_S1x128_S400x128))
    (broadcast S400x128 (Scalar.ofBits (F := Ideal) .f32 0x00000000#32))

theorem gcnB_row (S : FVec Ideal S400x128 .f32) (W : FVec Ideal S128x128 .f32) (B : FVec Ideal S1x128 .f32)
    (r : Fin 400) :
    rowOf (gcnB S W B) r = Gcn.gcnRow Gcn.th2 Gcn.th2c (matOf W) (vecOf B) (rowOf S r) := by
  funext c
  unfold rowOf gcnB Gcn.gcnRow matOf vecOf
  rw [maximumf_apply, addf_apply, addf_apply, mulf_apply, mulf_apply, mm128_apply, rowBcast_apply]
  simp only [broadcast_apply, scalar_ofBits, Ideal.ofBits_zero_f32]

/-! ## A dense layer and the rectifier -/

/-- A dense layer on a block. -/
def denseB (X : FVec Ideal S400x128 .f32) (W : FVec Ideal S128x128 .f32) (B : FVec Ideal S1x128 .f32) :
    FVec Ideal S400x128 .f32 :=
  addf (matmul dot_S400x128_S128x128_S400x128_1_0_0_1_n_n none X W (constant S400x128 .f32 0x00000000#32))
    (broadcastTo S400x128 (shapeCast S1x128 B shapeCasts_S1x128_S1x128) broadcasts_S1x128_S400x128)

theorem denseB_row (X : FVec Ideal S400x128 .f32) (W : FVec Ideal S128x128 .f32) (B : FVec Ideal S1x128 .f32)
    (r : Fin 400) :
    rowOf (denseB X W B) r = Gcn.linRow (rowOf X r) (matOf W) (vecOf B) := by
  funext c
  unfold rowOf denseB Gcn.linRow matOf vecOf
  rw [addf_apply, mm128_apply, rowBcast_apply]

/-- The rectifier on a block. -/
def reluB (X : FVec Ideal S400x128 .f32) : FVec Ideal S400x128 .f32 :=
  maximumf X (broadcast S400x128 (Scalar.ofBits (F := Ideal) .f32 0x00000000#32))

theorem reluB_row (X : FVec Ideal S400x128 .f32) (r : Fin 400) :
    rowOf (reluB X) r = Gcn.reluRow (rowOf X r) := by
  funext c
  unfold rowOf reluB Gcn.reluRow
  rw [maximumf_apply]
  simp only [broadcast_apply, scalar_ofBits, Ideal.ofBits_zero_f32]

/-! ## The layer normalisation -/

/-- The column of row sums. -/
def sumColB (X : FVec Ideal S400x128 .f32) : FVec Ideal S400x1 .f32 :=
  shapeCast S400x1 (multiReduction .add [1] S400 X 0x00000000#32 reduces_S400x128_S400 (.inl rfl) rfl)
    shapeCasts_S400_S400x1

theorem sumColB_apply (X : FVec Ideal S400x128 .f32) (r : Fin 400) (u : Fin 1) :
    sumColB X (ix2 r u) = ∑ k : Fin 128, rowOf X r k :=
  sumCol_apply X reduces_S400x128_S400 (.inl rfl) rfl shapeCasts_S400_S400x1 r u

/-- The column holding the width 128. -/
def widthB : FVec Ideal S400x1 .f32 := broadcast S400x1 (Scalar.ofBits (F := Ideal) .f32 0x43000000#32)

/-- The column of row means. -/
def meanB (X : FVec Ideal S400x128 .f32) : FVec Ideal S400x1 .f32 := divf (sumColB X) widthB

theorem divWidth_apply (Y : FVec Ideal S400x1 .f32) (r : Fin 400) (u : Fin 1) :
    divf Y widthB (ix2 r u) = Ideal.div (Y (ix2 r u)) Gcn.c128 := rfl

theorem meanB_apply (X : FVec Ideal S400x128 .f32) (r : Fin 400) (u : Fin 1) :
    meanB X (ix2 r u) = Gcn.meanRow (rowOf X r) := by
  unfold meanB Gcn.meanRow
  rw [divWidth_apply, sumColB_apply]

/-- A block centred by a column. -/
def cenB (X : FVec Ideal S400x128 .f32) (M : FVec Ideal S400x1 .f32) : FVec Ideal S400x128 .f32 :=
  subf X (broadcastTo S400x128 M broadcasts_S400x1_S400x128)

theorem cenB_row (X : FVec Ideal S400x128 .f32) (M : FVec Ideal S400x1 .f32) (r : Fin 400) :
    rowOf (cenB X M) r = fun c => rowOf X r c - M (ix2 r 0) := by
  funext c
  unfold rowOf cenB
  rw [subf_apply, colBcast_apply]

/-- The column of inverse square roots of the guarded variances, from a centred block. -/
def invStdB (C : FVec Ideal S400x128 .f32) : FVec Ideal S400x1 .f32 :=
  rsqrt (addf (divf (sumColB (mulf C C)) widthB)
    (broadcast S400x1 (Scalar.ofBits (F := Ideal) .f32 0x3727C5AC#32)))

theorem invStdB_apply (C : FVec Ideal S400x128 .f32) (r : Fin 400) (u : Fin 1) :
    invStdB C (ix2 r u)
      = Ideal.rsqrt (Ideal.div (∑ k : Fin 128, rowOf C r k * rowOf C r k) Gcn.c128 + Gcn.epsLn) := by
  unfold invStdB
  rw [rsqrt_apply, addf_apply, divWidth_apply, sumColB_apply]
  rfl

/-- The layer normalisation of a block from a column `M` of means, with gain row `g` and offset row `b`. -/
def lnB (X : FVec Ideal S400x128 .f32) (M : FVec Ideal S400x1 .f32) (g b : FVec Ideal S1x128 .f32) :
    FVec Ideal S400x128 .f32 :=
  addf
    (mulf (mulf (cenB X M) (broadcastTo S400x128 (invStdB (cenB X M)) broadcasts_S400x1_S400x128))
      (broadcastTo S400x128 g broadcasts_S1x128_S400x128))
    (broadcastTo S400x128 b broadcasts_S1x128_S400x128)

theorem lnB_row (X : FVec Ideal S400x128 .f32) (M : FVec Ideal S400x1 .f32) (g b : FVec Ideal S1x128 .f32)
    (r : Fin 400) (hM : M (ix2 r 0) = Gcn.meanRow (rowOf X r)) :
    rowOf (lnB X M g b) r = Gcn.lnK (rowOf X r) (vecOf g) (vecOf b) := by
  funext c
  have hc := cenB_row X M r
  unfold Gcn.lnK Gcn.varRow vecOf
  show lnB X M g b (ix2 r c) = _
  unfold lnB
  rw [addf_apply, mulf_apply, mulf_apply, colBcast_apply, rowBcast'_apply, rowBcast'_apply, invStdB_apply]
  show (rowOf (cenB X M) r c * _) * _ + _ = _
  rw [hc, hM]

/-- The layer normalisation of a block from its own means. -/
theorem lnB_mean_row (X : FVec Ideal S400x128 .f32) (g b : FVec Ideal S1x128 .f32) (r : Fin 400) :
    rowOf (lnB X (meanB X) g b) r = Gcn.lnK (rowOf X r) (vecOf g) (vecOf b) :=
  lnB_row X (meanB X) g b r (meanB_apply X r 0)

/-- A row re-cast to its own shape is the row. -/
theorem vecOf_cast (B : FVec Ideal S1x128 .f32) (h : S1x128.ShapeCasts S1x128) :
    vecOf (shapeCast S1x128 B h) = vecOf B := by
  rw [shapeCast_self]

end Cert.KernelIdeal.KReg3

end
-- ==== Proof.KReg3Pay.lean ====
/-
  What the second layer's body stores, row by row.

  The body's stored block is a composition of the block operations of the layer and of the head: the aggregate,
  the support, the layer's update, a dense layer; twice a layer normalisation, the rectifier and a dense layer.
  Row r of the stored block is therefore the three-layer head of `Cert.Gcn` applied to the second layer's update
  of row r's support — a function of row r of the adjacency block, the whole pre-scaled feature table, row r's
  inverse square-root degree and row r of the initial features.
-/
import proofs.«110087_g67448166416678_cont_sun_m_1095_9_alg».proof.Proof.Gen.KernelIdeal.Skeleton
import proofs.«110087_g67448166416678_cont_sun_m_1095_9_alg».proof.Proof.KReg3Blk

noncomputable section

namespace Cert.KernelIdeal.KReg3

open Cert.KernelIdeal Cert.KernelIdeal.Gen Idealize.ShloMosaic Idealize.ShloMosaic.ValueIdx

/-! ## The printed payloads are the block operations composed -/

/-- The layer and the first dense layer. -/
theorem pay2_eq (v0 : FVec Ideal S400x10000 .f32) (v2 : FVec Ideal S10000x128 .bf16) (v5 : FVec Ideal S400x1 .f32)
    (v11 : FVec Ideal S400x128 .f32) (v16 : FVec Ideal S128x128 .f32) (v23 : FVec Ideal S1x128 .f32)
    (v29 : FVec Ideal S128x128 .f32) (v31 : FVec Ideal S1x128 .f32) :
    k3_pay2 (F := Ideal) v0 v2 v5 v11 v16 v23 v29 v31
      = denseB (gcnB (supB (aggB v0 v2 v5) v11) v16 v23) v29 v31 := rfl

/-- The first normalisation, the rectifier and the second dense layer. -/
theorem pay3_eq (v34 : FVec Ideal S400x128 .f32) (v35 v37 : FVec Ideal S1x128 .f32)
    (v61 : FVec Ideal S128x128 .f32) (v63 : FVec Ideal S1x128 .f32) :
    k3_pay3 (F := Ideal) v34 v35 v37 v61 v63
      = denseB (reluB (lnB v34 (meanB v34) (shapeCast S1x128 v35 Facts₀.shapeCasts_S1x128_S1x128)
          (shapeCast S1x128 v37 Facts₀.shapeCasts_S1x128_S1x128))) v61 v63 := rfl

/-- The column of row sums of the second dense layer's result, over the column holding the width: its means. -/
theorem pay67_eq (v34 : FVec Ideal S400x128 .f32) (v35 v37 : FVec Ideal S1x128 .f32)
    (v61 : FVec Ideal S128x128 .f32) (v63 : FVec Ideal S1x128 .f32) :
    divf (k3_pay6 (F := Ideal) v34 v35 v37 v61 v63) (k3_pay7 (F := Ideal))
      = meanB (k3_pay3 (F := Ideal) v34 v35 v37 v61 v63) := rfl

/-- The second normalisation (from a given column of sums over a given column of widths), the rectifier and the
    third dense layer. -/
theorem pay1_eq (v66 : FVec Ideal S400x128 .f32) (v68 v70 : FVec Ideal S1x128 .f32) (v72 v73 : FVec Ideal S400x1 .f32)
    (v93 : FVec Ideal S128x128 .f32) (v95 : FVec Ideal S1x128 .f32) :
    k3_pay1 (F := Ideal) v66 v68 v70 v72 v73 v93 v95
      = denseB (reluB (lnB v66 (divf v72 v73) v68 v70)) v93 v95 := rfl

/-! ## The stored block, row by row -/

/-- Row r of the layer's update of the support. -/
def layerRow (x0 : FVec Ideal S400x10000 .f32) (x1 : FVec Ideal S10000x128 .bf16) (x2 : FVec Ideal S400x128 .f32)
    (x3 : FVec Ideal S400x1 .f32) (x4 : FVec Ideal S128x128 .f32) (x5 : FVec Ideal S1x128 .f32) (r : Fin 400) :
    Fin 128 → EReal :=
  Gcn.gcnRow Gcn.th2 Gcn.th2c (matOf x4) (vecOf x5)
    (Gcn.supRow (fun c => (∑ j : Fin 10000, x0 (ix2 r j) * x1 (ix2 j c)) * x3 (ix2 r 0)) (rowOf x2 r))

/-- THE STORED BLOCK AT (r, k): the head of `Cert.Gcn` on the layer's update of row r. -/
theorem stored_apply (x0 : FVec Ideal S400x10000 .f32) (x1 : FVec Ideal S10000x128 .bf16) (x2 : FVec Ideal S400x128 .f32)
    (x3 : FVec Ideal S400x1 .f32) (x4 : FVec Ideal S128x128 .f32) (x5 : FVec Ideal S1x128 .f32)
    (x6 : FVec Ideal S128x128 .f32) (x7 x8 x9 : FVec Ideal S1x128 .f32)
    (x10 : FVec Ideal S128x128 .f32) (x11 x12 x13 : FVec Ideal S1x128 .f32)
    (x14 : FVec Ideal S128x128 .f32) (x15 : FVec Ideal S1x128 .f32) (r : Fin 400) (k : Fin 128) :
    k3_pay1 (F := Ideal) (k3_pay3 (k3_pay2 x0 x1 x3 x2 x4 x5 x6 x7) x8 x9 x10 x11) (k3_pay4 x12) (k3_pay5 x13)
        (k3_pay6 (k3_pay2 x0 x1 x3 x2 x4 x5 x6 x7) x8 x9 x10 x11) (k3_pay7 (F := Ideal)) x14 x15 (ix2 r k)
      = Gcn.headK (matOf x6) (vecOf x7) (vecOf x8) (vecOf x9) (matOf x10) (vecOf x11) (vecOf x12) (vecOf x13)
          (matOf x14) (vecOf x15) (layerRow x0 x1 x2 x3 x4 x5 r) k := by
  rw [pay1_eq, pay67_eq]
  generalize hP2 : k3_pay2 (F := Ideal) x0 x1 x3 x2 x4 x5 x6 x7 = P2
  generalize hP3 : k3_pay3 (F := Ideal) P2 x8 x9 x10 x11 = P3
  have e2 : rowOf P2 r = Gcn.linRow (layerRow x0 x1 x2 x3 x4 x5 r) (matOf x6) (vecOf x7) := by
    rw [← hP2, pay2_eq, denseB_row, gcnB_row, supB_row, aggB_row]
    rfl
  have e3 : rowOf P3 r
      = Gcn.linRow (Gcn.reluRow (Gcn.lnK (rowOf P2 r) (vecOf x8) (vecOf x9))) (matOf x10) (vecOf x11) := by
    rw [← hP3, pay3_eq, denseB_row, reluB_row, lnB_mean_row, vecOf_cast, vecOf_cast]
  show rowOf (denseB (reluB (lnB P3 (meanB P3) (k3_pay4 x12) (k3_pay5 x13))) x14 x15) r k = _
  rw [denseB_row, reluB_row, lnB_mean_row, e3, e2]
  unfold k3_pay4 k3_pay5
  rw [vecOf_cast, vecOf_cast]
  rfl

/-- THE STORED BLOCK AT (r, k) AS THE WHOLE ARRAYS' STAGE: when row r of the adjacency, initial-feature and
    inverse-square-root-degree blocks is row i of the arrays `adj`, `h0`, `dv`, and the other blocks are the whole
    tables, the stored value is `Cert.Gcn.stage3` of the arrays at (i, k). -/
theorem stored_stage3 (x0 : FVec Ideal S400x10000 .f32) (x1 : FVec Ideal S10000x128 .bf16) (x2 : FVec Ideal S400x128 .f32)
    (x3 : FVec Ideal S400x1 .f32) (x4 : FVec Ideal S128x128 .f32) (x5 : FVec Ideal S1x128 .f32)
    (x6 : FVec Ideal S128x128 .f32) (x7 x8 x9 : FVec Ideal S1x128 .f32)
    (x10 : FVec Ideal S128x128 .f32) (x11 x12 x13 : FVec Ideal S1x128 .f32)
    (x14 : FVec Ideal S128x128 .f32) (x15 : FVec Ideal S1x128 .f32) (r : Fin 400) (k : Fin 128)
    (adj : Fin 10000 → Fin 10000 → EReal) (hs h0 : Fin 10000 → Fin 128 → EReal) (dv : Fin 10000 → EReal)
    (w2 : Fin 128 → Fin 128 → EReal) (b2 : Fin 128 → EReal)
    (mw1 : Fin 128 → Fin 128 → EReal) (mb1 g1 bb1 : Fin 128 → EReal)
    (mw2 : Fin 128 → Fin 128 → EReal) (mb2 g2 bb2 : Fin 128 → EReal)
    (mw3 : Fin 128 → Fin 128 → EReal) (mb3 : Fin 128 → EReal) (i : Fin 10000)
    (e0 : ∀ j, x0 (ix2 r j) = adj i j) (e1 : ∀ j c, x1 (ix2 j c) = hs j c) (e2 : ∀ c, x2 (ix2 r c) = h0 i c)
    (e3 : x3 (ix2 r 0) = dv i) (e4 : ∀ a c, x4 (ix2 a c) = w2 a c) (e5 : ∀ c, x5 (ix2 0 c) = b2 c)
    (e6 : ∀ a c, x6 (ix2 a c) = mw1 a c) (e7 : ∀ c, x7 (ix2 0 c) = mb1 c) (e8 : ∀ c, x8 (ix2 0 c) = g1 c)
    (e9 : ∀ c, x9 (ix2 0 c) = bb1 c) (e10 : ∀ a c, x10 (ix2 a c) = mw2 a c) (e11 : ∀ c, x11 (ix2 0 c) = mb2 c)
    (e12 : ∀ c, x12 (ix2 0 c) = g2 c) (e13 : ∀ c, x13 (ix2 0 c) = bb2 c) (e14 : ∀ a c, x14 (ix2 a c) = mw3 a c)
    (e15 : ∀ c, x15 (ix2 0 c) = mb3 c) :
    k3_pay1 (F := Ideal) (k3_pay3 (k3_pay2 x0 x1 x3 x2 x4 x5 x6 x7) x8 x9 x10 x11) (k3_pay4 x12) (k3_pay5 x13)
        (k3_pay6 (k3_pay2 x0 x1 x3 x2 x4 x5 x6 x7) x8 x9 x10 x11) (k3_pay7 (F := Ideal)) x14 x15 (ix2 r k)
      = Gcn.stage3 adj hs h0 dv w2 b2 mw1 mb1 g1 bb1 mw2 mb2 g2 bb2 mw3 mb3 i k := by
  have h4 : matOf x4 = w2 := funext fun a => funext fun c => e4 a c
  have h5 : vecOf x5 = b2 := funext e5
  have h6 : matOf x6 = mw1 := funext fun a => funext fun c => e6 a c
  have h7 : vecOf x7 = mb1 := funext e7
  have h8 : vecOf x8 = g1 := funext e8
  have h9 : vecOf x9 = bb1 := funext e9
  have h10 : matOf x10 = mw2 := funext fun a => funext fun c => e10 a c
  have h11 : vecOf x11 = mb2 := funext e11
  have h12 : vecOf x12 = g2 := funext e12
  have h13 : vecOf x13 = bb2 := funext e13
  have h14 : matOf x14 = mw3 := funext fun a => funext fun c => e14 a c
  have h15 : vecOf x15 = mb3 := funext e15
  have hL : layerRow x0 x1 x2 x3 x4 x5 r = Gcn.layerK Gcn.th2 Gcn.th2c w2 b2 adj hs h0 dv i := by
    unfold layerRow Gcn.layerK Gcn.aggK
    rw [h4, h5, e3, show rowOf x2 r = h0 i from funext e2]
    refine congrArg (fun s => Gcn.gcnRow Gcn.th2 Gcn.th2c w2 b2 (Gcn.supRow s (h0 i))) (funext fun c => ?_)
    refine congrArg (· * dv i) (Finset.sum_congr rfl fun j _ => ?_)
    rw [e0 j, e1 j c]
  rw [stored_apply, h6, h7, h8, h9, h10, h11, h12, h13, h14, h15, hL]
  rfl

end Cert.KernelIdeal.KReg3

end
-- ==== Proof.KReg3Idx.lean ====
/-
  Launch 3 (the second graph-convolution layer and the perceptron head): where each block sits in its array.

  The launch runs over 25 grid points. Point `t` holds rows `400 t … 400 t + 399` of the adjacency, of the
  initial features and of the normaliser column, and the whole of every other operand (the first layer's
  scaled output, four weight matrices and eight rows of biases and normalisation parameters); it writes rows
  `400 t … 400 t + 399` of the output. This module reads each input block at an entry as the array's entry,
  places an entry of the output block in the output array, and shows that the 25 output blocks tile the array.
-/
import proofs.«110087_g67448166416678_cont_sun_m_1095_9_alg».proof.Proof.Gen.KernelIdeal.Frame
import Idealize.ShloMosaic.Lib.Pipeline.Value
import Idealize.ShloMosaic.Lib.ValueIdx

noncomputable section

namespace Cert.KernelIdeal.KReg3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The launch has 25 points. -/
theorem hN : cfg3.N = 25 := N_3

/-- The array row that block row `r` of point `t` is: `400 t + r`. -/
def rowAt (t : Fin cfg3.N) (r : Fin 400) : Fin 10000 :=
  ⟨400 * t.val + r.val, by have := t.isLt; have := hN; have := r.isLt; omega⟩

theorem rowAt_val (t : Fin cfg3.N) (r : Fin 400) : (rowAt t r).val = 400 * t.val + r.val := rfl

/-! ## The printed index maps over the 25 points

    The row-blocked windows (0 the adjacency, 2 the initial features, 3 the normaliser, 16 the output) sit at
    block row `t`; every other window at block (0, 0). -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem idx3_10 : ∀ t : Fin cfg3.N, win3_10.index t (0 : Fin 2) = 0 ∧ win3_10.index t (1 : Fin 2) = 0 :=
  (by decide +kernel : ∀ t : Fin grid3.N, _)
theorem idx3_11 : ∀ t : Fin cfg3.N, win3_11.index t (0 : Fin 2) = 0 ∧ win3_11.index t (1 : Fin 2) = 0 :=
  (by decide +kernel : ∀ t : Fin grid3.N, _)
theorem idx3_12 : ∀ t : Fin cfg3.N, win3_12.index t (0 : Fin 2) = 0 ∧ win3_12.index t (1 : Fin 2) = 0 :=
  (by decide +kernel : ∀ t : Fin grid3.N, _)
theorem idx3_13 : ∀ t : Fin cfg3.N, win3_13.index t (0 : Fin 2) = 0 ∧ win3_13.index t (1 : Fin 2) = 0 :=
  (by decide +kernel : ∀ t : Fin grid3.N, _)
theorem idx3_14 : ∀ t : Fin cfg3.N, win3_14.index t (0 : Fin 2) = 0 ∧ win3_14.index t (1 : Fin 2) = 0 :=
  (by decide +kernel : ∀ t : Fin grid3.N, _)
theorem idx3_15 : ∀ t : Fin cfg3.N, win3_15.index t (0 : Fin 2) = 0 ∧ win3_15.index t (1 : Fin 2) = 0 :=
  (by decide +kernel : ∀ t : Fin grid3.N, _)
theorem idx3_16 : ∀ t : Fin cfg3.N, win3_16.index t (0 : Fin 2) = t.val ∧ win3_16.index t (1 : Fin 2) = 0 :=
  (by decide +kernel : ∀ t : Fin grid3.N, _)

/-! ## The input blocks read at an entry -/

/-- Point `t`'s adjacency block holds rows `400 t …` of the adjacency. -/
theorem blk0_apply (c : Dev nD) (t : Fin cfg3.N) (r : Fin 400) (j : Fin 10000) :
    (iblk3 V c 0 t : FVec Ideal S400x10000 .f32) (ix2 r j) = (V c main_arg1 : S10000x10000.Idx → EReal) (ix2 (rowAt t r) j) := by
  obtain ⟨e0, e1⟩ := idx3_0 t
  unfold iblk3
  rw [View.read_apply]
  show (V c main_arg1 : S10000x10000.Idx → EReal) _ = (V c main_arg1 : S10000x10000.Idx → EReal) _
  refine congrArg (V c main_arg1 : S10000x10000.Idx → EReal) (funext fun ax => Fin.ext ?_)
  match ax with
  | ⟨0, _⟩ => show win3_0.index t (0 : Fin 2) * 400 + 1 * r.val = 400 * t.val + r.val; rw [e0]; omega
  | ⟨1, _⟩ => show win3_0.index t (1 : Fin 2) * 10000 + 1 * j.val = j.val; rw [e1]; omega

/-- Every point holds the whole scaled output of the first layer. -/
theorem blk1_apply (c : Dev nD) (t : Fin cfg3.N) (j : Fin 10000) (k : Fin 128) :
    (iblk3 V c 1 t : FVec Ideal S10000x128 .bf16) (ix2 j k) = (V c main_v4 : S10000x128.Idx → EReal) (ix2 j k) := by
  obtain ⟨e0, e1⟩ := idx3_1 t
  unfold iblk3
  rw [View.read_apply]
  show (V c main_v4 : S10000x128.Idx → EReal) _ = (V c main_v4 : S10000x128.Idx → EReal) _
  refine congrArg (V c main_v4 : S10000x128.Idx → EReal) (funext fun ax => Fin.ext ?_)
  match ax with
  | ⟨0, _⟩ => show win3_1.index t (0 : Fin 2) * 10000 + 1 * j.val = j.val; rw [e0]; omega
  | ⟨1, _⟩ => show win3_1.index t (1 : Fin 2) * 128 + 1 * k.val = k.val; rw [e1]; omega

/-- Point `t`'s block of the initial features holds their rows `400 t …`. -/
theorem blk2_apply (c : Dev nD) (t : Fin cfg3.N) (r : Fin 400) (k : Fin 128) :
    (iblk3 V c 2 t : FVec Ideal S400x128 .f32) (ix2 r k) = (V c main_v2_0 : S10000x128.Idx → EReal) (ix2 (rowAt t r) k) := by
  obtain ⟨e0, e1⟩ := idx3_2 t
  unfold iblk3
  rw [View.read_apply]
  show (V c main_v2_0 : S10000x128.Idx → EReal) _ = (V c main_v2_0 : S10000x128.Idx → EReal) _
  refine congrArg (V c main_v2_0 : S10000x128.Idx → EReal) (funext fun ax => Fin.ext ?_)
  match ax with
  | ⟨0, _⟩ => show win3_2.index t (0 : Fin 2) * 400 + 1 * r.val = 400 * t.val + r.val; rw [e0]; omega
  | ⟨1, _⟩ => show win3_2.index t (1 : Fin 2) * 128 + 1 * k.val = k.val; rw [e1]; omega

/-- Point `t`'s block of the normaliser column holds its rows `400 t …`. -/
theorem blk3_apply (c : Dev nD) (t : Fin cfg3.N) (r : Fin 400) (u : Fin 1) :
    (iblk3 V c 3 t : FVec Ideal S400x1 .f32) (ix2 r u) = (V c main_v2_2 : S10000x1.Idx → EReal) (ix2 (rowAt t r) u) := by
  obtain ⟨e0, e1⟩ := idx3_3 t
  unfold iblk3
  rw [View.read_apply]
  show (V c main_v2_2 : S10000x1.Idx → EReal) _ = (V c main_v2_2 : S10000x1.Idx → EReal) _
  refine congrArg (V c main_v2_2 : S10000x1.Idx → EReal) (funext fun ax => Fin.ext ?_)
  match ax with
  | ⟨0, _⟩ => show win3_3.index t (0 : Fin 2) * 400 + 1 * r.val = 400 * t.val + r.val; rw [e0]; omega
  | ⟨1, _⟩ => show win3_3.index t (1 : Fin 2) * 1 + 1 * u.val = u.val; rw [e1]; omega

/-- Every point holds the whole `[128, 128]` array of window 4. -/
theorem blk4_apply (c : Dev nD) (t : Fin cfg3.N) (a b : Fin 128) :
    (iblk3 V c 4 t : FVec Ideal S128x128 .f32) (ix2 a b) = (V c main_arg6 : S128x128.Idx → EReal) (ix2 a b) := by
  obtain ⟨e0, e1⟩ := idx3_4 t
  unfold iblk3
  rw [View.read_apply]
  show (V c main_arg6 : S128x128.Idx → EReal) _ = (V c main_arg6 : S128x128.Idx → EReal) _
  refine congrArg (V c main_arg6 : S128x128.Idx → EReal) (funext fun ax => Fin.ext ?_)
  match ax with
  | ⟨0, _⟩ => show win3_4.index t (0 : Fin 2) * 128 + 1 * a.val = a.val; rw [e0]; omega
  | ⟨1, _⟩ => show win3_4.index t (1 : Fin 2) * 128 + 1 * b.val = b.val; rw [e1]; omega

/-- Every point holds the whole `[1, 128]` row of window 5. -/
theorem blk5_apply (c : Dev nD) (t : Fin cfg3.N) (u : Fin 1) (b : Fin 128) :
    (iblk3 V c 5 t : FVec Ideal S1x128 .f32) (ix2 u b) = (V c main_v5 : S1x128.Idx → EReal) (ix2 u b) := by
  obtain ⟨e0, e1⟩ := idx3_5 t
  unfold iblk3
  rw [View.read_apply]
  show (V c main_v5 : S1x128.Idx → EReal) _ = (V c main_v5 : S1x128.Idx → EReal) _
  refine congrArg (V c main_v5 : S1x128.Idx → EReal) (funext fun ax => Fin.ext ?_)
  match ax with
  | ⟨0, _⟩ => show win3_5.index t (0 : Fin 2) * 1 + 1 * u.val = u.val; rw [e0]; omega
  | ⟨1, _⟩ => show win3_5.index t (1 : Fin 2) * 128 + 1 * b.val = b.val; rw [e1]; omega

/-- Every point holds the whole `[128, 128]` array of window 6. -/
theorem blk6_apply (c : Dev nD) (t : Fin cfg3.N) (a b : Fin 128) :
    (iblk3 V c 6 t : FVec Ideal S128x128 .f32) (ix2 a b) = (V c main_arg8 : S128x128.Idx → EReal) (ix2 a b) := by
  obtain ⟨e0, e1⟩ := idx3_6 t
  unfold iblk3
  rw [View.read_apply]
  show (V c main_arg8 : S128x128.Idx → EReal) _ = (V c main_arg8 : S128x128.Idx → EReal) _
  refine congrArg (V c main_arg8 : S128x128.Idx → EReal) (funext fun ax => Fin.ext ?_)
  match ax with
  | ⟨0, _⟩ => show win3_6.index t (0 : Fin 2) * 128 + 1 * a.val = a.val; rw [e0]; omega
  | ⟨1, _⟩ => show win3_6.index t (1 : Fin 2) * 128 + 1 * b.val = b.val; rw [e1]; omega

/-- Every point holds the whole `[1, 128]` row of window 7. -/
theorem blk7_apply (c : Dev nD) (t : Fin cfg3.N) (u : Fin 1) (b : Fin 128) :
    (iblk3 V c 7 t : FVec Ideal S1x128 .f32) (ix2 u b) = (V c main_v6 : S1x128.Idx → EReal) (ix2 u b) := by
  obtain ⟨e0, e1⟩ := idx3_7 t
  unfold iblk3
  rw [View.read_apply]
  show (V c main_v6 : S1x128.Idx → EReal) _ = (V c main_v6 : S1x128.Idx → EReal) _
  refine congrArg (V c main_v6 : S1x128.Idx → EReal) (funext fun ax => Fin.ext ?_)
  match ax with
  | ⟨0, _⟩ => show win3_7.index t (0 : Fin 2) * 1 + 1 * u.val = u.val; rw [e0]; omega
  | ⟨1, _⟩ => show win3_7.index t (1 : Fin 2) * 128 + 1 * b.val = b.val; rw [e1]; omega

/-- Every point holds the whole `[1, 128]` row of window 8. -/
theorem blk8_apply (c : Dev nD) (t : Fin cfg3.N) (u : Fin 1) (b : Fin 128) :
    (iblk3 V c 8 t : FVec Ideal S1x128 .f32) (ix2 u b) = (V c main_v7 : S1x128.Idx → EReal) (ix2 u b) := by
  obtain ⟨e0, e1⟩ := idx3_8 t
  unfold iblk3
  rw [View.read_apply]
  show (V c main_v7 : S1x128.Idx → EReal) _ = (V c main_v7 : S1x128.Idx → EReal) _
  refine congrArg (V c main_v7 : S1x128.Idx → EReal) (funext fun ax => Fin.ext ?_)
  match ax with
  | ⟨0, _⟩ => show win3_8.index t (0 : Fin 2) * 1 + 1 * u.val = u.val; rw [e0]; omega
  | ⟨1, _⟩ => show win3_8.index t (1 : Fin 2) * 128 + 1 * b.val = b.val; rw [e1]; omega

/-- Every point holds the whole `[1, 128]` row of window 9. -/
theorem blk9_apply (c : Dev nD) (t : Fin cfg3.N) (u : Fin 1) (b : Fin 128) :
    (iblk3 V c 9 t : FVec Ideal S1x128 .f32) (ix2 u b) = (V c main_v8 : S1x128.Idx → EReal) (ix2 u b) := by
  obtain ⟨e0, e1⟩ := idx3_9 t
  unfold iblk3
  rw [View.read_apply]
  show (V c main_v8 : S1x128.Idx → EReal) _ = (V c main_v8 : S1x128.Idx → EReal) _
  refine congrArg (V c main_v8 : S1x128.Idx → EReal) (funext fun ax => Fin.ext ?_)
  match ax with
  | ⟨0, _⟩ => show win3_9.index t (0 : Fin 2) * 1 + 1 * u.val = u.val; rw [e0]; omega
  | ⟨1, _⟩ => show win3_9.index t (1 : Fin 2) * 128 + 1 * b.val = b.val; rw [e1]; omega

/-- Every point holds the whole `[128, 128]` array of window 10. -/
theorem blk10_apply (c : Dev nD) (t : Fin cfg3.N) (a b : Fin 128) :
    (iblk3 V c 10 t : FVec Ideal S128x128 .f32) (ix2 a b) = (V c main_arg12 : S128x128.Idx → EReal) (ix2 a b) := by
  obtain ⟨e0, e1⟩ := idx3_10 t
  unfold iblk3
  rw [View.read_apply]
  show (V c main_arg12 : S128x128.Idx → EReal) _ = (V c main_arg12 : S128x128.Idx → EReal) _
  refine congrArg (V c main_arg12 : S128x128.Idx → EReal) (funext fun ax => Fin.ext ?_)
  match ax with
  | ⟨0, _⟩ => show win3_10.index t (0 : Fin 2) * 128 + 1 * a.val = a.val; rw [e0]; omega
  | ⟨1, _⟩ => show win3_10.index t (1 : Fin 2) * 128 + 1 * b.val = b.val; rw [e1]; omega

/-- Every point holds the whole `[1, 128]` row of window 11. -/
theorem blk11_apply (c : Dev nD) (t : Fin cfg3.N) (u : Fin 1) (b : Fin 128) :
    (iblk3 V c 11 t : FVec Ideal S1x128 .f32) (ix2 u b) = (V c main_v9 : S1x128.Idx → EReal) (ix2 u b) := by
  obtain ⟨e0, e1⟩ := idx3_11 t
  unfold iblk3
  rw [View.read_apply]
  show (V c main_v9 : S1x128.Idx → EReal) _ = (V c main_v9 : S1x128.Idx → EReal) _
  refine congrArg (V c main_v9 : S1x128.Idx → EReal) (funext fun ax => Fin.ext ?_)
  match ax with
  | ⟨0, _⟩ => show win3_11.index t (0 : Fin 2) * 1 + 1 * u.val = u.val; rw [e0]; omega
  | ⟨1, _⟩ => show win3_11.index t (1 : Fin 2) * 128 + 1 * b.val = b.val; rw [e1]; omega

/-- Every point holds the whole `[1, 128]` row of window 12. -/
theorem blk12_apply (c : Dev nD) (t : Fin cfg3.N) (u : Fin 1) (b : Fin 128) :
    (iblk3 V c 12 t : FVec Ideal S1x128 .f32) (ix2 u b) = (V c main_v10 : S1x128.Idx → EReal) (ix2 u b) := by
  obtain ⟨e0, e1⟩ := idx3_12 t
  unfold iblk3
  rw [View.read_apply]
  show (V c main_v10 : S1x128.Idx → EReal) _ = (V c main_v10 : S1x128.Idx → EReal) _
  refine congrArg (V c main_v10 : S1x128.Idx → EReal) (funext fun ax => Fin.ext ?_)
  match ax with
  | ⟨0, _⟩ => show win3_12.index t (0 : Fin 2) * 1 + 1 * u.val = u.val; rw [e0]; omega
  | ⟨1, _⟩ => show win3_12.index t (1 : Fin 2) * 128 + 1 * b.val = b.val; rw [e1]; omega

/-- Every point holds the whole `[1, 128]` row of window 13. -/
theorem blk13_apply (c : Dev nD) (t : Fin cfg3.N) (u : Fin 1) (b : Fin 128) :
    (iblk3 V c 13 t : FVec Ideal S1x128 .f32) (ix2 u b) = (V c main_v11 : S1x128.Idx → EReal) (ix2 u b) := by
  obtain ⟨e0, e1⟩ := idx3_13 t
  unfold iblk3
  rw [View.read_apply]
  show (V c main_v11 : S1x128.Idx → EReal) _ = (V c main_v11 : S1x128.Idx → EReal) _
  refine congrArg (V c main_v11 : S1x128.Idx → EReal) (funext fun ax => Fin.ext ?_)
  match ax with
  | ⟨0, _⟩ => show win3_13.index t (0 : Fin 2) * 1 + 1 * u.val = u.val; rw [e0]; omega
  | ⟨1, _⟩ => show win3_13.index t (1 : Fin 2) * 128 + 1 * b.val = b.val; rw [e1]; omega

/-- Every point holds the whole `[128, 128]` array of window 14. -/
theorem blk14_apply (c : Dev nD) (t : Fin cfg3.N) (a b : Fin 128) :
    (iblk3 V c 14 t : FVec Ideal S128x128 .f32) (ix2 a b) = (V c main_arg16 : S128x128.Idx → EReal) (ix2 a b) := by
  obtain ⟨e0, e1⟩ := idx3_14 t
  unfold iblk3
  rw [View.read_apply]
  show (V c main_arg16 : S128x128.Idx → EReal) _ = (V c main_arg16 : S128x128.Idx → EReal) _
  refine congrArg (V c main_arg16 : S128x128.Idx → EReal) (funext fun ax => Fin.ext ?_)
  match ax with
  | ⟨0, _⟩ => show win3_14.index t (0 : Fin 2) * 128 + 1 * a.val = a.val; rw [e0]; omega
  | ⟨1, _⟩ => show win3_14.index t (1 : Fin 2) * 128 + 1 * b.val = b.val; rw [e1]; omega

/-- Every point holds the whole `[1, 128]` row of window 15. -/
theorem blk15_apply (c : Dev nD) (t : Fin cfg3.N) (u : Fin 1) (b : Fin 128) :
    (iblk3 V c 15 t : FVec Ideal S1x128 .f32) (ix2 u b) = (V c main_v12 : S1x128.Idx → EReal) (ix2 u b) := by
  obtain ⟨e0, e1⟩ := idx3_15 t
  unfold iblk3
  rw [View.read_apply]
  show (V c main_v12 : S1x128.Idx → EReal) _ = (V c main_v12 : S1x128.Idx → EReal) _
  refine congrArg (V c main_v12 : S1x128.Idx → EReal) (funext fun ax => Fin.ext ?_)
  match ax with
  | ⟨0, _⟩ => show win3_15.index t (0 : Fin 2) * 1 + 1 * u.val = u.val; rw [e0]; omega
  | ⟨1, _⟩ => show win3_15.index t (1 : Fin 2) * 128 + 1 * b.val = b.val; rw [e1]; omega

/-! ## The output block in the output array, and the tiling -/

/-- Entry `(r, k)` of point `t`'s output block is entry `(400 t + r, k)` of the output array. -/
theorem emb16 (t : Fin cfg3.N) (r : Fin 400) (k : Fin 128) :
    ((cfg3.win 16).blk t).view.emb (ix2 r k) = (ix2 (rowAt t r) k : S10000x128.Idx) := by
  obtain ⟨e0, e1⟩ := idx3_16 t
  funext ax
  apply Fin.ext
  match ax with
  | ⟨0, _⟩ => show win3_16.index t (0 : Fin 2) * 400 + 1 * r.val = 400 * t.val + r.val; rw [e0]; omega
  | ⟨1, _⟩ => show win3_16.index t (1 : Fin 2) * 128 + 1 * k.val = k.val; rw [e1]; omega

/-- An index of the output array is in point `t`'s block iff each coordinate is in the block's range. -/
theorem mem_blk (t : Fin cfg3.N) (i : S10000x128.Idx) :
    i ∈ ((cfg3.win 16).blk t).view.set ↔ ∀ a : Fin 2, win3_16.index t a * S400x128.size a ≤ (i a).val
      ∧ (i a).val < win3_16.index t a * S400x128.size a + S400x128.size a := by
  show i ∈ ((View.whole main_v13).slice (win3_16.rect t)).set ↔ _
  rw [View.set_slice_whole, Rect.mem_set_unit]
  exact Iff.rfl

/-- The 25 blocks tile the output: row `r` is in the block of point `r / 400`. -/
theorem cover16 : ∀ i : S10000x128.Idx,
    ∃ t : Fin cfg3.N, (cfg3.win 16).flush t = true ∧ i ∈ ((cfg3.win 16).blk t).view.set := by
  intro i
  have hi0 : (i 0).val < 10000 := (i 0).isLt
  have hi1 : (i 1).val < 128 := (i 1).isLt
  have ht : (i 0).val / 400 < cfg3.N := by rw [hN]; omega
  refine ⟨⟨(i 0).val / 400, ht⟩, flush3_16 _, ?_⟩
  obtain ⟨e0, e1⟩ := idx3_16 ⟨(i 0).val / 400, ht⟩
  rw [mem_blk]
  intro a
  match a with
  | ⟨0, _⟩ =>
    show win3_16.index ⟨(i 0).val / 400, ht⟩ (0 : Fin 2) * 400 ≤ (i 0).val
      ∧ (i 0).val < win3_16.index ⟨(i 0).val / 400, ht⟩ (0 : Fin 2) * 400 + 400
    rw [e0]
    show (i 0).val / 400 * 400 ≤ (i 0).val ∧ (i 0).val < (i 0).val / 400 * 400 + 400
    omega
  | ⟨1, _⟩ =>
    show win3_16.index ⟨(i 0).val / 400, ht⟩ (1 : Fin 2) * 128 ≤ (i 1).val
      ∧ (i 1).val < win3_16.index ⟨(i 0).val / 400, ht⟩ (1 : Fin 2) * 128 + 128
    rw [e1]
    omega

end Cert.KernelIdeal.KReg3

end
-- ==== Proof.KReg3.lean ====
/-
  The output array of the second layer's launch, read at an index.

  The launch runs 25 grid points; point t stages rows 400 t … 400 t + 399 of the adjacency, of the initial
  features and of the inverse square-root degrees, the whole pre-scaled feature table and the whole weight tables,
  and writes back rows 400 t … 400 t + 399 of the result.  Row r of the block it stores depends only on row r of the
  staged row blocks, so the stored block is block t of ONE whole-array function `G`: the second convolution layer
  followed by the three-layer head, `Cert.Gcn.stage3`, of the arrays the launch reads.  The 25 blocks tile the
  10000 rows, so after the last point the array is `G`.
-/
import proofs.«110087_g67448166416678_cont_sun_m_1095_9_alg».proof.Proof.Gen.KernelIdeal.Frame
import proofs.«110087_g67448166416678_cont_sun_m_1095_9_alg».proof.Proof.KReg3Pay
import proofs.«110087_g67448166416678_cont_sun_m_1095_9_alg».proof.Proof.KReg3Idx
import Idealize.ShloMosaic.Lib.Pipeline.Value

noncomputable section

namespace Cert.KernelIdeal.KReg3

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The arrays the launch reads, as plain functions -/

def adjR (c : Dev nD) : Fin 10000 → Fin 10000 → EReal := fun a b => (V c main_arg1 : S10000x10000.Idx → EReal) (ix2 a b)
def hsR (c : Dev nD) : Fin 10000 → Fin 128 → EReal := fun a b => (V c main_v4 : S10000x128.Idx → EReal) (ix2 a b)
def h0R (c : Dev nD) : Fin 10000 → Fin 128 → EReal := fun a b => (V c main_v2_0 : S10000x128.Idx → EReal) (ix2 a b)
def dvR (c : Dev nD) : Fin 10000 → EReal := fun a => (V c main_v2_2 : S10000x1.Idx → EReal) (ix2 a 0)
def w2R (c : Dev nD) : Fin 128 → Fin 128 → EReal := fun a b => (V c main_arg6 : S128x128.Idx → EReal) (ix2 a b)
def b2R (c : Dev nD) : Fin 128 → EReal := fun b => (V c main_v5 : S1x128.Idx → EReal) (ix2 0 b)
def mw1R (c : Dev nD) : Fin 128 → Fin 128 → EReal := fun a b => (V c main_arg8 : S128x128.Idx → EReal) (ix2 a b)
def mb1R (c : Dev nD) : Fin 128 → EReal := fun b => (V c main_v6 : S1x128.Idx → EReal) (ix2 0 b)
def g1R (c : Dev nD) : Fin 128 → EReal := fun b => (V c main_v7 : S1x128.Idx → EReal) (ix2 0 b)
def bb1R (c : Dev nD) : Fin 128 → EReal := fun b => (V c main_v8 : S1x128.Idx → EReal) (ix2 0 b)
def mw2R (c : Dev nD) : Fin 128 → Fin 128 → EReal := fun a b => (V c main_arg12 : S128x128.Idx → EReal) (ix2 a b)
def mb2R (c : Dev nD) : Fin 128 → EReal := fun b => (V c main_v9 : S1x128.Idx → EReal) (ix2 0 b)
def g2R (c : Dev nD) : Fin 128 → EReal := fun b => (V c main_v10 : S1x128.Idx → EReal) (ix2 0 b)
def bb2R (c : Dev nD) : Fin 128 → EReal := fun b => (V c main_v11 : S1x128.Idx → EReal) (ix2 0 b)
def mw3R (c : Dev nD) : Fin 128 → Fin 128 → EReal := fun a b => (V c main_arg16 : S128x128.Idx → EReal) (ix2 a b)
def mb3R (c : Dev nD) : Fin 128 → EReal := fun b => (V c main_v12 : S1x128.Idx → EReal) (ix2 0 b)

/-- What the output array ends holding: the second layer and the head, index by index, of the arrays the launch reads. -/
def G (c : Dev nD) : S10000x128.Idx → EReal := fun i =>
  Gcn.stage3 (adjR V c) (hsR V c) (h0R V c) (dvR V c) (w2R V c) (b2R V c) (mw1R V c) (mb1R V c) (g1R V c) (bb1R V c)
    (mw2R V c) (mb2R V c) (g2R V c) (bb2R V c) (mw3R V c) (mb3R V c) (i 0) (i 1)

/-- Row r, feature k of what point t's body stores is `G` at row 400 t + r. -/
theorem stored16 (c : Dev nD) (t : Fin cfg3.N) (r : Fin 400) (k : Fin 128) :
    k3_pay1 (F := Ideal)
        (k3_pay3 (k3_pay2 (iblk3 V c 0 t) (iblk3 V c 1 t) (iblk3 V c 3 t) (iblk3 V c 2 t) (iblk3 V c 4 t) (iblk3 V c 5 t)
            (iblk3 V c 6 t) (iblk3 V c 7 t)) (iblk3 V c 8 t) (iblk3 V c 9 t) (iblk3 V c 10 t) (iblk3 V c 11 t))
        (k3_pay4 (iblk3 V c 12 t)) (k3_pay5 (iblk3 V c 13 t))
        (k3_pay6 (k3_pay2 (iblk3 V c 0 t) (iblk3 V c 1 t) (iblk3 V c 3 t) (iblk3 V c 2 t) (iblk3 V c 4 t) (iblk3 V c 5 t)
            (iblk3 V c 6 t) (iblk3 V c 7 t)) (iblk3 V c 8 t) (iblk3 V c 9 t) (iblk3 V c 10 t) (iblk3 V c 11 t))
        (k3_pay7 (F := Ideal)) (iblk3 V c 14 t) (iblk3 V c 15 t) (ix2 r k)
      = G V c (ix2 (rowAt t r) k) :=
  stored_stage3 (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) (iblk3 V c 11 t) (iblk3 V c 12 t)
    (iblk3 V c 13 t) (iblk3 V c 14 t) (iblk3 V c 15 t) r k
    (adjR V c) (hsR V c) (h0R V c) (dvR V c) (w2R V c) (b2R V c) (mw1R V c) (mb1R V c) (g1R V c) (bb1R V c)
    (mw2R V c) (mb2R V c) (g2R V c) (bb2R V c) (mw3R V c) (mb3R V c) (rowAt t r)
    (fun j => blk0_apply V c t r j) (fun j c' => blk1_apply V c t j c') (fun c' => blk2_apply V c t r c')
    (blk3_apply V c t r 0) (fun a c' => blk4_apply V c t a c') (fun c' => blk5_apply V c t 0 c')
    (fun a c' => blk6_apply V c t a c') (fun c' => blk7_apply V c t 0 c') (fun c' => blk8_apply V c t 0 c')
    (fun c' => blk9_apply V c t 0 c') (fun a c' => blk10_apply V c t a c') (fun c' => blk11_apply V c t 0 c')
    (fun c' => blk12_apply V c t 0 c') (fun c' => blk13_apply V c t 0 c') (fun a c' => blk14_apply V c t a c')
    (fun c' => blk15_apply V c t 0 c')

/-- WHAT POINT t WRITES BACK is block t of `G`. -/
theorem flushed16_eq (c : Dev nD) (t : Fin cfg3.N) :
    (dat3 V c).flushed 16 t = ((cfg3.win 16).blk t).view.read (Elt Ideal) (G V c) := by
  show (cfg3.win 16).cut (grid3.coords t) ((dat3 V c).after 16 t) = _
  rw [after3_16]
  unfold out3_16
  rw [View.canon_unit_zero hz]
  simp only [View.ld_unit_zero (S := S400x10000) hz, View.ld_unit_zero (S := S10000x128) hz, View.ld_unit_zero (S := S400x1) hz,
    View.ld_unit_zero (S := S400x128) hz, View.ld_unit_zero (S := S128x128) hz, View.ld_unit_zero (S := S1x128) hz]
  funext y
  obtain ⟨r, k, rfl⟩ : ∃ (r : Fin 400) (k : Fin 128), y = ix2 r k := ⟨y 0, y 1, eq_ix2 y⟩
  refine (stored16 V c t r k).trans ?_
  rw [View.read_apply, emb16 t r k]
  rfl

/-- THE ARRAY after the launch is `G`: the 25 blocks cover it. -/
theorem final16_fun (c : Dev nD) : (dat3 V c).arrAt 16 cfg3.N = G V c :=
  (dat3 V c).arrAt_eq_of_cover 16 (G V c) (fun t _ => flushed16_eq V c t) cover16

/-- THE ARRAY after the launch, at (i, k): the second layer and the head of the arrays the launch reads. -/
theorem final16 (c : Dev nD) (i : Fin 10000) (k : Fin 128) :
    ((dat3 V c).arrAt 16 cfg3.N : S10000x128.Idx → EReal) (ix2 i k)
      = Gcn.stage3 (fun a b => (V c main_arg1 : S10000x10000.Idx → EReal) (ix2 a b))
          (fun a b => (V c main_v4 : S10000x128.Idx → EReal) (ix2 a b))
          (fun a b => (V c main_v2_0 : S10000x128.Idx → EReal) (ix2 a b))
          (fun a => (V c main_v2_2 : S10000x1.Idx → EReal) (ix2 a 0))
          (fun a b => (V c main_arg6 : S128x128.Idx → EReal) (ix2 a b)) (fun b => (V c main_v5 : S1x128.Idx → EReal) (ix2 0 b))
          (fun a b => (V c main_arg8 : S128x128.Idx → EReal) (ix2 a b)) (fun b => (V c main_v6 : S1x128.Idx → EReal) (ix2 0 b))
          (fun b => (V c main_v7 : S1x128.Idx → EReal) (ix2 0 b)) (fun b => (V c main_v8 : S1x128.Idx → EReal) (ix2 0 b))
          (fun a b => (V c main_arg12 : S128x128.Idx → EReal) (ix2 a b)) (fun b => (V c main_v9 : S1x128.Idx → EReal) (ix2 0 b))
          (fun b => (V c main_v10 : S1x128.Idx → EReal) (ix2 0 b)) (fun b => (V c main_v11 : S1x128.Idx → EReal) (ix2 0 b))
          (fun a b => (V c main_arg16 : S128x128.Idx → EReal) (ix2 a b)) (fun b => (V c main_v12 : S1x128.Idx → EReal) (ix2 0 b)) i k := by
  rw [final16_fun]
  rfl

end Cert.KernelIdeal.KReg3

end
-- ==== Proof.KChain.lean ====
/-
  The fused program's result array as a function of the eighteen arguments: the four launches' values chained
  through the boundaries of the run. Launch 0 leaves the degrees; launch 1 reads them and leaves the embedded
  features, their row-scaled copy and the normaliser; launch 2 reads those and the adjacency and leaves the first
  layer's row-scaled output; launch 3 reads that, the embedded features, the normaliser and the adjacency and
  leaves the result. Every array a launch reads is traced back either to the launch memory or to the launch
  that wrote it (KWalk.lean), and each launch's output array is the stage function of the arrays it read
  (KReg0.lean .. KReg3.lean).
-/
import proofs.«110087_g67448166416678_cont_sun_m_1095_9_alg».proof.Proof.KWalk
import proofs.«110087_g67448166416678_cont_sun_m_1095_9_alg».proof.Proof.KReg0
import proofs.«110087_g67448166416678_cont_sun_m_1095_9_alg».proof.Proof.KReg1
import proofs.«110087_g67448166416678_cont_sun_m_1095_9_alg».proof.Proof.KReg2
import proofs.«110087_g67448166416678_cont_sun_m_1095_9_alg».proof.Proof.KReg3

set_option maxRecDepth 16384

noncomputable section

namespace Cert.KernelIdeal.KVal

open Cert.KernelIdeal Cert.KernelIdeal.Gen
open Idealize.ShloMosaic Idealize.ShloMosaic.TcCoe Idealize.ShloMosaic.ValueIdx
open Idealize.SL.Sem

/-! ## Arrays as plain tables -/

abbrev matNN (x : S10000x10000.Idx → EReal) : Fin 10000 → Fin 10000 → EReal := fun a b => x (ix2 a b)
abbrev matN (x : S10000x128.Idx → EReal) : Fin 10000 → Fin 128 → EReal := fun a b => x (ix2 a b)
abbrev mat128 (x : S128x128.Idx → EReal) : Fin 128 → Fin 128 → EReal := fun a b => x (ix2 a b)
abbrev vec128 (x : S128.Idx → EReal) : Fin 128 → EReal := fun q => x (ix1 q)
abbrev row128 (x : S1x128.Idx → EReal) : Fin 128 → EReal := fun q => x (ix2 0 q)
abbrev colN (x : S10000x1.Idx → EReal) : Fin 10000 → EReal := fun a => x (ix2 a 0)

variable (m : (ℓ : Loc nD τ sig) → Buf (Elt Ideal) ℓ) (ρ : Dev nD → PrngReg) (c : Dev nD)

/-- Argument `r`'s array in the launch memory. -/
abbrev arg (r : Ref sig .tc) : Buf (Elt Ideal) ((c : Thread nD τ).loc r) := m ((c : Thread nD τ).loc r)

/-! ## Launch 1's inputs and outputs -/

/-- The degrees launch 1 reads are the adjacency's row sums. -/
theorem deg2 : colN (V2 m ρ c main_v0) = Gcn.deg (matNN (arg m c main_arg1)) := by
  funext a
  have e : (V2 m ρ c main_v0 : S10000x1.Idx → EReal) = (dat0 (V0 m ρ) c).arrAt 1 cfg0.N := L2_deg m ρ c
  show (V2 m ρ c main_v0 : S10000x1.Idx → EReal) (ix2 a 0) = _
  rw [e]
  exact KReg0.final (V0 m ρ) c a

theorem x2 : matN (V2 m ρ c main_arg0) = matN (arg m c main_arg0) :=
  congrArg matN (L2_plain m ρ c main_arg0 (by decide) (by decide))
theorem we2 : mat128 (V2 m ρ c main_arg2) = mat128 (arg m c main_arg2) :=
  congrArg mat128 (L2_plain m ρ c main_arg2 (by decide) (by decide))
theorem be2 : row128 (V2 m ρ c main_v1) = vec128 (arg m c main_arg3) := by
  funext q
  exact (rowH1_v1 (W1 m ρ c) q).trans (congrFun (L1_plain m ρ c main_arg3 (by decide)) (ix1 q))

/-- The embedded features, as launch 1 leaves them. -/
theorem h0_1 : matN ((dat1 (V2 m ρ) c).arrAt 4 cfg1.N)
    = Gcn.embed (matN (arg m c main_arg0)) (mat128 (arg m c main_arg2)) (vec128 (arg m c main_arg3)) := by
  funext i k
  refine (KReg1.final4 (V2 m ρ) c i k).trans ?_
  show Gcn.embed (matN (V2 m ρ c main_arg0)) (mat128 (V2 m ρ c main_arg2)) (row128 (V2 m ρ c main_v1)) i k = _
  rw [x2, we2, be2]

/-- Their row-scaled copy. -/
theorem hs0_1 : matN ((dat1 (V2 m ρ) c).arrAt 5 cfg1.N)
    = Gcn.embedScaled (matN (arg m c main_arg0)) (mat128 (arg m c main_arg2)) (vec128 (arg m c main_arg3))
        (Gcn.deg (matNN (arg m c main_arg1))) := by
  funext i k
  refine (KReg1.final5 (V2 m ρ) c i k).trans ?_
  show Gcn.embedScaled (matN (V2 m ρ c main_arg0)) (mat128 (V2 m ρ c main_arg2)) (row128 (V2 m ρ c main_v1))
    (colN (V2 m ρ c main_v0)) i k = _
  rw [x2, we2, be2, deg2]

/-- The normaliser. -/
theorem dinv_1 : colN ((dat1 (V2 m ρ) c).arrAt 6 cfg1.N) = Gcn.dinvOf (Gcn.deg (matNN (arg m c main_arg1))) := by
  funext i
  refine (KReg1.final6 (V2 m ρ) c i).trans ?_
  show Gcn.dinvOf (colN (V2 m ρ c main_v0)) i = _
  rw [deg2]

/-! ## Launch 2 -/

theorem w1_4 : mat128 (V4 m ρ c main_arg4) = mat128 (arg m c main_arg4) :=
  congrArg mat128 (L4_plain m ρ c main_arg4 (by decide) (by decide) (by decide) (by decide))
theorem b1_4 : row128 (V4 m ρ c main_v3) = vec128 (arg m c main_arg5) := by
  funext q
  exact (rowH2_v3 (W3 m ρ c) q).trans (congrFun (L3_plain m ρ c main_arg5 (by decide) (by decide) (by decide)) (ix1 q))

/-- The first layer's row-scaled output, as launch 2 leaves it. -/
theorem hs1_2 : matN ((dat2 (V4 m ρ) c).arrAt 6 cfg2.N)
    = Gcn.stage2 (matNN (arg m c main_arg1))
        (Gcn.embedScaled (matN (arg m c main_arg0)) (mat128 (arg m c main_arg2)) (vec128 (arg m c main_arg3))
          (Gcn.deg (matNN (arg m c main_arg1))))
        (Gcn.embed (matN (arg m c main_arg0)) (mat128 (arg m c main_arg2)) (vec128 (arg m c main_arg3)))
        (Gcn.dinvOf (Gcn.deg (matNN (arg m c main_arg1))))
        (mat128 (arg m c main_arg4)) (vec128 (arg m c main_arg5)) := by
  funext i k
  refine (KReg2.final6 (V4 m ρ) c i k).trans ?_
  show Gcn.stage2 (matNN (V4 m ρ c main_arg1)) (matN (V4 m ρ c main_v2_1)) (matN (V4 m ρ c main_v2_0))
    (colN (V4 m ρ c main_v2_2)) (mat128 (V4 m ρ c main_arg4)) (row128 (V4 m ρ c main_v3)) i k = _
  rw [show matNN (V4 m ρ c main_arg1) = matNN (arg m c main_arg1) from congrArg matNN (L4_adj m ρ c),
    show matN (V4 m ρ c main_v2_1) = _ from (congrArg matN (L4_hs0 m ρ c)).trans (hs0_1 m ρ c),
    show matN (V4 m ρ c main_v2_0) = _ from (congrArg matN (L4_h0 m ρ c)).trans (h0_1 m ρ c),
    show colN (V4 m ρ c main_v2_2) = _ from (congrArg colN (L4_dinv m ρ c)).trans (dinv_1 m ρ c),
    w1_4, b1_4]

/-! ## Launch 3 -/

theorem plain6 (r : Ref sig .tc) (h0 : ∀ w, Pipeline.arrRef spec0 w ≠ r) (k1 : r ≠ main_v1)
    (h1 : ∀ w, Pipeline.arrRef spec1 w ≠ r) (k2 : r ≠ main_v3) (h2 : ∀ w, Pipeline.arrRef spec2 w ≠ r)
    (k3 : r ≠ main_v5 ∧ r ≠ main_v6 ∧ r ≠ main_v7 ∧ r ≠ main_v8 ∧ r ≠ main_v9 ∧ r ≠ main_v10 ∧ r ≠ main_v11 ∧ r ≠ main_v12) :
    V6 m ρ c r = arg m c r := L6_plain m ρ c r h0 k1 h1 k2 h2 k3

theorem row6_v5 : row128 (V6 m ρ c main_v5) = vec128 (arg m c main_arg7) := by
  funext q
  exact (rowH3_v5 (W5 m ρ c) q).trans
    (congrFun (L5_plain m ρ c main_arg7 (by decide) (by decide) (by decide) (by decide) (by decide)) (ix1 q))
theorem row6_v6 : row128 (V6 m ρ c main_v6) = vec128 (arg m c main_arg9) := by
  funext q
  exact (rowH3_v6 (W5 m ρ c) q).trans
    (congrFun (L5_plain m ρ c main_arg9 (by decide) (by decide) (by decide) (by decide) (by decide)) (ix1 q))
theorem row6_v7 : row128 (V6 m ρ c main_v7) = vec128 (arg m c main_arg10) := by
  funext q
  exact (rowH3_v7 (W5 m ρ c) q).trans
    (congrFun (L5_plain m ρ c main_arg10 (by decide) (by decide) (by decide) (by decide) (by decide)) (ix1 q))
theorem row6_v8 : row128 (V6 m ρ c main_v8) = vec128 (arg m c main_arg11) := by
  funext q
  exact (rowH3_v8 (W5 m ρ c) q).trans
    (congrFun (L5_plain m ρ c main_arg11 (by decide) (by decide) (by decide) (by decide) (by decide)) (ix1 q))
theorem row6_v9 : row128 (V6 m ρ c main_v9) = vec128 (arg m c main_arg13) := by
  funext q
  exact (rowH3_v9 (W5 m ρ c) q).trans
    (congrFun (L5_plain m ρ c main_arg13 (by decide) (by decide) (by decide) (by decide) (by decide)) (ix1 q))
theorem row6_v10 : row128 (V6 m ρ c main_v10) = vec128 (arg m c main_arg14) := by
  funext q
  exact (rowH3_v10 (W5 m ρ c) q).trans
    (congrFun (L5_plain m ρ c main_arg14 (by decide) (by decide) (by decide) (by decide) (by decide)) (ix1 q))
theorem row6_v11 : row128 (V6 m ρ c main_v11) = vec128 (arg m c main_arg15) := by
  funext q
  exact (rowH3_v11 (W5 m ρ c) q).trans
    (congrFun (L5_plain m ρ c main_arg15 (by decide) (by decide) (by decide) (by decide) (by decide)) (ix1 q))
theorem row6_v12 : row128 (V6 m ρ c main_v12) = vec128 (arg m c main_arg17) := by
  funext q
  exact (rowH3_v12 (W5 m ρ c) q).trans
    (congrFun (L5_plain m ρ c main_arg17 (by decide) (by decide) (by decide) (by decide) (by decide)) (ix1 q))

/-- The result array, as launch 3 leaves it, is the fused program's function of the arguments. -/
theorem out_3 : matN ((dat3 (V6 m ρ) c).arrAt 16 cfg3.N)
    = Gcn.outK (matN (arg m c main_arg0)) (matNN (arg m c main_arg1)) (mat128 (arg m c main_arg2)) (vec128 (arg m c main_arg3))
        (mat128 (arg m c main_arg4)) (vec128 (arg m c main_arg5)) (mat128 (arg m c main_arg6)) (vec128 (arg m c main_arg7))
        (mat128 (arg m c main_arg8)) (vec128 (arg m c main_arg9)) (vec128 (arg m c main_arg10)) (vec128 (arg m c main_arg11))
        (mat128 (arg m c main_arg12)) (vec128 (arg m c main_arg13)) (vec128 (arg m c main_arg14)) (vec128 (arg m c main_arg15))
        (mat128 (arg m c main_arg16)) (vec128 (arg m c main_arg17)) := by
  funext i k
  refine (KReg3.final16 (V6 m ρ) c i k).trans ?_
  show Gcn.stage3 (matNN (V6 m ρ c main_arg1)) (matN (V6 m ρ c main_v4)) (matN (V6 m ρ c main_v2_0))
    (colN (V6 m ρ c main_v2_2)) (mat128 (V6 m ρ c main_arg6)) (row128 (V6 m ρ c main_v5))
    (mat128 (V6 m ρ c main_arg8)) (row128 (V6 m ρ c main_v6)) (row128 (V6 m ρ c main_v7)) (row128 (V6 m ρ c main_v8))
    (mat128 (V6 m ρ c main_arg12)) (row128 (V6 m ρ c main_v9)) (row128 (V6 m ρ c main_v10)) (row128 (V6 m ρ c main_v11))
    (mat128 (V6 m ρ c main_arg16)) (row128 (V6 m ρ c main_v12)) i k = _
  rw [show matNN (V6 m ρ c main_arg1) = matNN (arg m c main_arg1) from congrArg matNN (L6_adj m ρ c),
    show matN (V6 m ρ c main_v4) = _ from (congrArg matN (L6_hs1 m ρ c)).trans (hs1_2 m ρ c),
    show matN (V6 m ρ c main_v2_0) = _ from (congrArg matN (L6_h0 m ρ c)).trans (h0_1 m ρ c),
    show colN (V6 m ρ c main_v2_2) = _ from (congrArg colN (L6_dinv m ρ c)).trans (dinv_1 m ρ c),
    show mat128 (V6 m ρ c main_arg6) = mat128 (arg m c main_arg6) from
      congrArg mat128 (plain6 m ρ c main_arg6 (by decide) (by decide) (by decide) (by decide) (by decide) ⟨by decide, by decide, by decide, by decide, by decide, by decide, by decide, by decide⟩),
    show mat128 (V6 m ρ c main_arg8) = mat128 (arg m c main_arg8) from
      congrArg mat128 (plain6 m ρ c main_arg8 (by decide) (by decide) (by decide) (by decide) (by decide) ⟨by decide, by decide, by decide, by decide, by decide, by decide, by decide, by decide⟩),
    show mat128 (V6 m ρ c main_arg12) = mat128 (arg m c main_arg12) from
      congrArg mat128 (plain6 m ρ c main_arg12 (by decide) (by decide) (by decide) (by decide) (by decide) ⟨by decide, by decide, by decide, by decide, by decide, by decide, by decide, by decide⟩),
    show mat128 (V6 m ρ c main_arg16) = mat128 (arg m c main_arg16) from
      congrArg mat128 (plain6 m ρ c main_arg16 (by decide) (by decide) (by decide) (by decide) (by decide) ⟨by decide, by decide, by decide, by decide, by decide, by decide, by decide, by decide⟩),
    row6_v5, row6_v6, row6_v7, row6_v8, row6_v9, row6_v10, row6_v11, row6_v12]
  rfl

/-- The same, read off the last boundary's contents of the result buffer. -/
theorem result_apply (i : Fin 10000) (k : Fin 128) :
    (W7 m ρ c (Proc.devRef .tc main_v13) : S10000x128.Idx → EReal) (ix2 i k)
      = Gcn.outK (matN (arg m c main_arg0)) (matNN (arg m c main_arg1)) (mat128 (arg m c main_arg2)) (vec128 (arg m c main_arg3))
        (mat128 (arg m c main_arg4)) (vec128 (arg m c main_arg5)) (mat128 (arg m c main_arg6)) (vec128 (arg m c main_arg7))
        (mat128 (arg m c main_arg8)) (vec128 (arg m c main_arg9)) (vec128 (arg m c main_arg10)) (vec128 (arg m c main_arg11))
        (mat128 (arg m c main_arg12)) (vec128 (arg m c main_arg13)) (vec128 (arg m c main_arg14)) (vec128 (arg m c main_arg15))
        (mat128 (arg m c main_arg16)) (vec128 (arg m c main_arg17)) i k := by
  have e : (W7 m ρ c (Proc.devRef .tc main_v13) : S10000x128.Idx → EReal) = (dat3 (V6 m ρ) c).arrAt 16 cfg3.N :=
    W7_arr m ρ c 16
  rw [e]
  exact congrFun (congrFun (out_3 m ρ c) i) k

end Cert.KernelIdeal.KVal

end
-- ==== Proof.RefFn.lean ====
/-
  The reference program's result as one pure function of its eighteen argument arrays, staged through
  named intermediate functions: the inverse square roots of the guarded row sums of the adjacency, the
  adjacency normalised entry by entry, a dense layer with a broadcast bias, a rectifier, the two graph
  convolutions with initial residual, the layer normalisation (mean, variance with its degrees-of-freedom
  guard, centring, division by the square root of the guarded variance, scale, shift, rectifier), and
  their composition. Every stage is the composition of the program's own operations, in the program's order
  and with its literals.
-/
import proofs.«110087_g67448166416678_cont_sun_m_1095_9_alg».proof.ReferenceIdeal

noncomputable section

namespace Cert.ReferenceIdeal.RefValue

open Cert.ReferenceIdeal Idealize.ShloMosaic
open Cert.ReferenceIdeal.Facts₀ Cert.ReferenceIdeal.Facts

variable {F : FTy → Type} [FloatOps F] [Facts]

/-- The scalar zero. -/
def zeroS : FVec F S_ .f32 := constant (F := F) S_ .f32 0x00000000#32

/-- A scalar literal spread over a whole feature table. -/
def splatS (w : BitVec 32) : FVec F S10000x128 .f32 :=
  broadcastInDim S10000x128 ![] bcast_S_S10000x128 (constant (F := F) S_ .f32 w)

/-- A scalar spread over a column. -/
def colS (s : FVec F S_ .f32) : FVec F S10000x1 .f32 :=
  broadcastInDim S10000x1 ![] bcast_S_S10000x1 s

/-- A vector of 10000 entries as a column. -/
def asColS (v : FVec F S10000 .f32) : FVec F S10000x1 .f32 :=
  broadcastInDim S10000x1 ![0] bcast_S10000_S10000x1_0 v

/-- A column repeated along the 128 features. -/
def colWideS (v : FVec F S10000x1 .f32) : FVec F S10000x128 .f32 :=
  broadcastInDim S10000x128 ![0, 1] bcast_S10000x1_S10000x128_0_1 v

/-- A feature vector repeated along the 10000 rows. -/
def biasS (b : FVec F S128 .f32) : FVec F S10000x128 .f32 :=
  broadcastInDim S10000x128 ![0, 1] bcast_S1x128_S10000x128_0_1 (broadcastInDim S1x128 ![1] bcast_S128_S1x128_1 b)

/-- The sum of each row of a feature table. -/
def rowSumS (x : FVec F S10000x128 .f32) : FVec F S10000 .f32 :=
  Host.reduceAdd x (zeroS (F := F)) reducesTo_S10000x128_S10000_d1 h_S_

/-- The inverse square root of each guarded row sum of the adjacency. -/
def dinvS (a1 : FVec F S10000x10000 .f32) : FVec F S10000 .f32 :=
  Host.rsqrt (addf (Host.reduceAdd a1 (zeroS (F := F)) reducesTo_S10000x10000_S10000_d1 h_S_)
    (broadcastInDim S10000 ![] bcast_S_S10000 (constant (F := F) S_ .f32 0x2B8CBCCC#32)))

/-- The adjacency normalised entry by entry: `(a i j * d i) * d j`. -/
def anormS (a1 : FVec F S10000x10000 .f32) : FVec F S10000x10000 .f32 :=
  mulf
    (mulf a1 (broadcastInDim S10000x10000 ![0, 1] bcast_S10000x1_S10000x10000_0_1 (asColS (dinvS a1))))
    (broadcastInDim S10000x10000 ![0, 1] bcast_S1x10000_S10000x10000_0_1
      (broadcastInDim S1x10000 ![1] bcast_S10000_S1x10000_1 (dinvS a1)))

/-- A dense layer: the product with a 128 x 128 weight plus the bias on every row. -/
def denseS (h : FVec F S10000x128 .f32) (w : FVec F S128x128 .f32) (b : FVec F S128 .f32) : FVec F S10000x128 .f32 :=
  addf (Host.dotGeneral dot_S10000x128_S128x128_S10000x128_1_0_0_1_n_n none h w) (biasS b)

/-- The embedding of the input features. -/
def embedS (a0 : FVec F S10000x128 .f32) (a2 : FVec F S128x128 .f32) (a3 : FVec F S128 .f32) : FVec F S10000x128 .f32 :=
  denseS a0 a2 a3

/-- The rectifier: the maximum with zero. -/
def reluS (x : FVec F S10000x128 .f32) : FVec F S10000x128 .f32 :=
  maximumf x (broadcastInDim S10000x128 ![] bcast_S_S10000x128 (zeroS (F := F)))

/-- The support of a convolution: the aggregate over the normalised adjacency mixed with the initial features. -/
def supS (an : FVec F S10000x10000 .f32) (h h0 : FVec F S10000x128 .f32) : FVec F S10000x128 .f32 :=
  addf (mulf (splatS 0x3F666666#32) (Host.dotGeneral dot_S10000x10000_S10000x128_S10000x128_1_0_0_1_n_n none an h))
    (mulf (splatS 0x3DCCCCCD#32) h0)

/-- One convolution with initial residual and identity mapping, with its rectifier; `θ`, `θ'` are the words of the
    mixing weight and its complement. -/
def layerS (θ θ' : BitVec 32) (an : FVec F S10000x10000 .f32) (h h0 : FVec F S10000x128 .f32)
    (w : FVec F S128x128 .f32) (b : FVec F S128 .f32) : FVec F S10000x128 .f32 :=
  reluS (addf
    (addf (mulf (splatS θ) (Host.dotGeneral dot_S10000x128_S128x128_S10000x128_1_0_0_1_n_n none (supS an h h0) w))
      (mulf (splatS θ') (supS an h h0)))
    (biasS b))

/-- The mean of each row, as a column. -/
def meanS (x : FVec F S10000x128 .f32) : FVec F S10000x1 .f32 :=
  Host.divf (asColS (rowSumS x)) (colS (constant (F := F) S_ .f32 0x43000000#32))

/-- Each row minus its mean. -/
def cenS (x : FVec F S10000x128 .f32) : FVec F S10000x128 .f32 :=
  subf x (colWideS (meanS x))

/-- The number of degrees of freedom of the variance: the width minus the integer zero converted. -/
def ddofS : FVec F S_ .f32 :=
  subf (constant (F := F) S_ .f32 0x43000000#32) (sitofp .f32 (constantI S_ 32 0#32))

/-- The variance of each row, as a column: the mean square deviation where the degrees of freedom are positive,
    the not-a-number literal elsewhere. -/
def varS (x : FVec F S10000x128 .f32) : FVec F S10000x1 .f32 :=
  select (broadcastInDim S10000x1 ![] bcast_S_S10000x1 (cmpf .ogt (ddofS (F := F)) (zeroS (F := F))))
    (Host.divf (asColS (rowSumS (mulf (cenS x) (cenS x)))) (colS (ddofS (F := F))))
    (colS (constant (F := F) S_ .f32 0x7FC00000#32))

/-- The layer normalisation of a feature table with scale `g` and shift `b`, followed by the rectifier. -/
def lnS (x : FVec F S10000x128 .f32) (g b : FVec F S128 .f32) : FVec F S10000x128 .f32 :=
  reluS (addf
    (mulf (Host.divf (cenS x)
        (colWideS (Host.sqrt (addf (varS x) (colS (constant (F := F) S_ .f32 0x3727C5AC#32))))))
      (biasS g))
    (biasS b))

/-- The reference's result: embedding, two convolutions, and a three-layer perceptron with two layer normalisations. -/
def refOut (a0 : FVec F S10000x128 .f32) (a1 : FVec F S10000x10000 .f32) (a2 : FVec F S128x128 .f32) (a3 : FVec F S128 .f32)
    (a4 : FVec F S128x128 .f32) (a5 : FVec F S128 .f32) (a6 : FVec F S128x128 .f32) (a7 : FVec F S128 .f32)
    (a8 : FVec F S128x128 .f32) (a9 a10 a11 : FVec F S128 .f32) (a12 : FVec F S128x128 .f32) (a13 a14 a15 : FVec F S128 .f32)
    (a16 : FVec F S128x128 .f32) (a17 : FVec F S128 .f32) : FVec F S10000x128 .f32 :=
  denseS
    (lnS
      (denseS
        (lnS
          (denseS
            (layerS 0x3ECF991F#32 0x3F183370#32 (anormS a1)
              (layerS 0x3F317218#32 0x3E9D1BD0#32 (anormS a1) (embedS a0 a2 a3) (embedS a0 a2 a3) a4 a5)
              (embedS a0 a2 a3) a6 a7)
            a8 a9)
          a10 a11)
        a12 a13)
      a14 a15)
    a16 a17

end Cert.ReferenceIdeal.RefValue

end
-- ==== Proof.RefRunOps.lean ====
/-
  The reference program's @main as a list of host operations, cut into eleven consecutive stretches (the
  normaliser of the adjacency; the embedding; the two convolutions; and, three times, a dense layer, the
  first half of a layer normalisation — mean and variance — and its second half), with the outlined
  functions' operations listed in line at their call sites over each call's own buffers.
-/
import proofs.«110087_g67448166416678_cont_sun_m_1095_9_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Stretch 0: operations 1 to 12, ending in the value %9. -/
def seg0 : List (HloOp τ sig (Elt F)) :=
  [ StableHlo.nullary main_cst (constant S_ .f32 0x00000000#32),
    StableHlo.binary main_arg1 main_cst main_v0 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    StableHlo.nullary main_cst_0 (constant S_ .f32 0x2B8CBCCC#32),
    StableHlo.unary main_cst_0 main_v1 (broadcastInDim S10000 ![] bcast_S_S10000 : (⟨S_, .f32⟩ : BufTy).Contents (Elt F) → (⟨S10000, .f32⟩ : BufTy).Contents (Elt F)),
    StableHlo.binary main_v0 main_v1 main_v2 (addf : (⟨S10000, .f32⟩ : BufTy).Contents (Elt F) → (⟨S10000, .f32⟩ : BufTy).Contents (Elt F) → (⟨S10000, .f32⟩ : BufTy).Contents (Elt F)),
    StableHlo.unary main_v2 main_v3 (Host.rsqrt : (⟨S10000, .f32⟩ : BufTy).Contents (Elt F) → (⟨S10000, .f32⟩ : BufTy).Contents (Elt F)),
    StableHlo.unary main_v3 main_v4 (broadcastInDim S10000x1 ![0] bcast_S10000_S10000x1_0 : (⟨S10000, .f32⟩ : BufTy).Contents (Elt F) → (⟨S10000x1, .f32⟩ : BufTy).Contents (Elt F)),
    StableHlo.unary main_v4 main_v5 (broadcastInDim S10000x10000 ![0, 1] bcast_S10000x1_S10000x10000_0_1 : (⟨S10000x1, .f32⟩ : BufTy).Contents (Elt F) → (⟨S10000x10000, .f32⟩ : BufTy).Contents (Elt F)),
    StableHlo.binary main_arg1 main_v5 main_v6 (mulf : (⟨S10000x10000, .f32⟩ : BufTy).Contents (Elt F) → (⟨S10000x10000, .f32⟩ : BufTy).Contents (Elt F) → (⟨S10000x10000, .f32⟩ : BufTy).Contents (Elt F)),
    StableHlo.unary main_v3 main_v7 (broadcastInDim S1x10000 ![1] bcast_S10000_S1x10000_1 : (⟨S10000, .f32⟩ : BufTy).Contents (Elt F) → (⟨S1x10000, .f32⟩ : BufTy).Contents (Elt F)),
    StableHlo.unary main_v7 main_v8 (broadcastInDim S10000x10000 ![0, 1] bcast_S1x10000_S10000x10000_0_1 : (⟨S1x10000, .f32⟩ : BufTy).Contents (Elt F) → (⟨S10000x10000, .f32⟩ : BufTy).Contents (Elt F)),
    StableHlo.binary main_v6 main_v8 main_v9 (mulf : (⟨S10000x10000, .f32⟩ : BufTy).Contents (Elt F) → (⟨S10000x10000, .f32⟩ : BufTy).Contents (Elt F) → (⟨S10000x10000, .f32⟩ : BufTy).Contents (Elt F)) ]

/-- Stretch 1: operations 13 to 16, ending in the value %13. -/
def seg1 : List (HloOp τ sig (Elt F)) :=
  [ StableHlo.binary main_arg0 main_arg2 main_v10 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg3 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S10000x128 ![0, 1] bcast_S1x128_S10000x128_0_1 : (⟨S1x128, .f32⟩ : BufTy).Contents (Elt F) → (⟨S10000x128, .f32⟩ : BufTy).Contents (Elt F)),
    StableHlo.binary main_v10 main_v12 main_v13 (addf : (⟨S10000x128, .f32⟩ : BufTy).Contents (Elt F) → (⟨S10000x128, .f32⟩ : BufTy).Contents (Elt F) → (⟨S10000x128, .f32⟩ : BufTy).Contents (Elt F)) ]

/-- Stretch 2: operations 17 to 38, ending in the value %29. -/
def seg2 : List (HloOp τ sig (Elt F)) :=
  [ StableHlo.binary main_v9 main_v13 main_v14 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.nullary main_cst_1 (constant S_ .f32 0x3F666666#32),
    StableHlo.unary main_cst_1 main_v15 (broadcastInDim S10000x128 ![] bcast_S_S10000x128 : (⟨S_, .f32⟩ : BufTy).Contents (Elt F) → (⟨S10000x128, .f32⟩ : BufTy).Contents (Elt F)),
    StableHlo.binary main_v15 main_v14 main_v16 (mulf : (⟨S10000x128, .f32⟩ : BufTy).Contents (Elt F) → (⟨S10000x128, .f32⟩ : BufTy).Contents (Elt F) → (⟨S10000x128, .f32⟩ : BufTy).Contents (Elt F)),
    StableHlo.nullary main_cst_2 (constant S_ .f32 0x3DCCCCCD#32),
    StableHlo.unary main_cst_2 main_v17 (broadcastInDim S10000x128 ![] bcast_S_S10000x128 : (⟨S_, .f32⟩ : BufTy).Contents (Elt F) → (⟨S10000x128, .f32⟩ : BufTy).Contents (Elt F)),
    StableHlo.binary main_v17 main_v13 main_v18 (mulf : (⟨S10000x128, .f32⟩ : BufTy).Contents (Elt F) → (⟨S10000x128, .f32⟩ : BufTy).Contents (Elt F) → (⟨S10000x128, .f32⟩ : BufTy).Contents (Elt F)),
    StableHlo.binary main_v16 main_v18 main_v19 (addf : (⟨S10000x128, .f32⟩ : BufTy).Contents (Elt F) → (⟨S10000x128, .f32⟩ : BufTy).Contents (Elt F) → (⟨S10000x128, .f32⟩ : BufTy).Contents (Elt F)),
    StableHlo.binary main_v19 main_arg4 main_v20 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.nullary main_cst_3 (constant S_ .f32 0x3F317218#32),
    StableHlo.unary main_cst_3 main_v21 (broadcastInDim S10000x128 ![] bcast_S_S10000x128 : (⟨S_, .f32⟩ : BufTy).Contents (Elt F) → (⟨S10000x128, .f32⟩ : BufTy).Contents (Elt F)),
    StableHlo.binary main_v21 main_v20 main_v22 (mulf : (⟨S10000x128, .f32⟩ : BufTy).Contents (Elt F) → (⟨S10000x128, .f32⟩ : BufTy).Contents (Elt F) → (⟨S10000x128, .f32⟩ : BufTy).Contents (Elt F)),
    StableHlo.nullary main_cst_4 (constant S_ .f32 0x3E9D1BD0#32),
    StableHlo.unary main_cst_4 main_v23 (broadcastInDim S10000x128 ![] bcast_S_S10000x128 : (⟨S_, .f32⟩ : BufTy).Contents (Elt F) → (⟨S10000x128, .f32⟩ : BufTy).Contents (Elt F)),
    StableHlo.binary main_v23 main_v19 main_v24 (mulf : (⟨S10000x128, .f32⟩ : BufTy).Contents (Elt F) → (⟨S10000x128, .f32⟩ : BufTy).Contents (Elt F) → (⟨S10000x128, .f32⟩ : BufTy).Contents (Elt F)),
    StableHlo.binary main_v22 main_v24 main_v25 (addf : (⟨S10000x128, .f32⟩ : BufTy).Contents (Elt F) → (⟨S10000x128, .f32⟩ : BufTy).Contents (Elt F) → (⟨S10000x128, .f32⟩ : BufTy).Contents (Elt F)),
    StableHlo.unary main_arg5 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S10000x128 ![0, 1] bcast_S1x128_S10000x128_0_1 : (⟨S1x128, .f32⟩ : BufTy).Contents (Elt F) → (⟨S10000x128, .f32⟩ : BufTy).Contents (Elt F)),
    StableHlo.binary main_v25 main_v27 main_v28 (addf : (⟨S10000x128, .f32⟩ : BufTy).Contents (Elt F) → (⟨S10000x128, .f32⟩ : BufTy).Contents (Elt F) → (⟨S10000x128, .f32⟩ : BufTy).Contents (Elt F)),
    StableHlo.TRef.nullary main_call0.cst (constant S_ .f32 0x00000000#32),
    StableHlo.TRef.unary main_call0.cst main_call0.v0 (broadcastInDim S10000x128 ![] bcast_S_S10000x128),
    StableHlo.TRef.binary (.of main_v28) main_call0.v0 main_call0.v1 maximumf ]

/-- Stretch 3: operations 39 to 60, ending in the value %45. -/
def seg3 : List (HloOp τ sig (Elt F)) :=
  [ StableHlo.binary main_v9 main_v29 main_v30 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.nullary main_cst_5 (constant S_ .f32 0x3F666666#32),
    StableHlo.unary main_cst_5 main_v31 (broadcastInDim S10000x128 ![] bcast_S_S10000x128 : (⟨S_, .f32⟩ : BufTy).Contents (Elt F) → (⟨S10000x128, .f32⟩ : BufTy).Contents (Elt F)),
    StableHlo.binary main_v31 main_v30 main_v32 (mulf : (⟨S10000x128, .f32⟩ : BufTy).Contents (Elt F) → (⟨S10000x128, .f32⟩ : BufTy).Contents (Elt F) → (⟨S10000x128, .f32⟩ : BufTy).Contents (Elt F)),
    StableHlo.nullary main_cst_6 (constant S_ .f32 0x3DCCCCCD#32),
    StableHlo.unary main_cst_6 main_v33 (broadcastInDim S10000x128 ![] bcast_S_S10000x128 : (⟨S_, .f32⟩ : BufTy).Contents (Elt F) → (⟨S10000x128, .f32⟩ : BufTy).Contents (Elt F)),
    StableHlo.binary main_v33 main_v13 main_v34 (mulf : (⟨S10000x128, .f32⟩ : BufTy).Contents (Elt F) → (⟨S10000x128, .f32⟩ : BufTy).Contents (Elt F) → (⟨S10000x128, .f32⟩ : BufTy).Contents (Elt F)),
    StableHlo.binary main_v32 main_v34 main_v35 (addf : (⟨S10000x128, .f32⟩ : BufTy).Contents (Elt F) → (⟨S10000x128, .f32⟩ : BufTy).Contents (Elt F) → (⟨S10000x128, .f32⟩ : BufTy).Contents (Elt F)),
    StableHlo.binary main_v35 main_arg6 main_v36 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.nullary main_cst_7 (constant S_ .f32 0x3ECF991F#32),
    StableHlo.unary main_cst_7 main_v37 (broadcastInDim S10000x128 ![] bcast_S_S10000x128 : (⟨S_, .f32⟩ : BufTy).Contents (Elt F) → (⟨S10000x128, .f32⟩ : BufTy).Contents (Elt F)),
    StableHlo.binary main_v37 main_v36 main_v38 (mulf : (⟨S10000x128, .f32⟩ : BufTy).Contents (Elt F) → (⟨S10000x128, .f32⟩ : BufTy).Contents (Elt F) → (⟨S10000x128, .f32⟩ : BufTy).Contents (Elt F)),
    StableHlo.nullary main_cst_8 (constant S_ .f32 0x3F183370#32),
    StableHlo.unary main_cst_8 main_v39 (broadcastInDim S10000x128 ![] bcast_S_S10000x128 : (⟨S_, .f32⟩ : BufTy).Contents (Elt F) → (⟨S10000x128, .f32⟩ : BufTy).Contents (Elt F)),
    StableHlo.binary main_v39 main_v35 main_v40 (mulf : (⟨S10000x128, .f32⟩ : BufTy).Contents (Elt F) → (⟨S10000x128, .f32⟩ : BufTy).Contents (Elt F) → (⟨S10000x128, .f32⟩ : BufTy).Contents (Elt F)),
    StableHlo.binary main_v38 main_v40 main_v41 (addf : (⟨S10000x128, .f32⟩ : BufTy).Contents (Elt F) → (⟨S10000x128, .f32⟩ : BufTy).Contents (Elt F) → (⟨S10000x128, .f32⟩ : BufTy).Contents (Elt F)),
    StableHlo.unary main_arg7 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S10000x128 ![0, 1] bcast_S1x128_S10000x128_0_1 : (⟨S1x128, .f32⟩ : BufTy).Contents (Elt F) → (⟨S10000x128, .f32⟩ : BufTy).Contents (Elt F)),
    StableHlo.binary main_v41 main_v43 main_v44 (addf : (⟨S10000x128, .f32⟩ : BufTy).Contents (Elt F) → (⟨S10000x128, .f32⟩ : BufTy).Contents (Elt F) → (⟨S10000x128, .f32⟩ : BufTy).Contents (Elt F)),
    StableHlo.TRef.nullary main_call1.cst (constant S_ .f32 0x00000000#32),
    StableHlo.TRef.unary main_call1.cst main_call1.v0 (broadcastInDim S10000x128 ![] bcast_S_S10000x128),
    StableHlo.TRef.binary (.of main_v44) main_call1.v0 main_call1.v1 maximumf ]

/-- Stretch 4: operations 61 to 64, ending in the value %49. -/
def seg4 : List (HloOp τ sig (Elt F)) :=
  [ StableHlo.binary main_v45 main_arg8 main_v46 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg9 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S10000x128 ![0, 1] bcast_S1x128_S10000x128_0_1 : (⟨S1x128, .f32⟩ : BufTy).Contents (Elt F) → (⟨S10000x128, .f32⟩ : BufTy).Contents (Elt F)),
    StableHlo.binary main_v46 main_v48 main_v49 (addf : (⟨S10000x128, .f32⟩ : BufTy).Contents (Elt F) → (⟨S10000x128, .f32⟩ : BufTy).Contents (Elt F) → (⟨S10000x128, .f32⟩ : BufTy).Contents (Elt F)) ]

/-- Stretch 5: operations 65 to 94, ending in the value %54. -/
def seg5 : List (HloOp τ sig (Elt F)) :=
  [ StableHlo.nullary main_cst_9 (constant S_ .f32 0x00000000#32),
    StableHlo.binary main_v49 main_cst_9 main_v50 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v50 main_v51 (broadcastInDim S10000x1 ![0] bcast_S10000_S10000x1_0 : (⟨S10000, .f32⟩ : BufTy).Contents (Elt F) → (⟨S10000x1, .f32⟩ : BufTy).Contents (Elt F)),
    StableHlo.nullary main_cst_10 (constant S_ .f32 0x43000000#32),
    StableHlo.unary main_cst_10 main_v52 (broadcastInDim S10000x1 ![] bcast_S_S10000x1 : (⟨S_, .f32⟩ : BufTy).Contents (Elt F) → (⟨S10000x1, .f32⟩ : BufTy).Contents (Elt F)),
    StableHlo.binary main_v51 main_v52 main_v53 (Host.divf : (⟨S10000x1, .f32⟩ : BufTy).Contents (Elt F) → (⟨S10000x1, .f32⟩ : BufTy).Contents (Elt F) → (⟨S10000x1, .f32⟩ : BufTy).Contents (Elt F)),
    StableHlo.nullary main_c (constantI S_ 32 0#32),
    StableHlo.TRef.nullary main_call2.cst (constant S_ .f32 0x00000000#32),
    StableHlo.TRef.binary (.of main_v49) main_call2.cst main_call2.v0 (fun x v => Host.reduceAdd x v reducesTo_S10000x128_S10000_d1 h_S_),
    StableHlo.TRef.unary main_call2.v0 main_call2.v1 (broadcastInDim S10000x1 ![0] bcast_S10000_S10000x1_0),
    StableHlo.TRef.nullary main_call2.cst_0 (constant S_ .f32 0x43000000#32),
    StableHlo.TRef.unary main_call2.cst_0 main_call2.v2 (broadcastInDim S10000x1 ![] bcast_S_S10000x1),
    StableHlo.TRef.binary main_call2.v1 main_call2.v2 main_call2.v3 Host.divf,
    StableHlo.TRef.unary main_call2.v3 main_call2.v4 (broadcastInDim S10000x128 ![0, 1] bcast_S10000x1_S10000x128_0_1),
    StableHlo.TRef.binary (.of main_v49) main_call2.v4 main_call2.v5 subf,
    StableHlo.TRef.binary main_call2.v5 main_call2.v5 main_call2.v6 mulf,
    StableHlo.TRef.unary (.of main_c) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x128_S10000_d1 h_S_),
    StableHlo.TRef.unary main_call2.v9 main_call2.v10 (broadcastInDim S10000x1 ![0] bcast_S10000_S10000x1_0),
    StableHlo.TRef.unary main_call2.v8 main_call2.v11 (broadcastInDim S10000x1 ![] bcast_S_S10000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S10000x1 ![] bcast_S_S10000x1),
    StableHlo.TRef.ternary main_call2.v13 main_call2.v12 main_call2.call0.v1 main_call2.call0.v2 (fun p a b => select (broadcastInDim S10000x1 ![] bcast_S_S10000x1 p) a b) ]

/-- Stretch 6: operations 95 to 111, ending in the value %68. -/
def seg6 : List (HloOp τ sig (Elt F)) :=
  [ StableHlo.unary main_v53 main_v55 (broadcastInDim S10000x128 ![0, 1] bcast_S10000x1_S10000x128_0_1 : (⟨S10000x1, .f32⟩ : BufTy).Contents (Elt F) → (⟨S10000x128, .f32⟩ : BufTy).Contents (Elt F)),
    StableHlo.binary main_v49 main_v55 main_v56 (subf : (⟨S10000x128, .f32⟩ : BufTy).Contents (Elt F) → (⟨S10000x128, .f32⟩ : BufTy).Contents (Elt F) → (⟨S10000x128, .f32⟩ : BufTy).Contents (Elt F)),
    StableHlo.nullary main_cst_11 (constant S_ .f32 0x3727C5AC#32),
    StableHlo.unary main_cst_11 main_v57 (broadcastInDim S10000x1 ![] bcast_S_S10000x1 : (⟨S_, .f32⟩ : BufTy).Contents (Elt F) → (⟨S10000x1, .f32⟩ : BufTy).Contents (Elt F)),
    StableHlo.binary main_v54 main_v57 main_v58 (addf : (⟨S10000x1, .f32⟩ : BufTy).Contents (Elt F) → (⟨S10000x1, .f32⟩ : BufTy).Contents (Elt F) → (⟨S10000x1, .f32⟩ : BufTy).Contents (Elt F)),
    StableHlo.unary main_v58 main_v59 (Host.sqrt : (⟨S10000x1, .f32⟩ : BufTy).Contents (Elt F) → (⟨S10000x1, .f32⟩ : BufTy).Contents (Elt F)),
    StableHlo.unary main_v59 main_v60 (broadcastInDim S10000x128 ![0, 1] bcast_S10000x1_S10000x128_0_1 : (⟨S10000x1, .f32⟩ : BufTy).Contents (Elt F) → (⟨S10000x128, .f32⟩ : BufTy).Contents (Elt F)),
    StableHlo.binary main_v56 main_v60 main_v61 (Host.divf : (⟨S10000x128, .f32⟩ : BufTy).Contents (Elt F) → (⟨S10000x128, .f32⟩ : BufTy).Contents (Elt F) → (⟨S10000x128, .f32⟩ : BufTy).Contents (Elt F)),
    StableHlo.unary main_arg10 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S10000x128 ![0, 1] bcast_S1x128_S10000x128_0_1 : (⟨S1x128, .f32⟩ : BufTy).Contents (Elt F) → (⟨S10000x128, .f32⟩ : BufTy).Contents (Elt F)),
    StableHlo.binary main_v61 main_v63 main_v64 (mulf : (⟨S10000x128, .f32⟩ : BufTy).Contents (Elt F) → (⟨S10000x128, .f32⟩ : BufTy).Contents (Elt F) → (⟨S10000x128, .f32⟩ : BufTy).Contents (Elt F)),
    StableHlo.unary main_arg11 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S10000x128 ![0, 1] bcast_S1x128_S10000x128_0_1 : (⟨S1x128, .f32⟩ : BufTy).Contents (Elt F) → (⟨S10000x128, .f32⟩ : BufTy).Contents (Elt F)),
    StableHlo.binary main_v64 main_v66 main_v67 (addf : (⟨S10000x128, .f32⟩ : BufTy).Contents (Elt F) → (⟨S10000x128, .f32⟩ : BufTy).Contents (Elt F) → (⟨S10000x128, .f32⟩ : BufTy).Contents (Elt F)),
    StableHlo.TRef.nullary main_call3.cst (constant S_ .f32 0x00000000#32),
    StableHlo.TRef.unary main_call3.cst main_call3.v0 (broadcastInDim S10000x128 ![] bcast_S_S10000x128),
    StableHlo.TRef.binary (.of main_v67) main_call3.v0 main_call3.v1 maximumf ]

/-- Stretch 7: operations 112 to 115, ending in the value %72. -/
def seg7 : List (HloOp τ sig (Elt F)) :=
  [ StableHlo.binary main_v68 main_arg12 main_v69 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg13 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S10000x128 ![0, 1] bcast_S1x128_S10000x128_0_1 : (⟨S1x128, .f32⟩ : BufTy).Contents (Elt F) → (⟨S10000x128, .f32⟩ : BufTy).Contents (Elt F)),
    StableHlo.binary main_v69 main_v71 main_v72 (addf : (⟨S10000x128, .f32⟩ : BufTy).Contents (Elt F) → (⟨S10000x128, .f32⟩ : BufTy).Contents (Elt F) → (⟨S10000x128, .f32⟩ : BufTy).Contents (Elt F)) ]

/-- Stretch 8: operations 116 to 145, ending in the value %77. -/
def seg8 : List (HloOp τ sig (Elt F)) :=
  [ StableHlo.nullary main_cst_12 (constant S_ .f32 0x00000000#32),
    StableHlo.binary main_v72 main_cst_12 main_v73 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v73 main_v74 (broadcastInDim S10000x1 ![0] bcast_S10000_S10000x1_0 : (⟨S10000, .f32⟩ : BufTy).Contents (Elt F) → (⟨S10000x1, .f32⟩ : BufTy).Contents (Elt F)),
    StableHlo.nullary main_cst_13 (constant S_ .f32 0x43000000#32),
    StableHlo.unary main_cst_13 main_v75 (broadcastInDim S10000x1 ![] bcast_S_S10000x1 : (⟨S_, .f32⟩ : BufTy).Contents (Elt F) → (⟨S10000x1, .f32⟩ : BufTy).Contents (Elt F)),
    StableHlo.binary main_v74 main_v75 main_v76 (Host.divf : (⟨S10000x1, .f32⟩ : BufTy).Contents (Elt F) → (⟨S10000x1, .f32⟩ : BufTy).Contents (Elt F) → (⟨S10000x1, .f32⟩ : BufTy).Contents (Elt F)),
    StableHlo.nullary main_c_14 (constantI S_ 32 0#32),
    StableHlo.TRef.nullary main_call4.cst (constant S_ .f32 0x00000000#32),
    StableHlo.TRef.binary (.of main_v72) main_call4.cst main_call4.v0 (fun x v => Host.reduceAdd x v reducesTo_S10000x128_S10000_d1 h_S_),
    StableHlo.TRef.unary main_call4.v0 main_call4.v1 (broadcastInDim S10000x1 ![0] bcast_S10000_S10000x1_0),
    StableHlo.TRef.nullary main_call4.cst_0 (constant S_ .f32 0x43000000#32),
    StableHlo.TRef.unary main_call4.cst_0 main_call4.v2 (broadcastInDim S10000x1 ![] bcast_S_S10000x1),
    StableHlo.TRef.binary main_call4.v1 main_call4.v2 main_call4.v3 Host.divf,
    StableHlo.TRef.unary main_call4.v3 main_call4.v4 (broadcastInDim S10000x128 ![0, 1] bcast_S10000x1_S10000x128_0_1),
    StableHlo.TRef.binary (.of main_v72) main_call4.v4 main_call4.v5 subf,
    StableHlo.TRef.binary main_call4.v5 main_call4.v5 main_call4.v6 mulf,
    StableHlo.TRef.unary (.of main_c_14) main_call4.v7 (sitofp .f32),
    StableHlo.TRef.nullary main_call4.cst_1 (constant S_ .f32 0x43000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x128_S10000_d1 h_S_),
    StableHlo.TRef.unary main_call4.v9 main_call4.v10 (broadcastInDim S10000x1 ![0] bcast_S10000_S10000x1_0),
    StableHlo.TRef.unary main_call4.v8 main_call4.v11 (broadcastInDim S10000x1 ![] bcast_S_S10000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S10000x1 ![] bcast_S_S10000x1),
    StableHlo.TRef.ternary main_call4.v13 main_call4.v12 main_call4.call0.v1 main_call4.call0.v2 (fun p a b => select (broadcastInDim S10000x1 ![] bcast_S_S10000x1 p) a b) ]

/-- Stretch 9: operations 146 to 162, ending in the value %91. -/
def seg9 : List (HloOp τ sig (Elt F)) :=
  [ StableHlo.unary main_v76 main_v78 (broadcastInDim S10000x128 ![0, 1] bcast_S10000x1_S10000x128_0_1 : (⟨S10000x1, .f32⟩ : BufTy).Contents (Elt F) → (⟨S10000x128, .f32⟩ : BufTy).Contents (Elt F)),
    StableHlo.binary main_v72 main_v78 main_v79 (subf : (⟨S10000x128, .f32⟩ : BufTy).Contents (Elt F) → (⟨S10000x128, .f32⟩ : BufTy).Contents (Elt F) → (⟨S10000x128, .f32⟩ : BufTy).Contents (Elt F)),
    StableHlo.nullary main_cst_15 (constant S_ .f32 0x3727C5AC#32),
    StableHlo.unary main_cst_15 main_v80 (broadcastInDim S10000x1 ![] bcast_S_S10000x1 : (⟨S_, .f32⟩ : BufTy).Contents (Elt F) → (⟨S10000x1, .f32⟩ : BufTy).Contents (Elt F)),
    StableHlo.binary main_v77 main_v80 main_v81 (addf : (⟨S10000x1, .f32⟩ : BufTy).Contents (Elt F) → (⟨S10000x1, .f32⟩ : BufTy).Contents (Elt F) → (⟨S10000x1, .f32⟩ : BufTy).Contents (Elt F)),
    StableHlo.unary main_v81 main_v82 (Host.sqrt : (⟨S10000x1, .f32⟩ : BufTy).Contents (Elt F) → (⟨S10000x1, .f32⟩ : BufTy).Contents (Elt F)),
    StableHlo.unary main_v82 main_v83 (broadcastInDim S10000x128 ![0, 1] bcast_S10000x1_S10000x128_0_1 : (⟨S10000x1, .f32⟩ : BufTy).Contents (Elt F) → (⟨S10000x128, .f32⟩ : BufTy).Contents (Elt F)),
    StableHlo.binary main_v79 main_v83 main_v84 (Host.divf : (⟨S10000x128, .f32⟩ : BufTy).Contents (Elt F) → (⟨S10000x128, .f32⟩ : BufTy).Contents (Elt F) → (⟨S10000x128, .f32⟩ : BufTy).Contents (Elt F)),
    StableHlo.unary main_arg14 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S10000x128 ![0, 1] bcast_S1x128_S10000x128_0_1 : (⟨S1x128, .f32⟩ : BufTy).Contents (Elt F) → (⟨S10000x128, .f32⟩ : BufTy).Contents (Elt F)),
    StableHlo.binary main_v84 main_v86 main_v87 (mulf : (⟨S10000x128, .f32⟩ : BufTy).Contents (Elt F) → (⟨S10000x128, .f32⟩ : BufTy).Contents (Elt F) → (⟨S10000x128, .f32⟩ : BufTy).Contents (Elt F)),
    StableHlo.unary main_arg15 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S10000x128 ![0, 1] bcast_S1x128_S10000x128_0_1 : (⟨S1x128, .f32⟩ : BufTy).Contents (Elt F) → (⟨S10000x128, .f32⟩ : BufTy).Contents (Elt F)),
    StableHlo.binary main_v87 main_v89 main_v90 (addf : (⟨S10000x128, .f32⟩ : BufTy).Contents (Elt F) → (⟨S10000x128, .f32⟩ : BufTy).Contents (Elt F) → (⟨S10000x128, .f32⟩ : BufTy).Contents (Elt F)),
    StableHlo.TRef.nullary main_call5.cst (constant S_ .f32 0x00000000#32),
    StableHlo.TRef.unary main_call5.cst main_call5.v0 (broadcastInDim S10000x128 ![] bcast_S_S10000x128),
    StableHlo.TRef.binary (.of main_v90) main_call5.v0 main_call5.v1 maximumf ]

/-- Stretch 10: operations 163 to 166, ending in the value %95. -/
def seg10 : List (HloOp τ sig (Elt F)) :=
  [ StableHlo.binary main_v91 main_arg16 main_v92 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg17 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S10000x128 ![0, 1] bcast_S1x128_S10000x128_0_1 : (⟨S1x128, .f32⟩ : BufTy).Contents (Elt F) → (⟨S10000x128, .f32⟩ : BufTy).Contents (Elt F)),
    StableHlo.binary main_v92 main_v94 main_v95 (addf : (⟨S10000x128, .f32⟩ : BufTy).Contents (Elt F) → (⟨S10000x128, .f32⟩ : BufTy).Contents (Elt F) → (⟨S10000x128, .f32⟩ : BufTy).Contents (Elt F)) ]

/-- The first window's operations. -/
def ops0 : List (HloOp τ sig (Elt F)) := seg0 ++ (seg1 ++ (seg2 ++ (seg3 ++ seg4)))
/-- The second window's operations. -/
def ops1 : List (HloOp τ sig (Elt F)) := seg5 ++ (seg6 ++ (seg7 ++ (seg8 ++ (seg9 ++ seg10))))
/-- @main's operations, in order. -/
def ops : List (HloOp τ sig (Elt F)) := ops0 ++ ops1

set_option maxRecDepth 4096 in
/-- The first window is its operations in a line: the outlined functions unfolded at their calls, sequencing reassociated. -/
theorem part0_eq (c : Dev nD) : main_part0 (F := F) c = seq ops0 := by
  simp only [main_part0, fn_relu.body, fn_var.body, fn_where.body, ops0, seg0, seg1, seg2, seg3, seg4, List.cons_append, List.nil_append,
    seq, bind_assoc, pure_bind]
  rfl

set_option maxRecDepth 4096 in
/-- The second window is its operations in a line. -/
theorem part1_eq (c : Dev nD) : main_part1 (F := F) c = seq ops1 := by
  simp only [main_part1, fn_relu.body, fn_var.body, fn_where.body, ops1, seg5, seg6, seg7, seg8, seg9, seg10, List.cons_append, List.nil_append,
    seq, bind_assoc, pure_bind]

/-- @main is its operations in a line. -/
theorem main_eq (c : Dev nD) : main (F := F) c = seq ops := by
  rw [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem seg0_sub : (seg0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem seg1_sub : (seg1 : List (HloOp τ sig (Elt F))).Forall fun op => op.bufs ⊆ tcRefs τ sig :=
  ⟨binary_bufs_sub .., unary_bufs_sub .., unary_bufs_sub .., binary_bufs_sub ..⟩

theorem seg2_sub : (seg2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem seg3_sub : (seg3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem seg4_sub : (seg4 : List (HloOp τ sig (Elt F))).Forall fun op => op.bufs ⊆ tcRefs τ sig :=
  ⟨binary_bufs_sub .., unary_bufs_sub .., unary_bufs_sub .., binary_bufs_sub ..⟩

theorem seg5_sub : (seg5 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem seg6_sub : (seg6 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem seg7_sub : (seg7 : List (HloOp τ sig (Elt F))).Forall fun op => op.bufs ⊆ tcRefs τ sig :=
  ⟨binary_bufs_sub .., unary_bufs_sub .., unary_bufs_sub .., binary_bufs_sub ..⟩

theorem seg8_sub : (seg8 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem seg9_sub : (seg9 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem seg10_sub : (seg10 : List (HloOp τ sig (Elt F))).Forall fun op => op.bufs ⊆ tcRefs τ sig :=
  ⟨binary_bufs_sub .., unary_bufs_sub .., unary_bufs_sub .., binary_bufs_sub ..⟩

end Cert.ReferenceIdeal.RefValue

end
-- ==== Proof.RefRunVal.lean ====
/-
  The reference's operations read stretch by stretch. For each stretch: the buffers it writes, that every other
  buffer keeps its contents through it, and the value it leaves in the buffer(s) later stretches read, as the
  named stage function of the contents it started from. The statements are over an arbitrary valuation, so a
  stretch is read once whatever came before it.
-/
import proofs.«110087_g67448166416678_cont_sun_m_1095_9_alg».proof.Proof.RefFn
import proofs.«110087_g67448166416678_cont_sun_m_1095_9_alg».proof.Proof.RefRunOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The second half of a layer normalisation, from the row means and variances as given columns. -/
def lnTailS (x : FVec F S10000x128 .f32) (mu var : FVec F S10000x1 .f32) (g b : FVec F S128 .f32) : FVec F S10000x128 .f32 :=
  reluS (addf
    (mulf (Host.divf (subf x (colWideS mu))
        (colWideS (Host.sqrt (addf var (colS (constant (F := F) S_ .f32 0x3727C5AC#32))))))
      (biasS g))
    (biasS b))

theorem lnS_eq (x : FVec F S10000x128 .f32) (g b : FVec F S128 .f32) :
    lnS x g b = lnTailS x (meanS x) (varS x) g b := rfl

/-- The buffers stretch 0 writes. -/
abbrev seg0_W : List (Ref sig .tc) := [main_cst, main_v0, main_cst_0, main_v1, main_v2, main_v3, main_v4, main_v5, main_v6, main_v7, main_v8, main_v9]
theorem seg0_writes : (seg0 : List (HloOp τ sig (Elt F))).Forall fun op => op.writes ⊆ (seg0_W.map (Proc.devRef (τ := τ) .tc)).toFinset := by
  simp only [seg0, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 0 does not write keeps its contents through it. -/
theorem seg0_keep (V : Valuation τ sig (Elt F)) (r : Ref sig .tc) (h : r ∉ seg0_W) :
    after seg0 V (Proc.devRef .tc r) = V (Proc.devRef .tc r) :=
  after_of_writes_sub seg0 V seg0_writes h

/-- The buffers stretch 1 writes. -/
abbrev seg1_W : List (Ref sig .tc) := [main_v10, main_v11, main_v12, main_v13]
theorem seg1_writes : (seg1 : List (HloOp τ sig (Elt F))).Forall fun op => op.writes ⊆ (seg1_W.map (Proc.devRef (τ := τ) .tc)).toFinset := by
  simp only [seg1, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 1 does not write keeps its contents through it. -/
theorem seg1_keep (V : Valuation τ sig (Elt F)) (r : Ref sig .tc) (h : r ∉ seg1_W) :
    after seg1 V (Proc.devRef .tc r) = V (Proc.devRef .tc r) :=
  after_of_writes_sub seg1 V seg1_writes h

/-- The buffers stretch 2 writes. -/
abbrev seg2_W : List (Ref sig .tc) := [main_v14, main_cst_1, main_v15, main_v16, main_cst_2, main_v17, main_v18, main_v19, main_v20, main_cst_3, main_v21, main_v22, main_cst_4, main_v23, main_v24, main_v25, main_v26, main_v27, main_v28, main_call0_cst, main_call0_v0, main_v29]
theorem seg2_writes : (seg2 : List (HloOp τ sig (Elt F))).Forall fun op => op.writes ⊆ (seg2_W.map (Proc.devRef (τ := τ) .tc)).toFinset := by
  simp only [seg2, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 2 does not write keeps its contents through it. -/
theorem seg2_keep (V : Valuation τ sig (Elt F)) (r : Ref sig .tc) (h : r ∉ seg2_W) :
    after seg2 V (Proc.devRef .tc r) = V (Proc.devRef .tc r) :=
  after_of_writes_sub seg2 V seg2_writes h

/-- The buffers stretch 3 writes. -/
abbrev seg3_W : List (Ref sig .tc) := [main_v30, main_cst_5, main_v31, main_v32, main_cst_6, main_v33, main_v34, main_v35, main_v36, main_cst_7, main_v37, main_v38, main_cst_8, main_v39, main_v40, main_v41, main_v42, main_v43, main_v44, main_call1_cst, main_call1_v0, main_v45]
theorem seg3_writes : (seg3 : List (HloOp τ sig (Elt F))).Forall fun op => op.writes ⊆ (seg3_W.map (Proc.devRef (τ := τ) .tc)).toFinset := by
  simp only [seg3, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 3 does not write keeps its contents through it. -/
theorem seg3_keep (V : Valuation τ sig (Elt F)) (r : Ref sig .tc) (h : r ∉ seg3_W) :
    after seg3 V (Proc.devRef .tc r) = V (Proc.devRef .tc r) :=
  after_of_writes_sub seg3 V seg3_writes h

/-- The buffers stretch 4 writes. -/
abbrev seg4_W : List (Ref sig .tc) := [main_v46, main_v47, main_v48, main_v49]
theorem seg4_writes : (seg4 : List (HloOp τ sig (Elt F))).Forall fun op => op.writes ⊆ (seg4_W.map (Proc.devRef (τ := τ) .tc)).toFinset := by
  simp only [seg4, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 4 does not write keeps its contents through it. -/
theorem seg4_keep (V : Valuation τ sig (Elt F)) (r : Ref sig .tc) (h : r ∉ seg4_W) :
    after seg4 V (Proc.devRef .tc r) = V (Proc.devRef .tc r) :=
  after_of_writes_sub seg4 V seg4_writes h

/-- The buffers stretch 5 writes. -/
abbrev seg5_W : List (Ref sig .tc) := [main_cst_9, main_v50, main_v51, main_cst_10, main_v52, main_v53, main_c, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v54]
theorem seg5_writes : (seg5 : List (HloOp τ sig (Elt F))).Forall fun op => op.writes ⊆ (seg5_W.map (Proc.devRef (τ := τ) .tc)).toFinset := by
  simp only [seg5, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 5 does not write keeps its contents through it. -/
theorem seg5_keep (V : Valuation τ sig (Elt F)) (r : Ref sig .tc) (h : r ∉ seg5_W) :
    after seg5 V (Proc.devRef .tc r) = V (Proc.devRef .tc r) :=
  after_of_writes_sub seg5 V seg5_writes h

/-- The buffers stretch 6 writes. -/
abbrev seg6_W : List (Ref sig .tc) := [main_v55, main_v56, main_cst_11, main_v57, main_v58, main_v59, main_v60, main_v61, main_v62, main_v63, main_v64, main_v65, main_v66, main_v67, main_call3_cst, main_call3_v0, main_v68]
theorem seg6_writes : (seg6 : List (HloOp τ sig (Elt F))).Forall fun op => op.writes ⊆ (seg6_W.map (Proc.devRef (τ := τ) .tc)).toFinset := by
  simp only [seg6, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 6 does not write keeps its contents through it. -/
theorem seg6_keep (V : Valuation τ sig (Elt F)) (r : Ref sig .tc) (h : r ∉ seg6_W) :
    after seg6 V (Proc.devRef .tc r) = V (Proc.devRef .tc r) :=
  after_of_writes_sub seg6 V seg6_writes h

/-- The buffers stretch 7 writes. -/
abbrev seg7_W : List (Ref sig .tc) := [main_v69, main_v70, main_v71, main_v72]
theorem seg7_writes : (seg7 : List (HloOp τ sig (Elt F))).Forall fun op => op.writes ⊆ (seg7_W.map (Proc.devRef (τ := τ) .tc)).toFinset := by
  simp only [seg7, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 7 does not write keeps its contents through it. -/
theorem seg7_keep (V : Valuation τ sig (Elt F)) (r : Ref sig .tc) (h : r ∉ seg7_W) :
    after seg7 V (Proc.devRef .tc r) = V (Proc.devRef .tc r) :=
  after_of_writes_sub seg7 V seg7_writes h

/-- The buffers stretch 8 writes. -/
abbrev seg8_W : List (Ref sig .tc) := [main_cst_12, main_v73, main_v74, main_cst_13, main_v75, main_v76, main_c_14, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v77]
theorem seg8_writes : (seg8 : List (HloOp τ sig (Elt F))).Forall fun op => op.writes ⊆ (seg8_W.map (Proc.devRef (τ := τ) .tc)).toFinset := by
  simp only [seg8, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 8 does not write keeps its contents through it. -/
theorem seg8_keep (V : Valuation τ sig (Elt F)) (r : Ref sig .tc) (h : r ∉ seg8_W) :
    after seg8 V (Proc.devRef .tc r) = V (Proc.devRef .tc r) :=
  after_of_writes_sub seg8 V seg8_writes h

/-- The buffers stretch 9 writes. -/
abbrev seg9_W : List (Ref sig .tc) := [main_v78, main_v79, main_cst_15, main_v80, main_v81, main_v82, main_v83, main_v84, main_v85, main_v86, main_v87, main_v88, main_v89, main_v90, main_call5_cst, main_call5_v0, main_v91]
theorem seg9_writes : (seg9 : List (HloOp τ sig (Elt F))).Forall fun op => op.writes ⊆ (seg9_W.map (Proc.devRef (τ := τ) .tc)).toFinset := by
  simp only [seg9, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 9 does not write keeps its contents through it. -/
theorem seg9_keep (V : Valuation τ sig (Elt F)) (r : Ref sig .tc) (h : r ∉ seg9_W) :
    after seg9 V (Proc.devRef .tc r) = V (Proc.devRef .tc r) :=
  after_of_writes_sub seg9 V seg9_writes h

/-- The buffers stretch 10 writes. -/
abbrev seg10_W : List (Ref sig .tc) := [main_v92, main_v93, main_v94, main_v95]
theorem seg10_writes : (seg10 : List (HloOp τ sig (Elt F))).Forall fun op => op.writes ⊆ (seg10_W.map (Proc.devRef (τ := τ) .tc)).toFinset := by
  simp only [seg10, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 10 does not write keeps its contents through it. -/
theorem seg10_keep (V : Valuation τ sig (Elt F)) (r : Ref sig .tc) (h : r ∉ seg10_W) :
    after seg10 V (Proc.devRef .tc r) = V (Proc.devRef .tc r) :=
  after_of_writes_sub seg10 V seg10_writes h

set_option maxHeartbeats 1200000 in
/-- Stretch 0 leaves in `main_v9` the stage function of what it read. -/
theorem seg0_v9 (V : Valuation τ sig (Elt F)) :
    after seg0 V (Proc.devRef .tc main_v9) = anormS (V (Proc.devRef .tc main_arg1)) := by
  simp only [seg0]
  after_results_simp
  rfl

/-- Stretch 1 leaves in `main_v13` the stage function of what it read. -/
theorem seg1_v13 (V : Valuation τ sig (Elt F)) :
    after seg1 V (Proc.devRef .tc main_v13) = embedS (V (Proc.devRef .tc main_arg0)) (V (Proc.devRef .tc main_arg2)) (V (Proc.devRef .tc main_arg3)) := by
  simp only [seg1]
  after_results_simp
  rfl

set_option maxHeartbeats 2000000 in
/-- Stretch 2 leaves in `main_v29` the stage function of what it read. -/
theorem seg2_v29 (V : Valuation τ sig (Elt F)) :
    after seg2 V (Proc.devRef .tc main_v29) = layerS 0x3F317218#32 0x3E9D1BD0#32 (V (Proc.devRef .tc main_v9)) (V (Proc.devRef .tc main_v13)) (V (Proc.devRef .tc main_v13)) (V (Proc.devRef .tc main_arg4)) (V (Proc.devRef .tc main_arg5)) := by
  simp only [seg2]
  after_results_simp
  simp only [TRef.toBuf, TRef.ofBuf, cast_eq, id]
  rfl

set_option maxHeartbeats 2000000 in
/-- Stretch 3 leaves in `main_v45` the stage function of what it read. -/
theorem seg3_v45 (V : Valuation τ sig (Elt F)) :
    after seg3 V (Proc.devRef .tc main_v45) = layerS 0x3ECF991F#32 0x3F183370#32 (V (Proc.devRef .tc main_v9)) (V (Proc.devRef .tc main_v29)) (V (Proc.devRef .tc main_v13)) (V (Proc.devRef .tc main_arg6)) (V (Proc.devRef .tc main_arg7)) := by
  simp only [seg3]
  after_results_simp
  simp only [TRef.toBuf, TRef.ofBuf, cast_eq, id]
  rfl

/-- Stretch 4 leaves in `main_v49` the stage function of what it read. -/
theorem seg4_v49 (V : Valuation τ sig (Elt F)) :
    after seg4 V (Proc.devRef .tc main_v49) = denseS (V (Proc.devRef .tc main_v45)) (V (Proc.devRef .tc main_arg8)) (V (Proc.devRef .tc main_arg9)) := by
  simp only [seg4]
  after_results_simp
  rfl

set_option maxHeartbeats 2000000 in
/-- Stretch 5 leaves in `main_v53` the stage function of what it read. -/
theorem seg5_v53 (V : Valuation τ sig (Elt F)) :
    after seg5 V (Proc.devRef .tc main_v53) = meanS (V (Proc.devRef .tc main_v49)) := by
  simp only [seg5]
  after_results_simp
  rfl

set_option maxHeartbeats 2000000 in
/-- Stretch 5 leaves in `main_v54` the stage function of what it read. -/
theorem seg5_v54 (V : Valuation τ sig (Elt F)) :
    after seg5 V (Proc.devRef .tc main_v54) = varS (V (Proc.devRef .tc main_v49)) := by
  simp only [seg5]
  after_results_simp
  simp only [TRef.toBuf, TRef.ofBuf, cast_eq, id]
  rfl

set_option maxHeartbeats 1700000 in
/-- Stretch 6 leaves in `main_v68` the stage function of what it read. -/
theorem seg6_v68 (V : Valuation τ sig (Elt F)) :
    after seg6 V (Proc.devRef .tc main_v68) = lnTailS (V (Proc.devRef .tc main_v49)) (V (Proc.devRef .tc main_v53)) (V (Proc.devRef .tc main_v54)) (V (Proc.devRef .tc main_arg10)) (V (Proc.devRef .tc main_arg11)) := by
  simp only [seg6]
  after_results_simp
  simp only [TRef.toBuf, TRef.ofBuf, cast_eq, id]
  rfl

/-- Stretch 7 leaves in `main_v72` the stage function of what it read. -/
theorem seg7_v72 (V : Valuation τ sig (Elt F)) :
    after seg7 V (Proc.devRef .tc main_v72) = denseS (V (Proc.devRef .tc main_v68)) (V (Proc.devRef .tc main_arg12)) (V (Proc.devRef .tc main_arg13)) := by
  simp only [seg7]
  after_results_simp
  rfl

set_option maxHeartbeats 2000000 in
/-- Stretch 8 leaves in `main_v76` the stage function of what it read. -/
theorem seg8_v76 (V : Valuation τ sig (Elt F)) :
    after seg8 V (Proc.devRef .tc main_v76) = meanS (V (Proc.devRef .tc main_v72)) := by
  simp only [seg8]
  after_results_simp
  rfl

set_option maxHeartbeats 2000000 in
/-- Stretch 8 leaves in `main_v77` the stage function of what it read. -/
theorem seg8_v77 (V : Valuation τ sig (Elt F)) :
    after seg8 V (Proc.devRef .tc main_v77) = varS (V (Proc.devRef .tc main_v72)) := by
  simp only [seg8]
  after_results_simp
  simp only [TRef.toBuf, TRef.ofBuf, cast_eq, id]
  rfl

set_option maxHeartbeats 1700000 in
/-- Stretch 9 leaves in `main_v91` the stage function of what it read. -/
theorem seg9_v91 (V : Valuation τ sig (Elt F)) :
    after seg9 V (Proc.devRef .tc main_v91) = lnTailS (V (Proc.devRef .tc main_v72)) (V (Proc.devRef .tc main_v76)) (V (Proc.devRef .tc main_v77)) (V (Proc.devRef .tc main_arg14)) (V (Proc.devRef .tc main_arg15)) := by
  simp only [seg9]
  after_results_simp
  simp only [TRef.toBuf, TRef.ofBuf, cast_eq, id]
  rfl

/-- Stretch 10 leaves in `main_v95` the stage function of what it read. -/
theorem seg10_v95 (V : Valuation τ sig (Elt F)) :
    after seg10 V (Proc.devRef .tc main_v95) = denseS (V (Proc.devRef .tc main_v91)) (V (Proc.devRef .tc main_arg16)) (V (Proc.devRef .tc main_arg17)) := by
  simp only [seg10]
  after_results_simp
  rfl

end Cert.ReferenceIdeal.RefValue

end
-- ==== Proof.RefRun.lean ====
/-
  The reference's run read back: the stretches joined, every weakly fair execution of @main terminates with its
  result buffer at the composed stage functions of the argument arrays, the arguments unchanged.
-/
import proofs.«110087_g67448166416678_cont_sun_m_1095_9_alg».proof.Proof.RefRunVal
import Idealize.ShloMosaic.Lib.Pipeline.Frame

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- @main's argument buffers. -/
abbrev argsL : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- The device's buffer contents before the first stretch. -/
def val0 (V0 : Valuation τ sig (Elt F)) : Valuation τ sig (Elt F) := V0
theorem val0_arg (V0 : Valuation τ sig (Elt F)) (r : Ref sig .tc) (_ : r ∈ argsL) :
    val0 V0 (Proc.devRef .tc r) = V0 (Proc.devRef .tc r) := rfl

/-- The device's buffer contents after the first 1 stretch. -/
def val1 (V0 : Valuation τ sig (Elt F)) : Valuation τ sig (Elt F) := after seg0 (val0 V0)
/-- No stretch writes an argument buffer. -/
theorem val1_arg (V0 : Valuation τ sig (Elt F)) (r : Ref sig .tc) (hr : r ∈ argsL) :
    val1 V0 (Proc.devRef .tc r) = V0 (Proc.devRef .tc r) :=
  (seg0_keep (val0 V0) r ((by decide : ∀ r ∈ argsL, r ∉ seg0_W) r hr)).trans (val0_arg V0 r hr)

/-- The device's buffer contents after the first 2 stretches. -/
def val2 (V0 : Valuation τ sig (Elt F)) : Valuation τ sig (Elt F) := after seg1 (val1 V0)
/-- No stretch writes an argument buffer. -/
theorem val2_arg (V0 : Valuation τ sig (Elt F)) (r : Ref sig .tc) (hr : r ∈ argsL) :
    val2 V0 (Proc.devRef .tc r) = V0 (Proc.devRef .tc r) :=
  (seg1_keep (val1 V0) r ((by decide : ∀ r ∈ argsL, r ∉ seg1_W) r hr)).trans (val1_arg V0 r hr)

/-- The device's buffer contents after the first 3 stretches. -/
def val3 (V0 : Valuation τ sig (Elt F)) : Valuation τ sig (Elt F) := after seg2 (val2 V0)
/-- No stretch writes an argument buffer. -/
theorem val3_arg (V0 : Valuation τ sig (Elt F)) (r : Ref sig .tc) (hr : r ∈ argsL) :
    val3 V0 (Proc.devRef .tc r) = V0 (Proc.devRef .tc r) :=
  (seg2_keep (val2 V0) r ((by decide : ∀ r ∈ argsL, r ∉ seg2_W) r hr)).trans (val2_arg V0 r hr)

/-- The device's buffer contents after the first 4 stretches. -/
def val4 (V0 : Valuation τ sig (Elt F)) : Valuation τ sig (Elt F) := after seg3 (val3 V0)
/-- No stretch writes an argument buffer. -/
theorem val4_arg (V0 : Valuation τ sig (Elt F)) (r : Ref sig .tc) (hr : r ∈ argsL) :
    val4 V0 (Proc.devRef .tc r) = V0 (Proc.devRef .tc r) :=
  (seg3_keep (val3 V0) r ((by decide : ∀ r ∈ argsL, r ∉ seg3_W) r hr)).trans (val3_arg V0 r hr)

/-- The device's buffer contents after the first 5 stretches. -/
def val5 (V0 : Valuation τ sig (Elt F)) : Valuation τ sig (Elt F) := after seg4 (val4 V0)
/-- No stretch writes an argument buffer. -/
theorem val5_arg (V0 : Valuation τ sig (Elt F)) (r : Ref sig .tc) (hr : r ∈ argsL) :
    val5 V0 (Proc.devRef .tc r) = V0 (Proc.devRef .tc r) :=
  (seg4_keep (val4 V0) r ((by decide : ∀ r ∈ argsL, r ∉ seg4_W) r hr)).trans (val4_arg V0 r hr)

/-- The device's buffer contents after the first 6 stretches. -/
def val6 (V0 : Valuation τ sig (Elt F)) : Valuation τ sig (Elt F) := after seg5 (val5 V0)
/-- No stretch writes an argument buffer. -/
theorem val6_arg (V0 : Valuation τ sig (Elt F)) (r : Ref sig .tc) (hr : r ∈ argsL) :
    val6 V0 (Proc.devRef .tc r) = V0 (Proc.devRef .tc r) :=
  (seg5_keep (val5 V0) r ((by decide : ∀ r ∈ argsL, r ∉ seg5_W) r hr)).trans (val5_arg V0 r hr)

/-- The device's buffer contents after the first 7 stretches. -/
def val7 (V0 : Valuation τ sig (Elt F)) : Valuation τ sig (Elt F) := after seg6 (val6 V0)
/-- No stretch writes an argument buffer. -/
theorem val7_arg (V0 : Valuation τ sig (Elt F)) (r : Ref sig .tc) (hr : r ∈ argsL) :
    val7 V0 (Proc.devRef .tc r) = V0 (Proc.devRef .tc r) :=
  (seg6_keep (val6 V0) r ((by decide : ∀ r ∈ argsL, r ∉ seg6_W) r hr)).trans (val6_arg V0 r hr)

/-- The device's buffer contents after the first 8 stretches. -/
def val8 (V0 : Valuation τ sig (Elt F)) : Valuation τ sig (Elt F) := after seg7 (val7 V0)
/-- No stretch writes an argument buffer. -/
theorem val8_arg (V0 : Valuation τ sig (Elt F)) (r : Ref sig .tc) (hr : r ∈ argsL) :
    val8 V0 (Proc.devRef .tc r) = V0 (Proc.devRef .tc r) :=
  (seg7_keep (val7 V0) r ((by decide : ∀ r ∈ argsL, r ∉ seg7_W) r hr)).trans (val7_arg V0 r hr)

/-- The device's buffer contents after the first 9 stretches. -/
def val9 (V0 : Valuation τ sig (Elt F)) : Valuation τ sig (Elt F) := after seg8 (val8 V0)
/-- No stretch writes an argument buffer. -/
theorem val9_arg (V0 : Valuation τ sig (Elt F)) (r : Ref sig .tc) (hr : r ∈ argsL) :
    val9 V0 (Proc.devRef .tc r) = V0 (Proc.devRef .tc r) :=
  (seg8_keep (val8 V0) r ((by decide : ∀ r ∈ argsL, r ∉ seg8_W) r hr)).trans (val8_arg V0 r hr)

/-- The device's buffer contents after the first 10 stretches. -/
def val10 (V0 : Valuation τ sig (Elt F)) : Valuation τ sig (Elt F) := after seg9 (val9 V0)
/-- No stretch writes an argument buffer. -/
theorem val10_arg (V0 : Valuation τ sig (Elt F)) (r : Ref sig .tc) (hr : r ∈ argsL) :
    val10 V0 (Proc.devRef .tc r) = V0 (Proc.devRef .tc r) :=
  (seg9_keep (val9 V0) r ((by decide : ∀ r ∈ argsL, r ∉ seg9_W) r hr)).trans (val9_arg V0 r hr)

/-- The device's buffer contents after the first 11 stretches. -/
def val11 (V0 : Valuation τ sig (Elt F)) : Valuation τ sig (Elt F) := after seg10 (val10 V0)
/-- No stretch writes an argument buffer. -/
theorem val11_arg (V0 : Valuation τ sig (Elt F)) (r : Ref sig .tc) (hr : r ∈ argsL) :
    val11 V0 (Proc.devRef .tc r) = V0 (Proc.devRef .tc r) :=
  (seg10_keep (val10 V0) r ((by decide : ∀ r ∈ argsL, r ∉ seg10_W) r hr)).trans (val10_arg V0 r hr)

theorem val1_v9 (V0 : Valuation τ sig (Elt F)) :
    val1 V0 (Proc.devRef .tc main_v9) = anormS (V0 (Proc.devRef .tc main_arg1)) := by
  rw [val1, seg0_v9, val0_arg V0 main_arg1 (by decide)]

theorem val2_v9 (V0 : Valuation τ sig (Elt F)) :
    val2 V0 (Proc.devRef .tc main_v9) = anormS (V0 (Proc.devRef .tc main_arg1)) :=
  (seg1_keep (val1 V0) main_v9 (by decide)).trans (val1_v9 V0)

theorem val2_v13 (V0 : Valuation τ sig (Elt F)) :
    val2 V0 (Proc.devRef .tc main_v13) = embedS (V0 (Proc.devRef .tc main_arg0)) (V0 (Proc.devRef .tc main_arg2)) (V0 (Proc.devRef .tc main_arg3)) := by
  rw [val2, seg1_v13, val1_arg V0 main_arg0 (by decide), val1_arg V0 main_arg2 (by decide), val1_arg V0 main_arg3 (by decide)]

theorem val3_v9 (V0 : Valuation τ sig (Elt F)) :
    val3 V0 (Proc.devRef .tc main_v9) = anormS (V0 (Proc.devRef .tc main_arg1)) :=
  (seg2_keep (val2 V0) main_v9 (by decide)).trans (val2_v9 V0)

theorem val3_v13 (V0 : Valuation τ sig (Elt F)) :
    val3 V0 (Proc.devRef .tc main_v13) = embedS (V0 (Proc.devRef .tc main_arg0)) (V0 (Proc.devRef .tc main_arg2)) (V0 (Proc.devRef .tc main_arg3)) :=
  (seg2_keep (val2 V0) main_v13 (by decide)).trans (val2_v13 V0)

theorem val3_v29 (V0 : Valuation τ sig (Elt F)) :
    val3 V0 (Proc.devRef .tc main_v29) = layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5)) := by
  rw [val3, seg2_v29, val2_v9, val2_v13, val2_arg V0 main_arg4 (by decide), val2_arg V0 main_arg5 (by decide)]

theorem val4_v45 (V0 : Valuation τ sig (Elt F)) :
    val4 V0 (Proc.devRef .tc main_v45) = layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7)) := by
  rw [val4, seg3_v45, val3_v9, val3_v29, val3_v13, val3_arg V0 main_arg6 (by decide), val3_arg V0 main_arg7 (by decide)]

theorem val5_v49 (V0 : Valuation τ sig (Elt F)) :
    val5 V0 (Proc.devRef .tc main_v49) = denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9)) := by
  rw [val5, seg4_v49, val4_v45, val4_arg V0 main_arg8 (by decide), val4_arg V0 main_arg9 (by decide)]

theorem val6_v49 (V0 : Valuation τ sig (Elt F)) :
    val6 V0 (Proc.devRef .tc main_v49) = denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9)) :=
  (seg5_keep (val5 V0) main_v49 (by decide)).trans (val5_v49 V0)

theorem val6_v53 (V0 : Valuation τ sig (Elt F)) :
    val6 V0 (Proc.devRef .tc main_v53) = meanS (denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9))) := by
  rw [val6, seg5_v53, val5_v49]

theorem val6_v54 (V0 : Valuation τ sig (Elt F)) :
    val6 V0 (Proc.devRef .tc main_v54) = varS (denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9))) := by
  rw [val6, seg5_v54, val5_v49]

theorem val7_v68 (V0 : Valuation τ sig (Elt F)) :
    val7 V0 (Proc.devRef .tc main_v68) = lnS (denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11)) := by
  rw [val7, seg6_v68, val6_v49, val6_v53, val6_v54, val6_arg V0 main_arg10 (by decide), val6_arg V0 main_arg11 (by decide), ← lnS_eq]

theorem val8_v72 (V0 : Valuation τ sig (Elt F)) :
    val8 V0 (Proc.devRef .tc main_v72) = denseS (lnS (denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11))) (V0 (Proc.devRef .tc main_arg12)) (V0 (Proc.devRef .tc main_arg13)) := by
  rw [val8, seg7_v72, val7_v68, val7_arg V0 main_arg12 (by decide), val7_arg V0 main_arg13 (by decide)]

theorem val9_v72 (V0 : Valuation τ sig (Elt F)) :
    val9 V0 (Proc.devRef .tc main_v72) = denseS (lnS (denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11))) (V0 (Proc.devRef .tc main_arg12)) (V0 (Proc.devRef .tc main_arg13)) :=
  (seg8_keep (val8 V0) main_v72 (by decide)).trans (val8_v72 V0)

theorem val9_v76 (V0 : Valuation τ sig (Elt F)) :
    val9 V0 (Proc.devRef .tc main_v76) = meanS (denseS (lnS (denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11))) (V0 (Proc.devRef .tc main_arg12)) (V0 (Proc.devRef .tc main_arg13))) := by
  rw [val9, seg8_v76, val8_v72]

theorem val9_v77 (V0 : Valuation τ sig (Elt F)) :
    val9 V0 (Proc.devRef .tc main_v77) = varS (denseS (lnS (denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11))) (V0 (Proc.devRef .tc main_arg12)) (V0 (Proc.devRef .tc main_arg13))) := by
  rw [val9, seg8_v77, val8_v72]

theorem val10_v91 (V0 : Valuation τ sig (Elt F)) :
    val10 V0 (Proc.devRef .tc main_v91) = lnS (denseS (lnS (denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11))) (V0 (Proc.devRef .tc main_arg12)) (V0 (Proc.devRef .tc main_arg13))) (V0 (Proc.devRef .tc main_arg14)) (V0 (Proc.devRef .tc main_arg15)) := by
  rw [val10, seg9_v91, val9_v72, val9_v76, val9_v77, val9_arg V0 main_arg14 (by decide), val9_arg V0 main_arg15 (by decide), ← lnS_eq]

theorem val11_v95 (V0 : Valuation τ sig (Elt F)) :
    val11 V0 (Proc.devRef .tc main_v95) = denseS (lnS (denseS (lnS (denseS (layerS 0x3ECF991F#32 0x3F183370#32 (anormS (V0 (Proc.devRef .tc main_arg1))) (layerS 0x3F317218#32 0x3E9D1BD0#32 (anormS (V0 (Proc.devRef .tc main_arg1))) (embedS (V0 (Proc.devRef .tc main_arg0)) (V0 (Proc.devRef .tc main_arg2)) (V0 (Proc.devRef .tc main_arg3))) (embedS (V0 (Proc.devRef .tc main_arg0)) (V0 (Proc.devRef .tc main_arg2)) (V0 (Proc.devRef .tc main_arg3))) (V0 (Proc.devRef .tc main_arg4)) (V0 (Proc.devRef .tc main_arg5))) (embedS (V0 (Proc.devRef .tc main_arg0)) (V0 (Proc.devRef .tc main_arg2)) (V0 (Proc.devRef .tc main_arg3))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11))) (V0 (Proc.devRef .tc main_arg12)) (V0 (Proc.devRef .tc main_arg13))) (V0 (Proc.devRef .tc main_arg14)) (V0 (Proc.devRef .tc main_arg15))) (V0 (Proc.devRef .tc main_arg16)) (V0 (Proc.devRef .tc main_arg17)) := by
  rw [val11, seg10_v95, val10_v91, val10_arg V0 main_arg16 (by decide), val10_arg V0 main_arg17 (by decide)]

/-- The operations' fold is the stretches' folds one after the other. -/
theorem after_ops (V0 : Valuation τ sig (Elt F)) : after ops V0 = val11 V0 := by
  simp only [ops, ops0, ops1, StableHlo.after_append]
  rfl

/-- After all the operations the result buffer holds the reference function of the arguments' contents. -/
theorem ops_out (V0 : Valuation τ sig (Elt F)) :
    after ops V0 (Proc.devRef .tc main_v95) = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  rw [after_ops, val11_v95]
  rfl

/-- After all the operations each argument buffer holds what it held. -/
theorem ops_arg (V0 : Valuation τ sig (Elt F)) (r : Ref sig .tc) (hr : r ∈ argsL) :
    after ops V0 (Proc.devRef .tc r) = V0 (Proc.devRef .tc r) := by
  rw [after_ops, val11_arg V0 r hr]

/-- Every operation's buffers are TensorCore buffers. -/
theorem ops_sub : (ops : List (HloOp τ sig (Elt F))).Forall fun op => op.bufs ⊆ tcRefs τ sig := by
  simp only [ops, ops0, ops1, List.forall_append]
  exact ⟨⟨seg0_sub, seg1_sub, seg2_sub, seg3_sub, seg4_sub⟩, seg5_sub, seg6_sub, seg7_sub, seg8_sub, seg9_sub, seg10_sub⟩

theorem seg0_fresh : ∀ op ∈ (seg0 : List (HloOp τ sig (Elt F))), op.fresh = ∅ := by
  intro _ h
  simp only [seg0] at h
  (repeat (cases h with | head => rfl | tail _ h => ?_))
  exact nomatch h

theorem seg1_fresh : ∀ op ∈ (seg1 : List (HloOp τ sig (Elt F))), op.fresh = ∅ := by
  intro _ h
  simp only [seg1] at h
  (repeat (cases h with | head => rfl | tail _ h => ?_))
  exact nomatch h

theorem seg2_fresh : ∀ op ∈ (seg2 : List (HloOp τ sig (Elt F))), op.fresh = ∅ := by
  intro _ h
  simp only [seg2] at h
  (repeat (cases h with | head => rfl | tail _ h => ?_))
  exact nomatch h

theorem seg3_fresh : ∀ op ∈ (seg3 : List (HloOp τ sig (Elt F))), op.fresh = ∅ := by
  intro _ h
  simp only [seg3] at h
  (repeat (cases h with | head => rfl | tail _ h => ?_))
  exact nomatch h

theorem seg4_fresh : ∀ op ∈ (seg4 : List (HloOp τ sig (Elt F))), op.fresh = ∅ := by
  intro _ h
  simp only [seg4] at h
  (repeat (cases h with | head => rfl | tail _ h => ?_))
  exact nomatch h

theorem seg5_fresh : ∀ op ∈ (seg5 : List (HloOp τ sig (Elt F))), op.fresh = ∅ := by
  intro _ h
  simp only [seg5] at h
  (repeat (cases h with | head => rfl | tail _ h => ?_))
  exact nomatch h

theorem seg6_fresh : ∀ op ∈ (seg6 : List (HloOp τ sig (Elt F))), op.fresh = ∅ := by
  intro _ h
  simp only [seg6] at h
  (repeat (cases h with | head => rfl | tail _ h => ?_))
  exact nomatch h

theorem seg7_fresh : ∀ op ∈ (seg7 : List (HloOp τ sig (Elt F))), op.fresh = ∅ := by
  intro _ h
  simp only [seg7] at h
  (repeat (cases h with | head => rfl | tail _ h => ?_))
  exact nomatch h

theorem seg8_fresh : ∀ op ∈ (seg8 : List (HloOp τ sig (Elt F))), op.fresh = ∅ := by
  intro _ h
  simp only [seg8] at h
  (repeat (cases h with | head => rfl | tail _ h => ?_))
  exact nomatch h

theorem seg9_fresh : ∀ op ∈ (seg9 : List (HloOp τ sig (Elt F))), op.fresh = ∅ := by
  intro _ h
  simp only [seg9] at h
  (repeat (cases h with | head => rfl | tail _ h => ?_))
  exact nomatch h

theorem seg10_fresh : ∀ op ∈ (seg10 : List (HloOp τ sig (Elt F))), op.fresh = ∅ := by
  intro _ h
  simp only [seg10] at h
  (repeat (cases h with | head => rfl | tail _ h => ?_))
  exact nomatch h

/-- Every operation determines its results. -/
theorem ops_fresh : ∀ op ∈ (ops : List (HloOp τ sig (Elt F))), op.fresh = ∅ := by
  intro op h
  simp only [ops, ops0, ops1, List.mem_append] at h
  rcases h with (h | h | h | h | h) | (h | h | h | h | h | h)
  · exact seg0_fresh op h
  · exact seg1_fresh op h
  · exact seg2_fresh op h
  · exact seg3_fresh op h
  · exact seg4_fresh op h
  · exact seg5_fresh op h
  · exact seg6_fresh op h
  · exact seg7_fresh op h
  · exact seg8_fresh op h
  · exact seg9_fresh op h
  · exact seg10_fresh op h

/-- On every device, for any float values, from any memory with zero counters: every weakly fair execution of
    @main terminates with its result at the reference function of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v95) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v95).trans (ops_out _),
      (h c main_arg0).trans (ops_arg _ main_arg0 (by decide)),
      (h c main_arg1).trans (ops_arg _ main_arg1 (by decide)),
      (h c main_arg2).trans (ops_arg _ main_arg2 (by decide)),
      (h c main_arg3).trans (ops_arg _ main_arg3 (by decide)),
      (h c main_arg4).trans (ops_arg _ main_arg4 (by decide)),
      (h c main_arg5).trans (ops_arg _ main_arg5 (by decide)),
      (h c main_arg6).trans (ops_arg _ main_arg6 (by decide)),
      (h c main_arg7).trans (ops_arg _ main_arg7 (by decide)),
      (h c main_arg8).trans (ops_arg _ main_arg8 (by decide)),
      (h c main_arg9).trans (ops_arg _ main_arg9 (by decide)),
      (h c main_arg10).trans (ops_arg _ main_arg10 (by decide)),
      (h c main_arg11).trans (ops_arg _ main_arg11 (by decide)),
      (h c main_arg12).trans (ops_arg _ main_arg12 (by decide)),
      (h c main_arg13).trans (ops_arg _ main_arg13 (by decide)),
      (h c main_arg14).trans (ops_arg _ main_arg14 (by decide)),
      (h c main_arg15).trans (ops_arg _ main_arg15 (by decide)),
      (h c main_arg16).trans (ops_arg _ main_arg16 (by decide)),
      (h c main_arg17).trans (ops_arg _ main_arg17 (by decide))⟩)
    (run_seq scopedRefs_eq scopedSems_eq defs main (fun _ => ops) main_eq (fun _ => ops_sub) m ρ (fun _ => ops_fresh))

end Cert.ReferenceIdeal.RefValue

end
-- ==== Proof.RefReadOps.lean ====
/-
  The reference's non-pointwise operations read at an index, over VARIABLE arrays of the literal shapes:
  a broadcast reads its operand at the kept coordinates, a row sum is the sum over the columns, and a
  matrix product with one contracted axis is the sum over that axis of the operands' products.
  The one float literal whose sign is needed, the row width 128, is evaluated here once.
-/
import proofs.«110087_g67448166416678_cont_sun_m_1095_9_alg».proof.ReferenceIdeal
import proofs.«110087_g67448166416678_cont_sun_m_1095_9_alg».proof.Proof.Spec
import Idealize.ShloMosaic.Lib.IdealHost
import Idealize.ShloMosaic.Lib.Pipeline.Value

noncomputable section

namespace Cert.ReferenceIdeal.RefRead

open Idealize.ShloMosaic Idealize.ShloMosaic.ValueIdx
open Cert.ReferenceIdeal Cert.ReferenceIdeal.Facts₀ Cert.ReferenceIdeal.Facts

variable [Facts]

/-! ## The row width -/

/-- The word `0x43000000` denotes the real number 128. -/
theorem c128_eq : Ideal.ofBits .f32 0x43000000#32 = ((128 : ℝ) : EReal) := by
  simp [Ideal.ofBits, Ideal.ieee, -EReal.coe_mul]; norm_num

/-- The row width is positive. -/
theorem c128_pos : (0 : EReal) < Ideal.ofBits .f32 0x43000000#32 := by
  rw [c128_eq]; exact_mod_cast (by norm_num : (0 : ℝ) < 128)

/-! ## Broadcasts -/

section Broadcasts
variable {α : Type}

/-- A vector of 10000 entries laid out as a column. -/
theorem bcast_col_apply (x : S10000.Idx → α) (i : Fin 10000) (z : Fin 1) :
    broadcastInDim S10000x1 ![0] bcast_S10000_S10000x1_0 x (ix2 i z) = x (ix1 i) :=
  broadcastInDim_apply _ bcast_S10000_S10000x1_0 x (ix2 i z) (ix1 i)
    (fun a => match a with
      | ⟨0, _⟩ => by show i.val = if (10000 : Nat) = 1 then 0 else i.val; rw [if_neg (by decide)])

/-- A column repeated along 10000 columns. -/
theorem bcast_col_wide_apply (x : S10000x1.Idx → α) (i j : Fin 10000) :
    broadcastInDim S10000x10000 ![0, 1] bcast_S10000x1_S10000x10000_0_1 x (ix2 i j) = x (ix2 i (0 : Fin 1)) :=
  broadcastInDim_apply _ bcast_S10000x1_S10000x10000_0_1 x (ix2 i j) (ix2 i (0 : Fin 1))
    (fun a => match a with
      | ⟨0, _⟩ => by show i.val = if (10000 : Nat) = 1 then 0 else i.val; rw [if_neg (by decide)]
      | ⟨1, _⟩ => by show (0 : Nat) = if (1 : Nat) = 1 then 0 else j.val; rw [if_pos rfl])

/-- A vector of 10000 entries laid out as a row. -/
theorem bcast_row_apply (x : S10000.Idx → α) (z : Fin 1) (j : Fin 10000) :
    broadcastInDim S1x10000 ![1] bcast_S10000_S1x10000_1 x (ix2 z j) = x (ix1 j) :=
  broadcastInDim_apply _ bcast_S10000_S1x10000_1 x (ix2 z j) (ix1 j)
    (fun a => match a with
      | ⟨0, _⟩ => by show j.val = if (10000 : Nat) = 1 then 0 else j.val; rw [if_neg (by decide)])

/-- A row repeated along 10000 rows. -/
theorem bcast_row_tall_apply (x : S1x10000.Idx → α) (i j : Fin 10000) :
    broadcastInDim S10000x10000 ![0, 1] bcast_S1x10000_S10000x10000_0_1 x (ix2 i j) = x (ix2 (0 : Fin 1) j) :=
  broadcastInDim_apply _ bcast_S1x10000_S10000x10000_0_1 x (ix2 i j) (ix2 (0 : Fin 1) j)
    (fun a => match a with
      | ⟨0, _⟩ => by show (0 : Nat) = if (1 : Nat) = 1 then 0 else i.val; rw [if_pos rfl]
      | ⟨1, _⟩ => by show j.val = if (10000 : Nat) = 1 then 0 else j.val; rw [if_neg (by decide)])

/-- A feature vector laid out as a row. -/
theorem bcast_feat_row_apply (x : S128.Idx → α) (z : Fin 1) (c : Fin 128) :
    broadcastInDim S1x128 ![1] bcast_S128_S1x128_1 x (ix2 z c) = x (ix1 c) :=
  broadcastInDim_apply _ bcast_S128_S1x128_1 x (ix2 z c) (ix1 c)
    (fun a => match a with
      | ⟨0, _⟩ => by show c.val = if (128 : Nat) = 1 then 0 else c.val; rw [if_neg (by decide)])

/-- A feature row repeated along the 10000 rows. -/
theorem bcast_feat_tall_apply (x : S1x128.Idx → α) (i : Fin 10000) (c : Fin 128) :
    broadcastInDim S10000x128 ![0, 1] bcast_S1x128_S10000x128_0_1 x (ix2 i c) = x (ix2 (0 : Fin 1) c) :=
  broadcastInDim_apply _ bcast_S1x128_S10000x128_0_1 x (ix2 i c) (ix2 (0 : Fin 1) c)
    (fun a => match a with
      | ⟨0, _⟩ => by show (0 : Nat) = if (1 : Nat) = 1 then 0 else i.val; rw [if_pos rfl]
      | ⟨1, _⟩ => by show c.val = if (128 : Nat) = 1 then 0 else c.val; rw [if_neg (by decide)])

/-- A column repeated along the 128 features. -/
theorem bcast_col_feat_apply (x : S10000x1.Idx → α) (i : Fin 10000) (c : Fin 128) :
    broadcastInDim S10000x128 ![0, 1] bcast_S10000x1_S10000x128_0_1 x (ix2 i c) = x (ix2 i (0 : Fin 1)) :=
  broadcastInDim_apply _ bcast_S10000x1_S10000x128_0_1 x (ix2 i c) (ix2 i (0 : Fin 1))
    (fun a => match a with
      | ⟨0, _⟩ => by show i.val = if (10000 : Nat) = 1 then 0 else i.val; rw [if_neg (by decide)]
      | ⟨1, _⟩ => by show (0 : Nat) = if (1 : Nat) = 1 then 0 else c.val; rw [if_pos rfl])

/-- A bias vector added along the rows: the two broadcasts composed. -/
theorem bias_apply (b : S128.Idx → α) (i : Fin 10000) (c : Fin 128) :
    broadcastInDim S10000x128 ![0, 1] bcast_S1x128_S10000x128_0_1
      (broadcastInDim S1x128 ![1] bcast_S128_S1x128_1 b) (ix2 i c) = b (ix1 c) :=
  (bcast_feat_tall_apply _ i c).trans (bcast_feat_row_apply b 0 c)

end Broadcasts

/-! ## Row sums -/

/-- The sum of a feature row, from the zero word. -/
theorem rowsum128_apply (x : FVec Ideal S10000x128 .f32) (i : Fin 10000) :
    Host.reduceAdd x (constant (F := Ideal) S_ .f32 0x00000000#32) reducesTo_S10000x128_S10000_d1 h_S_ (ix1 i)
      = ∑ k : Fin 128, x (ix2 i k) := by
  refine (hostReduceAdd_apply x _ reducesTo_S10000x128_S10000_d1 h_S_ (ix1 i)).trans ?_
  rw [Ideal.hostReduceAdd_single reducesTo_S10000x128_S10000_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- The sum of an adjacency row, from the zero word. -/
theorem rowsum10000_apply (x : FVec Ideal S10000x10000 .f32) (i : Fin 10000) :
    Host.reduceAdd x (constant (F := Ideal) S_ .f32 0x00000000#32) reducesTo_S10000x10000_S10000_d1 h_S_ (ix1 i)
      = ∑ j : Fin 10000, x (ix2 i j) := by
  refine (hostReduceAdd_apply x _ reducesTo_S10000x10000_S10000_d1 h_S_ (ix1 i)).trans ?_
  rw [Ideal.hostReduceAdd_single reducesTo_S10000x10000_S10000_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

end Cert.ReferenceIdeal.RefRead

end
-- ==== Proof.RefReadDot.lean ====
/-
  The reference's two matrix products read at an index: each contracts ONE axis, so at row `i` and
  column `c` it is the sum over the contracted coordinate `k` of the left operand at `(i, k)` times the
  right operand at `(k, c)`.
-/
import proofs.«110087_g67448166416678_cont_sun_m_1095_9_alg».proof.ReferenceIdeal
import Idealize.ShloMosaic.PureOps.Ideal.Laws
import Idealize.ShloMosaic.Lib.ValueIdx

noncomputable section

namespace Cert.ReferenceIdeal.RefRead

open Idealize.ShloMosaic Idealize.ShloMosaic.ValueIdx
open Cert.ReferenceIdeal Cert.ReferenceIdeal.Facts₀ Cert.ReferenceIdeal.Facts

variable [Facts]

/-! ### The product S10000x128 × S128x128 -/

theorem rank_feat : dot_S10000x128_S128x128_S10000x128_1_0_0_1_n_n.contr.rank = 1 := rfl

theorem lhs_feat_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch from
        (show ¬(0 : Fin S10000x128.rank) ∈ ([] : List (Fin S10000x128.rank)) from List.not_mem_nil)),
      dif_pos (show (0 : Fin S10000x128.rank) ∈ dot_S10000x128_S128x128_S10000x128_1_0_0_1_n_n.lhsNonContracting from
        (show (0 : Fin S10000x128.rank) ∈ [(0 : Fin S10000x128.rank)] from List.mem_singleton.mpr rfl))]
  rfl

theorem lhs_feat_1 (i : S10000x128.Idx) (q : dot_S10000x128_S128x128_S10000x128_1_0_0_1_n_n.contr.Idx) :
    (dot_S10000x128_S128x128_S10000x128_1_0_0_1_n_n.lhsIdx i q 1).val = (q ⟨0, by have := rank_feat; omega⟩).val :=
  dot_S10000x128_S128x128_S10000x128_1_0_0_1_n_n.lhsIdx_val_of_single rfl i q

theorem rhs_feat_0 (i : S10000x128.Idx) (q : dot_S10000x128_S128x128_S10000x128_1_0_0_1_n_n.contr.Idx) :
    (dot_S10000x128_S128x128_S10000x128_1_0_0_1_n_n.rhsIdx i q 0).val = (q ⟨0, by have := rank_feat; omega⟩).val :=
  dot_S10000x128_S128x128_S10000x128_1_0_0_1_n_n.rhsIdx_val_of_single rfl i q

theorem rhs_feat_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch from
        (show ¬(1 : Fin S128x128.rank) ∈ ([] : List (Fin S128x128.rank)) from List.not_mem_nil)),
      dif_pos (show (1 : Fin S128x128.rank) ∈ dot_S10000x128_S128x128_S10000x128_1_0_0_1_n_n.rhsNonContracting from
        (show (1 : Fin S128x128.rank) ∈ [(1 : Fin S128x128.rank)] from List.mem_singleton.mpr rfl))]
  rfl

/-- The product at row `i`, column `c`: the sum over the contracted coordinate. -/
theorem dot_feat_apply (l : FVec Ideal S10000x128 .f32) (r : FVec Ideal S128x128 .f32) (i : Fin 10000) (c : Fin 128) :
    Host.dotGeneral (F := Ideal) dot_S10000x128_S128x128_S10000x128_1_0_0_1_n_n none l r (ix2 i c)
      = ∑ k : Fin 128, l (ix2 i k) * r (ix2 k c) := by
  simp only [Host.dotGeneral]
  rw [Ideal.dotGeneral_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 i c) ((contrEquiv1 dot_S10000x128_S128x128_S10000x128_1_0_0_1_n_n 128 rfl rfl).symm k) = ix2 i k :=
    funext fun a => Fin.ext (by
      match a with
      | ⟨0, _⟩ => exact lhs_feat_0 _ _
      | ⟨1, _⟩ => exact (lhs_feat_1 _ _).trans hk)
  have er : dot_S10000x128_S128x128_S10000x128_1_0_0_1_n_n.rhsIdx (ix2 i c) ((contrEquiv1 dot_S10000x128_S128x128_S10000x128_1_0_0_1_n_n 128 rfl rfl).symm k) = ix2 k c :=
    funext fun a => Fin.ext (by
      match a with
      | ⟨0, _⟩ => exact (rhs_feat_0 _ _).trans hk
      | ⟨1, _⟩ => exact rhs_feat_1 _ _)
  rw [el, er]

/-! ### The product S10000x10000 × S10000x128 -/

theorem rank_adj : dot_S10000x10000_S10000x128_S10000x128_1_0_0_1_n_n.contr.rank = 1 := rfl

theorem lhs_adj_0 (i : S10000x128.Idx) (q : dot_S10000x10000_S10000x128_S10000x128_1_0_0_1_n_n.contr.Idx) :
    (dot_S10000x10000_S10000x128_S10000x128_1_0_0_1_n_n.lhsIdx i q 0).val = (i 0).val := by
  unfold DotDims.lhsIdx
  rw [dif_neg (show ¬(0 : Fin S10000x10000.rank) ∈ dot_S10000x10000_S10000x128_S10000x128_1_0_0_1_n_n.lhsBatch from
        (show ¬(0 : Fin S10000x10000.rank) ∈ ([] : List (Fin S10000x10000.rank)) from List.not_mem_nil)),
      dif_pos (show (0 : Fin S10000x10000.rank) ∈ dot_S10000x10000_S10000x128_S10000x128_1_0_0_1_n_n.lhsNonContracting from
        (show (0 : Fin S10000x10000.rank) ∈ [(0 : Fin S10000x10000.rank)] from List.mem_singleton.mpr rfl))]
  rfl

theorem lhs_adj_1 (i : S10000x128.Idx) (q : dot_S10000x10000_S10000x128_S10000x128_1_0_0_1_n_n.contr.Idx) :
    (dot_S10000x10000_S10000x128_S10000x128_1_0_0_1_n_n.lhsIdx i q 1).val = (q ⟨0, by have := rank_adj; omega⟩).val :=
  dot_S10000x10000_S10000x128_S10000x128_1_0_0_1_n_n.lhsIdx_val_of_single rfl i q

theorem rhs_adj_0 (i : S10000x128.Idx) (q : dot_S10000x10000_S10000x128_S10000x128_1_0_0_1_n_n.contr.Idx) :
    (dot_S10000x10000_S10000x128_S10000x128_1_0_0_1_n_n.rhsIdx i q 0).val = (q ⟨0, by have := rank_adj; omega⟩).val :=
  dot_S10000x10000_S10000x128_S10000x128_1_0_0_1_n_n.rhsIdx_val_of_single rfl i q

theorem rhs_adj_1 (i : S10000x128.Idx) (q : dot_S10000x10000_S10000x128_S10000x128_1_0_0_1_n_n.contr.Idx) :
    (dot_S10000x10000_S10000x128_S10000x128_1_0_0_1_n_n.rhsIdx i q 1).val = (i 1).val := by
  unfold DotDims.rhsIdx
  rw [dif_neg (show ¬(1 : Fin S10000x128.rank) ∈ dot_S10000x10000_S10000x128_S10000x128_1_0_0_1_n_n.rhsBatch from
        (show ¬(1 : Fin S10000x128.rank) ∈ ([] : List (Fin S10000x128.rank)) from List.not_mem_nil)),
      dif_pos (show (1 : Fin S10000x128.rank) ∈ dot_S10000x10000_S10000x128_S10000x128_1_0_0_1_n_n.rhsNonContracting from
        (show (1 : Fin S10000x128.rank) ∈ [(1 : Fin S10000x128.rank)] from List.mem_singleton.mpr rfl))]
  rfl

/-- The product at row `i`, column `c`: the sum over the contracted coordinate. -/
theorem dot_adj_apply (l : FVec Ideal S10000x10000 .f32) (r : FVec Ideal S10000x128 .f32) (i : Fin 10000) (c : Fin 128) :
    Host.dotGeneral (F := Ideal) dot_S10000x10000_S10000x128_S10000x128_1_0_0_1_n_n none l r (ix2 i c)
      = ∑ k : Fin 10000, l (ix2 i k) * r (ix2 k c) := by
  simp only [Host.dotGeneral]
  rw [Ideal.dotGeneral_apply, ← Equiv.sum_comp (contrEquiv1 dot_S10000x10000_S10000x128_S10000x128_1_0_0_1_n_n 10000 rfl rfl).symm]
  refine Finset.sum_congr rfl fun k _ => ?_
  have hk := contrEquiv1_symm_val dot_S10000x10000_S10000x128_S10000x128_1_0_0_1_n_n 10000 rfl rfl k
  have el : dot_S10000x10000_S10000x128_S10000x128_1_0_0_1_n_n.lhsIdx (ix2 i c) ((contrEquiv1 dot_S10000x10000_S10000x128_S10000x128_1_0_0_1_n_n 10000 rfl rfl).symm k) = ix2 i k :=
    funext fun a => Fin.ext (by
      match a with
      | ⟨0, _⟩ => exact lhs_adj_0 _ _
      | ⟨1, _⟩ => exact (lhs_adj_1 _ _).trans hk)
  have er : dot_S10000x10000_S10000x128_S10000x128_1_0_0_1_n_n.rhsIdx (ix2 i c) ((contrEquiv1 dot_S10000x10000_S10000x128_S10000x128_1_0_0_1_n_n 10000 rfl rfl).symm k) = ix2 k c :=
    funext fun a => Fin.ext (by
      match a with
      | ⟨0, _⟩ => exact (rhs_adj_0 _ _).trans hk
      | ⟨1, _⟩ => exact rhs_adj_1 _ _)
  rw [el, er]

end Cert.ReferenceIdeal.RefRead

end
-- ==== Proof.RefReadStage.lean ====
/-
  Each named piece of the reference's pure value read at an index, over VARIABLE arrays: the guarded
  inverse root of a row sum, the adjacency normalised entry by entry, a dense layer, one convolution
  layer, and layer normalisation (row mean, biased row variance, centred row divided by the root of the
  guarded variance, scaled, shifted and rectified).

  The variance's divisor is spelt `128 - 0` with the zero an integer converted to a float, and the
  quotient is kept only where that divisor is positive; since 128 is positive the quotient is always kept.
-/
import proofs.«110087_g67448166416678_cont_sun_m_1095_9_alg».proof.Proof.RefFn
import proofs.«110087_g67448166416678_cont_sun_m_1095_9_alg».proof.Proof.RefReadOps
import proofs.«110087_g67448166416678_cont_sun_m_1095_9_alg».proof.Proof.RefReadDot

noncomputable section

namespace Cert.ReferenceIdeal.RefRead

open Idealize.ShloMosaic Idealize.ShloMosaic.ValueIdx
open Cert.ReferenceIdeal Cert.ReferenceIdeal.Facts₀ Cert.ReferenceIdeal.Facts
open Cert.ReferenceIdeal.RefValue

variable [Facts]

/-! ## Pointwise host operations -/

theorem hostRsqrt_apply {s : Shape} {φ : FTy} (x : FVec Ideal s φ) (i : s.Idx) :
    Host.rsqrt x i = Ideal.rsqrt (x i) := rfl

theorem hostSqrt_apply {s : Shape} {φ : FTy} (x : FVec Ideal s φ) (i : s.Idx) :
    Host.sqrt x i = Ideal.sqrt (x i) := rfl

/-! ## Splats and layouts -/

theorem splatS_apply (w : BitVec 32) (i : Fin 10000) (c : Fin 128) :
    splatS (F := Ideal) w (ix2 i c) = Ideal.ofBits .f32 w := by
  unfold splatS; rw [broadcastInDim_scalar_apply, constant_apply]

theorem colS_apply (s : FVec Ideal S_ .f32) (i : Fin 10000) (z : Fin 1) : colS s (ix2 i z) = s ix0 := by
  unfold colS; exact broadcastInDim_scalar_apply _ s _

theorem asColS_apply (v : FVec Ideal S10000 .f32) (i : Fin 10000) (z : Fin 1) : asColS v (ix2 i z) = v (ix1 i) := by
  unfold asColS; exact bcast_col_apply v i z

theorem colWideS_apply (v : FVec Ideal S10000x1 .f32) (i : Fin 10000) (c : Fin 128) :
    colWideS v (ix2 i c) = v (ix2 i (0 : Fin 1)) := by
  unfold colWideS; exact bcast_col_feat_apply v i c

theorem biasS_apply (b : FVec Ideal S128 .f32) (i : Fin 10000) (c : Fin 128) : biasS b (ix2 i c) = b (ix1 c) := by
  unfold biasS; exact bias_apply b i c

theorem rowSumS_apply (x : FVec Ideal S10000x128 .f32) (i : Fin 10000) :
    rowSumS x (ix1 i) = ∑ k : Fin 128, x (ix2 i k) := by
  unfold rowSumS zeroS; exact rowsum128_apply x i

/-! ## The graph side -/

/-- The guarded inverse root of a node's degree. -/
theorem dinvS_apply (a1 : FVec Ideal S10000x10000 .f32) (i : Fin 10000) :
    dinvS a1 (ix1 i) = Gcn.dinv (fun p q => a1 (ix2 p q)) i := by
  unfold dinvS zeroS
  rw [hostRsqrt_apply, addf_apply, rowsum10000_apply, broadcastInDim_scalar_apply, constant_apply]
  rfl

/-- The adjacency normalised entry by entry. -/
theorem anormS_apply (a1 : FVec Ideal S10000x10000 .f32) (i j : Fin 10000) :
    anormS a1 (ix2 i j)
      = (a1 (ix2 i j) * Gcn.dinv (fun p q => a1 (ix2 p q)) i) * Gcn.dinv (fun p q => a1 (ix2 p q)) j := by
  unfold anormS
  rw [mulf_apply, mulf_apply, bcast_col_wide_apply, asColS_apply, bcast_row_tall_apply, bcast_row_apply,
    dinvS_apply, dinvS_apply]

/-! ## Dense layers, the rectifier, one convolution -/

theorem denseS_apply (h : FVec Ideal S10000x128 .f32) (w : FVec Ideal S128x128 .f32) (b : FVec Ideal S128 .f32)
    (i : Fin 10000) (c : Fin 128) :
    denseS h w b (ix2 i c)
      = Gcn.linRow (fun k => h (ix2 i k)) (fun k q => w (ix2 k q)) (fun q => b (ix1 q)) c := by
  unfold denseS
  rw [addf_apply, dot_feat_apply, biasS_apply]
  rfl

theorem reluS_apply (x : FVec Ideal S10000x128 .f32) (i : Fin 10000) (c : Fin 128) :
    reluS x (ix2 i c) = max (x (ix2 i c)) 0 := by
  unfold reluS zeroS
  rw [maximumf_apply, broadcastInDim_scalar_apply, constant_apply, Ideal.ofBits_zero_f32]

theorem supS_apply (an : FVec Ideal S10000x10000 .f32) (h h0 : FVec Ideal S10000x128 .f32) (i : Fin 10000) (c : Fin 128) :
    supS an h h0 (ix2 i c)
      = Gcn.supRow (fun q => ∑ j : Fin 10000, an (ix2 i j) * h (ix2 j q)) (fun q => h0 (ix2 i q)) c := by
  unfold supS
  rw [addf_apply, mulf_apply, mulf_apply, splatS_apply, splatS_apply, dot_adj_apply]
  rfl

theorem layerS_apply (θ θ' : BitVec 32) (an : FVec Ideal S10000x10000 .f32) (h h0 : FVec Ideal S10000x128 .f32)
    (w : FVec Ideal S128x128 .f32) (b : FVec Ideal S128 .f32) (i : Fin 10000) (c : Fin 128) :
    layerS θ θ' an h h0 w b (ix2 i c)
      = Gcn.gcnRow (Ideal.ofBits .f32 θ) (Ideal.ofBits .f32 θ') (fun k q => w (ix2 k q)) (fun q => b (ix1 q))
          (Gcn.supRow (fun q => ∑ j : Fin 10000, an (ix2 i j) * h (ix2 j q)) (fun q => h0 (ix2 i q))) c := by
  unfold layerS
  rw [reluS_apply, addf_apply, addf_apply, mulf_apply, mulf_apply, splatS_apply, splatS_apply, dot_feat_apply,
    biasS_apply]
  simp only [supS_apply]
  rfl

/-! ## Layer normalisation -/

theorem meanS_apply (x : FVec Ideal S10000x128 .f32) (i : Fin 10000) (z : Fin 1) :
    meanS x (ix2 i z) = Gcn.meanRow (fun k => x (ix2 i k)) := by
  unfold meanS
  rw [hostDivf_apply, asColS_apply, rowSumS_apply, colS_apply, constant_apply]
  rfl

theorem cenS_apply (x : FVec Ideal S10000x128 .f32) (i : Fin 10000) (c : Fin 128) :
    cenS x (ix2 i c) = x (ix2 i c) - Gcn.meanRow (fun k => x (ix2 i k)) := by
  unfold cenS
  rw [subf_apply, colWideS_apply, meanS_apply]

/-- The variance's divisor, `128 - 0`, is 128. -/
theorem ddofS_apply : ddofS (F := Ideal) ix0 = Ideal.ofBits .f32 0x43000000#32 := by
  unfold ddofS
  rw [subf_apply, constant_apply, sitofp_apply]
  show Ideal.ofBits .f32 0x43000000#32 - (((constantI S_ 32 0#32 ix0 : BitVec 32).toInt : ℝ) : EReal) = _
  simp [constantI]

/-- The divisor is positive, so the comparison answers one. -/
theorem ddof_pos : FloatOps.cmpf .ogt (ddofS (F := Ideal) ix0) (zeroS (F := Ideal) ix0) = 1#1 := by
  rw [ddofS_apply]
  unfold zeroS
  rw [constant_apply, Ideal.ofBits_zero_f32, Ideal.cmpf_def]
  simp [Ideal.cmp, c128_pos]

theorem varS_apply (x : FVec Ideal S10000x128 .f32) (i : Fin 10000) (z : Fin 1) :
    varS x (ix2 i z) = Gcn.varRow (fun k => x (ix2 i k)) := by
  unfold varS
  rw [select_apply, broadcastInDim_scalar_apply, cmpf_apply, ddof_pos, select_one, hostDivf_apply, asColS_apply,
    rowSumS_apply, colS_apply, ddofS_apply]
  simp only [mulf_apply, cenS_apply]
  rfl

theorem lnS_apply (x : FVec Ideal S10000x128 .f32) (g b : FVec Ideal S128 .f32) (i : Fin 10000) (c : Fin 128) :
    lnS x g b (ix2 i c)
      = Gcn.reluRow (Gcn.lnR (fun k => x (ix2 i k)) (fun q => g (ix1 q)) (fun q => b (ix1 q))) c := by
  unfold lnS
  rw [reluS_apply, addf_apply, mulf_apply, hostDivf_apply, cenS_apply, colWideS_apply, hostSqrt_apply, addf_apply,
    varS_apply, colS_apply, constant_apply, biasS_apply, biasS_apply]
  rfl

end Cert.ReferenceIdeal.RefRead

end
-- ==== Proof.RefReadOut.lean ====
/-
  The reference's pure value at row `i` and feature `k` is the textbook arrangement of the specification
  applied to the eighteen argument arrays read entry by entry: two convolution layers over the adjacency
  normalised entry by entry, then the three-layer head whose normalisation divides by a square root.
-/
import proofs.«110087_g67448166416678_cont_sun_m_1095_9_alg».proof.Proof.RefReadStage

noncomputable section

namespace Cert.ReferenceIdeal.RefRead

open Idealize.ShloMosaic Idealize.ShloMosaic.ValueIdx
open Cert.ReferenceIdeal Cert.ReferenceIdeal.Facts₀ Cert.ReferenceIdeal.Facts
open Cert.ReferenceIdeal.RefValue

variable [Facts]

theorem refOut_apply
    (a0 : FVec Ideal S10000x128 .f32) (a1 : FVec Ideal S10000x10000 .f32)
    (a2 : FVec Ideal S128x128 .f32) (a3 : FVec Ideal S128 .f32)
    (a4 : FVec Ideal S128x128 .f32) (a5 : FVec Ideal S128 .f32)
    (a6 : FVec Ideal S128x128 .f32) (a7 : FVec Ideal S128 .f32)
    (a8 : FVec Ideal S128x128 .f32) (a9 a10 a11 : FVec Ideal S128 .f32)
    (a12 : FVec Ideal S128x128 .f32) (a13 a14 a15 : FVec Ideal S128 .f32)
    (a16 : FVec Ideal S128x128 .f32) (a17 : FVec Ideal S128 .f32)
    (i : Fin 10000) (k : Fin 128) :
    RefValue.refOut (F := Ideal) a0 a1 a2 a3 a4 a5 a6 a7 a8 a9 a10 a11 a12 a13 a14 a15 a16 a17 (ix2 i k)
      = Gcn.outR (fun p q => a0 (ix2 p q)) (fun p q => a1 (ix2 p q)) (fun p q => a2 (ix2 p q)) (fun q => a3 (ix1 q))
          (fun p q => a4 (ix2 p q)) (fun q => a5 (ix1 q)) (fun p q => a6 (ix2 p q)) (fun q => a7 (ix1 q))
          (fun p q => a8 (ix2 p q)) (fun q => a9 (ix1 q)) (fun q => a10 (ix1 q)) (fun q => a11 (ix1 q))
          (fun p q => a12 (ix2 p q)) (fun q => a13 (ix1 q)) (fun q => a14 (ix1 q)) (fun q => a15 (ix1 q))
          (fun p q => a16 (ix2 p q)) (fun q => a17 (ix1 q)) i k := by
  unfold refOut embedS
  simp only [denseS_apply, lnS_apply, layerS_apply, anormS_apply]
  rfl

end Cert.ReferenceIdeal.RefRead

end
-- ==== Proof.lean ====
/-
  The proof of `Cert.Claim`: the fused four-launch graph convolution (degree row sums; embedding and
  normaliser; first layer; second layer with the normalised three-layer head) against its textbook jnp reference,
  equal as extended reals wherever every node's degree is nonnegative.

  * The three frames: the two printed forms of the fused program by their generated frame proofs; the reference by
    its run (RefRun.lean) with the result dropped.
  * `preserves`: the idealised program is the program's own text, nothing was rewritten.
  * `algebraic`: the fused program's result array is `Gcn.outK` of the arguments (KRunNamed.lean, KChain.lean: the
    four launches' values chained), the reference's is `Gcn.outR` (RefRun.lean, RefReadOut.lean), and the two
    functions agree when the degrees are nonnegative (Bridge.lean): the normaliser is then a nonnegative finite
    number, which may be moved across the aggregate's sum, and a guarded variance is always positive, where
    multiplying by an inverse square root is dividing by the square root. The precondition's last conjunct gives the
    nonnegative degrees (PreDeg.lean); the finiteness of the inputs is not used.
-/
import proofs.«110087_g67448166416678_cont_sun_m_1095_9_alg».proof.Defs
import proofs.«110087_g67448166416678_cont_sun_m_1095_9_alg».proof.Proof.Gen.Kernel
import proofs.«110087_g67448166416678_cont_sun_m_1095_9_alg».proof.Proof.Gen.Kernel.Skeleton
import proofs.«110087_g67448166416678_cont_sun_m_1095_9_alg».proof.Proof.Gen.Kernel.Launch
import proofs.«110087_g67448166416678_cont_sun_m_1095_9_alg».proof.Proof.Gen.Kernel.Points
import proofs.«110087_g67448166416678_cont_sun_m_1095_9_alg».proof.Proof.Gen.Kernel.Frame
import proofs.«110087_g67448166416678_cont_sun_m_1095_9_alg».proof.Proof.Gen.KernelIdeal
import proofs.«110087_g67448166416678_cont_sun_m_1095_9_alg».proof.Proof.Gen.KernelIdeal.Skeleton
import proofs.«110087_g67448166416678_cont_sun_m_1095_9_alg».proof.Proof.Gen.KernelIdeal.Launch
import proofs.«110087_g67448166416678_cont_sun_m_1095_9_alg».proof.Proof.Gen.KernelIdeal.Points
import proofs.«110087_g67448166416678_cont_sun_m_1095_9_alg».proof.Proof.Gen.KernelIdeal.Frame
import proofs.«110087_g67448166416678_cont_sun_m_1095_9_alg».proof.Proof.Gen.ReferenceIdeal
import proofs.«110087_g67448166416678_cont_sun_m_1095_9_alg».proof.Proof.Gen.Pre_finite_inputs
import proofs.«110087_g67448166416678_cont_sun_m_1095_9_alg».proof.Proof.Bridge
import proofs.«110087_g67448166416678_cont_sun_m_1095_9_alg».proof.Proof.PreDeg
import proofs.«110087_g67448166416678_cont_sun_m_1095_9_alg».proof.Proof.KRunNamed
import proofs.«110087_g67448166416678_cont_sun_m_1095_9_alg».proof.Proof.KChain
import proofs.«110087_g67448166416678_cont_sun_m_1095_9_alg».proof.Proof.RefRun
import proofs.«110087_g67448166416678_cont_sun_m_1095_9_alg».proof.Proof.RefReadOut
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- The fused program's result buffer at the end of its run, as a whole array: the reference's function of the
    same argument arrays, when every degree is nonnegative. Index by index: the chained launches give
    `Gcn.outK`, the reference's stages `Gcn.outR`, and the two agree. -/
theorem kernel_result (m : (ℓ : Loc Cert.KernelIdeal.nD Cert.KernelIdeal.τ Cert.KernelIdeal.sig) → Buf (Elt Ideal) ℓ) (ρ : Dev Cert.KernelIdeal.nD → PrngReg)
    (c : Dev Cert.KernelIdeal.nD)
    (hdeg : ∀ i, 0 ≤ Cert.Gcn.deg (Cert.KernelIdeal.KVal.matNN (Cert.KernelIdeal.KVal.arg m c Cert.KernelIdeal.main_arg1)) i) :
    (Cert.KernelIdeal.Gen.W7 m ρ c (Proc.devRef .tc Cert.KernelIdeal.main_v13) : Cert.KernelIdeal.S10000x128.Idx → EReal)
      = Cert.ReferenceIdeal.RefValue.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)) := by
  funext j
  obtain ⟨i, k, rfl⟩ : ∃ (i : Fin 10000) (k : Fin 128), j = ix2 i k := ⟨j 0, j 1, eq_ix2 j⟩
  refine (Cert.KernelIdeal.KVal.result_apply m ρ c i k).trans ?_
  refine Eq.trans ?_ (Cert.ReferenceIdeal.RefRead.refOut_apply _ _ _ _ _ _ _ _ _ _ _ _ _ _ _ _ _ _ i k).symm
  exact congrFun (congrFun (Cert.Gcn.outK_eq_outR _ _ _ _ _ _ _ _ _ _ _ _ _ _ _ _ _ _ hdeg) i) k

theorem algebraic : Cert.algebraic_KernelIdeal_ReferenceIdeal := by
  intro m ρ m' ρ' hpre hagree
  have hdeg : ∀ (c : Dev Cert.KernelIdeal.nD) (i : Fin 10000),
      0 ≤ Cert.Gcn.deg (Cert.KernelIdeal.KVal.matNN (Cert.KernelIdeal.KVal.arg m c Cert.KernelIdeal.main_arg1)) i := fun c i =>
    Cert.Pre_finite_inputs.Deg.deg_nonneg _ _ _ _ _ _ _ _ _ _ _ _ _ _ _ _ _ _ (hpre c) i
  refine ⟨fun c => Cert.ReferenceIdeal.RefValue.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · refine (θ_run Cert.KernelIdeal.defs _ _).mono (fun r h c => ⟨?_, (h c).2⟩) (Cert.KernelIdeal.KVal.run_named m ρ)
    exact ((h c).1).trans (kernel_result m ρ c (hdeg c))
  · refine (θ_run Cert.ReferenceIdeal.defs _ _).mono (fun r h c => ⟨?_, (h c).2⟩) (Cert.ReferenceIdeal.RefValue.run (F := Ideal) m' ρ')
    rw [(h c).1, (hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2.1,
      (hagree c).2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
